-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x512 : Shape := ⟨2, ![12288, 512]⟩
abbrev S12288x12288 : Shape := ⟨2, ![12288, 12288]⟩
abbrev S12288 : Shape := ⟨1, ![12288]⟩
abbrev S3x512x512 : Shape := ⟨3, ![3, 512, 512]⟩
abbrev S3x512 : Shape := ⟨2, ![3, 512]⟩
abbrev S32x1536 : Shape := ⟨2, ![32, 1536]⟩
abbrev S32 : Shape := ⟨1, ![32]⟩
abbrev S_ : Shape := ⟨0, ![]⟩

class Facts : Prop where
  bcast_S_S12288x512 : S_.BroadcastsInDim S12288x512 (![] : Fin 0 → Fin S12288x512.rank)
  reducesTo_S12288x512_S_d0_1 : S12288x512.ReducesTo [0, 1] S_
  h_S_ : 0 < S_.numel
  bcast_S_S12288x12288 : S_.BroadcastsInDim S12288x12288 (![] : Fin 0 → Fin S12288x12288.rank)
  reducesTo_S12288x12288_S_d0_1 : S12288x12288.ReducesTo [0, 1] S_
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_
  bcast_S_S32x1536 : S_.BroadcastsInDim S32x1536 (![] : Fin 0 → Fin S32x1536.rank)
  reducesTo_S32x1536_S_d0_1 : S32x1536.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg5 : FVec F S3x512x512 .f32) (main_arg6 : FVec F S3x512 .f32) (main_arg7 : FVec F S32x1536 .f32) (main_arg8 : FVec F S32 .f32) (main_v13 : IVec S_ 1) (main_v16 : IVec S3x512 1) : IVec S_ 1 :=
  let main_c_5 : IVec S_ 1 := constantI S_ 1 1#1
  let main_v17 : IVec S_ 1 := (fun x v => Host.reduce IntOp.andi x v reducesTo_S3x512_S_d0_1 h_S_) main_v16 main_c_5
  let main_v18 : IVec S_ 1 := andi main_v13 main_v17
  let main_v19 : FVec F S3x512x512 .f32 := Host.absf main_arg5
  let main_cst_6 : FVec F S_ .f32 := constant S_ .f32 0x7F800000#32
  let main_v20 : FVec F S3x512x512 .f32 := broadcastInDim S3x512x512 ![] bcast_S_S3x512x512 main_cst_6
  let main_v21 : IVec S3x512x512 1 := cmpf .olt main_v19 main_v20
  let main_c_7 : IVec S_ 1 := constantI S_ 1 1#1
  let main_v22 : IVec S_ 1 := (fun x v => Host.reduce IntOp.andi x v reducesTo_S3x512x512_S_d0_1_2 h_S_) main_v21 main_c_7
  let main_v23 : IVec S_ 1 := andi main_v18 main_v22
  let main_v24 : FVec F S3x512 .f32 := Host.absf main_arg6
  let main_cst_8 : FVec F S_ .f32 := constant S_ .f32 0x7F800000#32
  let main_v25 : FVec F S3x512 .f32 := broadcastInDim S3x512 ![] bcast_S_S3x512 main_cst_8
  let main_v26 : IVec S3x512 1 := cmpf .olt main_v24 main_v25
  let main_c_9 : IVec S_ 1 := constantI S_ 1 1#1
  let main_v27 : IVec S_ 1 := (fun x v => Host.reduce IntOp.andi x v reducesTo_S3x512_S_d0_1 h_S_) main_v26 main_c_9
  let main_v28 : IVec S_ 1 := andi main_v23 main_v27
  let main_v29 : FVec F S32x1536 .f32 := Host.absf main_arg7
  let main_cst_10 : FVec F S_ .f32 := constant S_ .f32 0x7F800000#32
  let main_v30 : FVec F S32x1536 .f32 := broadcastInDim S32x1536 ![] bcast_S_S32x1536 main_cst_10
  let main_v31 : IVec S32x1536 1 := cmpf .olt main_v29 main_v30
  let main_c_11 : IVec S_ 1 := constantI S_ 1 1#1
  let main_v32 : IVec S_ 1 := (fun x v => Host.reduce IntOp.andi x v reducesTo_S32x1536_S_d0_1 h_S_) main_v31 main_c_11
  let main_v33 : IVec S_ 1 := andi main_v28 main_v32
  fn_part2 (F := F) main_arg8 main_v33

def fn {F : FTy → Type} [FloatOps F] (main_arg0 : FVec F S12288x512 .f32) (main_arg1 : FVec F S12288x12288 .f32) (main_arg2 : IVec S12288 32) (main_arg3 : FVec F S3x512x512 .f32) (main_arg4 : FVec F S3x512 .f32) (main_arg5 : FVec F S3x512x512 .f32) (main_arg6 : FVec F S3x512 .f32) (main_arg7 : FVec F S32x1536 .f32) (main_arg8 : FVec F S32 .f32) : IVec S_ 1 :=
  let main_v0 : FVec F S12288x512 .f32 := Host.absf main_arg0
  let main_cst : FVec F S_ .f32 := constant S_ .f32 0x7F800000#32
  let main_v1 : FVec F S12288x512 .f32 := broadcastInDim S12288x512 ![] bcast_S_S12288x512 main_cst
  let main_v2 : IVec S12288x512 1 := cmpf .olt main_v0 main_v1
  let main_c : IVec S_ 1 := constantI S_ 1 1#1
  let main_v3 : IVec S_ 1 := (fun x v => Host.reduce IntOp.andi x v reducesTo_S12288x512_S_d0_1 h_S_) main_v2 main_c
  let main_v4 : FVec F S12288x12288 .f32 := Host.absf main_arg1
  let main_cst_0 : FVec F S_ .f32 := constant S_ .f32 0x7F800000#32
  let main_v5 : FVec F S12288x12288 .f32 := broadcastInDim S12288x12288 ![] bcast_S_S12288x12288 main_cst_0
  let main_v6 : IVec S12288x12288 1 := cmpf .olt main_v4 main_v5
  let main_c_1 : IVec S_ 1 := constantI S_ 1 1#1
  let main_v7 : IVec S_ 1 := (fun x v => Host.reduce IntOp.andi x v reducesTo_S12288x12288_S_d0_1 h_S_) main_v6 main_c_1
  let main_v8 : IVec S_ 1 := andi main_v3 main_v7
  let main_v9 : FVec F S3x512x512 .f32 := Host.absf main_arg3
  let main_cst_2 : FVec F S_ .f32 := constant S_ .f32 0x7F800000#32
  let main_v10 : FVec F S3x512x512 .f32 := broadcastInDim S3x512x512 ![] bcast_S_S3x512x512 main_cst_2
  let main_v11 : IVec S3x512x512 1 := cmpf .olt main_v9 main_v10
  let main_c_3 : IVec S_ 1 := constantI S_ 1 1#1
  let main_v12 : IVec S_ 1 := (fun x v => Host.reduce IntOp.andi x v reducesTo_S3x512x512_S_d0_1_2 h_S_) main_v11 main_c_3
  let main_v13 : IVec S_ 1 := andi main_v8 main_v12
  let main_v14 : FVec F S3x512 .f32 := Host.absf main_arg4
  let main_cst_4 : FVec F S_ .f32 := constant S_ .f32 0x7F800000#32
  let main_v15 : FVec F S3x512 .f32 := broadcastInDim S3x512 ![] bcast_S_S3x512 main_cst_4
  let main_v16 : IVec S3x512 1 := cmpf .olt main_v14 main_v15
  fn_part1 (F := F) main_arg5 main_arg6 main_arg7 main_arg8 main_v13 main_v16
-- ==== Kernel.lean ====
abbrev S12288x512 : Shape := ⟨2, ![12288, 512]⟩
abbrev S12288x12288 : Shape := ⟨2, ![12288, 12288]⟩
abbrev S12288 : Shape := ⟨1, ![12288]⟩
abbrev S3x512x512 : Shape := ⟨3, ![3, 512, 512]⟩
abbrev S3x512 : Shape := ⟨2, ![3, 512]⟩
abbrev S32x1536 : Shape := ⟨2, ![32, 1536]⟩
abbrev S32 : Shape := ⟨1, ![32]⟩
abbrev S3x4096x512 : Shape := ⟨3, ![3, 4096, 512]⟩
abbrev S3x1x512 : Shape := ⟨3, ![3, 1, 512]⟩
abbrev S32x3x512 : Shape := ⟨3, ![32, 3, 512]⟩
abbrev S3x32x512 : Shape := ⟨3, ![3, 32, 512]⟩
abbrev S1x32 : Shape := ⟨2, ![1, 32]⟩
abbrev S1x1024x512 : Shape := ⟨3, ![1, 1024, 512]⟩
abbrev S1x512x512 : Shape := ⟨3, ![1, 512, 512]⟩
abbrev S1x1x512 : Shape := ⟨3, ![1, 1, 512]⟩
abbrev S1024x512 : Shape := ⟨2, ![1024, 512]⟩
abbrev S512x512 : Shape := ⟨2, ![512, 512]⟩
abbrev S1x512 : Shape := ⟨2, ![1, 512]⟩
abbrev S1024x1024 : Shape := ⟨2, ![1024, 1024]⟩
abbrev S1x4096x512 : Shape := ⟨3, ![1, 4096, 512]⟩
abbrev S4096x32 : Shape := ⟨2, ![4096, 32]⟩
abbrev S1x32x512 : Shape := ⟨3, ![1, 32, 512]⟩
abbrev S4096x512 : Shape := ⟨2, ![4096, 512]⟩
abbrev S32x512 : Shape := ⟨2, ![32, 512]⟩
abbrev S512x32 : Shape := ⟨2, ![512, 32]⟩
abbrev S4096 : Shape := ⟨1, ![4096]⟩
abbrev S4096x1 : Shape := ⟨2, ![4096, 1]⟩

abbrev nBuf : Space → Nat
  | .hbm => 18
  | .vmem => 26
  | .smem => 0
  | _ => 0

abbrev bufTy : (tb : Table) → Fin (tcTables nBuf tb) → BufTy
  | .hbm, ⟨0, _⟩ => ⟨S12288x512, .f32⟩
  | .hbm, ⟨1, _⟩ => ⟨S12288x12288, .f32⟩
  | .hbm, ⟨2, _⟩ => ⟨S12288, .i32⟩
  | .hbm, ⟨3, _⟩ => ⟨S3x512x512, .f32⟩
  | .hbm, ⟨4, _⟩ => ⟨S3x512, .f32⟩
  | .hbm, ⟨5, _⟩ => ⟨S3x512x512, .f32⟩
  | .hbm, ⟨6, _⟩ => ⟨S3x512, .f32⟩
  | .hbm, ⟨7, _⟩ => ⟨S32x1536, .f32⟩
  | .hbm, ⟨8, _⟩ => ⟨S32, .f32⟩
  | .hbm, ⟨9, _⟩ => ⟨S3x4096x512, .f32⟩
  | .hbm, ⟨10, _⟩ => ⟨S3x1x512, .f32⟩
  | .hbm, ⟨11, _⟩ => ⟨S3x1x512, .f32⟩
  | .hbm, ⟨12, _⟩ => ⟨S32x3x512, .f32⟩
  | .hbm, ⟨13, _⟩ => ⟨S3x32x512, .f32⟩
  | .hbm, ⟨14, _⟩ => ⟨S1x32, .f32⟩
  | .hbm, ⟨15, _⟩ => ⟨S3x4096x512, .bf16⟩
  | .hbm, ⟨16, _⟩ => ⟨S3x4096x512, .bf16⟩
  | .hbm, ⟨17, _⟩ => ⟨S4096x32, .f32⟩
  | .local _ .vmem, ⟨0, _⟩ => ⟨S1x1024x512, .f32⟩
  | .local _ .vmem, ⟨1, _⟩ => ⟨S1x1024x512, .f32⟩
  | .local _ .vmem, ⟨2, _⟩ => ⟨S1x512x512, .f32⟩
  | .local _ .vmem, ⟨3, _⟩ => ⟨S1x512x512, .f32⟩
  | .local _ .vmem, ⟨4, _⟩ => ⟨S1x1x512, .f32⟩
  | .local _ .vmem, ⟨5, _⟩ => ⟨S1x1x512, .f32⟩
  | .local _ .vmem, ⟨6, _⟩ => ⟨S1x1024x512, .bf16⟩
  | .local _ .vmem, ⟨7, _⟩ => ⟨S1x1024x512, .bf16⟩
  | .local _ .vmem, ⟨8, _⟩ => ⟨S1024x1024, .f32⟩
  | .local _ .vmem, ⟨9, _⟩ => ⟨S1024x1024, .f32⟩
  | .local _ .vmem, ⟨10, _⟩ => ⟨S1x4096x512, .bf16⟩
  | .local _ .vmem, ⟨11, _⟩ => ⟨S1x4096x512, .bf16⟩
  | .local _ .vmem, ⟨12, _⟩ => ⟨S1x512x512, .f32⟩
  | .local _ .vmem, ⟨13, _⟩ => ⟨S1x512x512, .f32⟩
  | .local _ .vmem, ⟨14, _⟩ => ⟨S1x1x512, .f32⟩
  | .local _ .vmem, ⟨15, _⟩ => ⟨S1x1x512, .f32⟩
  | .local _ .vmem, ⟨16, _⟩ => ⟨S1x1024x512, .bf16⟩
  | .local _ .vmem, ⟨17, _⟩ => ⟨S1x1024x512, .bf16⟩
  | .local _ .vmem, ⟨18, _⟩ => ⟨S1024x512, .f32⟩
  | .local _ .vmem, ⟨19, _⟩ => ⟨S1x4096x512, .bf16⟩
  | .local _ .vmem, ⟨20, _⟩ => ⟨S1x4096x512, .bf16⟩
  | .local _ .vmem, ⟨21, _⟩ => ⟨S1x32x512, .f32⟩
  | .local _ .vmem, ⟨22, _⟩ => ⟨S1x32x512, .f32⟩
  | .local _ .vmem, ⟨23, _⟩ => ⟨S1x32, .f32⟩
  | .local _ .vmem, ⟨24, _⟩ => ⟨S4096x32, .f32⟩
  | .local _ .vmem, ⟨25, _⟩ => ⟨S4096x32, .f32⟩
  | _, _ => ⟨S12288x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23

abbrev nD : Nat := 1
abbrev τ : Topo := Topo.v7x

variable {F : FTy → Type} [FloatOps F]

abbrev grid0 : Pipeline.Grid := ⟨2, ![3, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![3, 4, 4], ![false, false, false]⟩

def k1_mult1 (i : grid1.Coords) : BitVec 32 :=
  let arg2 : BitVec 32 := BitVec.ofNat 32 (i 2).val
  let c1024_i32 : BitVec 32 := 1024#32
  let v5 : BitVec 32 := Scalar.muli arg2 c1024_i32
  v5
def k1_off1 (i : grid1.Coords) : Fin 3 → Nat :=
  let c0_2 : Index := 0#32
  let arg2 : BitVec 32 := BitVec.ofNat 32 (i 2).val
  let c1024_i32 : BitVec 32 := 1024#32
  let v5 : BitVec 32 := Scalar.muli arg2 c1024_i32
  let v6 : BitVec 32 := v5
  let v7 : Index := Scalar.indexCast v6
  let c0_3 : Index := 0#32
  ![0, v7.toNat, 0]
def k1_cond2 (i : grid1.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_8 : BitVec 32 := 0#32
  let v18 : BitVec 1 := Scalar.cmpi .ne v17 c0_i32_8
  v18

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1x1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨2, ![1, 3], ![false, false]⟩

def k2_cond2 (i : grid2.Coords) : BitVec 1 :=
  let arg1 : BitVec 32 := BitVec.ofNat 32 (i 1).val
  let c2_i32 : BitVec 32 := 2#32
  let v15 : BitVec 1 := Scalar.cmpi .eq arg1 c2_i32
  let v16 : BitVec 32 := Scalar.extui v15
  let c0_i32_10 : BitVec 32 := 0#32
  let v17 : BitVec 1 := Scalar.cmpi .ne v16 c0_i32_10
  v17

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x32x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S4096x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, false]

class Facts₀ : Prop where
  shapeCasts_S12288x512_S3x4096x512 : S12288x512.ShapeCasts S3x4096x512
  shapeCasts_S3x512_S3x1x512 : S3x512.ShapeCasts S3x1x512
  shapeCasts_S32x1536_S32x3x512 : S32x1536.ShapeCasts S32x3x512
  transposes_S32x3x512_S3x32x512_1_0_2 : S32x3x512.Transposes [1, 0, 2] S3x32x512
  shapeCasts_S32_S1x32 : S32.ShapeCasts S1x32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  transposes_S512x512_p1_0_S512x512 : S512x512.Transposes [1, 0] S512x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  shapeCasts_S1024x512_S1x1024x512 : S1024x512.ShapeCasts S1x1024x512
  packedbf16_S1x1024x512_S1x1024x512_0_0_0 : (Rect.unit (s := S1x1024x512) ![0, 0, 0] S1x1024x512.size inb_S1x1024x512_S1x1024x512_0_0_0).PackedRows (EltTy.packing .bf16)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  transposes_S32x512_p1_0_S512x32 : S32x512.Transposes [1, 0] S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  reduces_S4096x32_S4096 : S4096x32.Reduces [1] S4096
  shapeCasts_S4096_S4096x1 : S4096.ShapeCasts S4096x1
  broadcasts_S4096x1_S4096x32 : S4096x1.Broadcasts S4096x32
  dot_S1024x512_S512x512_S1024x512_1_0_0_1_n_n_wf : DotDims.WF S1024x512 S512x512 S1024x512 [1] [0] [0] [1] [] []
  dot_S1024x1024_S1024x512_S1024x512_1_0_0_1_n_n_wf : DotDims.WF S1024x1024 S1024x512 S1024x512 [1] [0] [0] [1] [] []
  dot_S4096x512_S512x32_S4096x32_1_0_0_1_n_n_wf : DotDims.WF S4096x512 S512x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S3x4096x512.size a
  hwx0_0 : ∀ i : grid0.Coords, EltTy.bits .f32 = 32 ∨ (Rect.block (s := S3x4096x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S3x512x512.size a
  hwx0_1 : ∀ i : grid0.Coords, EltTy.bits .f32 = 32 ∨ (Rect.block (s := S3x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S3x1x512.size a
  hwx0_2 : ∀ i : grid0.Coords, EltTy.bits .f32 = 32 ∨ (Rect.block (s := S3x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S3x4096x512.size a
  hwx0_3 : ∀ i : grid0.Coords, EltTy.bits .bf16 = 32 ∨ (Rect.block (s := S3x4096x512) S1x1024x512.size (cc0_transform_3 i) (hinb0_3 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1x1024x512.size a ≤ S1x4096x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S12288x12288.size a
  hwx1_0 : ∀ i : grid1.Coords, EltTy.bits .f32 = 32 ∨ (Rect.block (s := S12288x12288) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x512.size a ≤ S3x4096x512.size a
  hwx1_1 : ∀ i : grid1.Coords, EltTy.bits .bf16 = 32 ∨ (Rect.block (s := S3x4096x512) S1x4096x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x512.size a ≤ S3x512x512.size a
  hwx1_2 : ∀ i : grid1.Coords, EltTy.bits .f32 = 32 ∨ (Rect.block (s := S3x512x512) S1x512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512.size a ≤ S3x1x512.size a
  hwx1_3 : ∀ i : grid1.Coords, EltTy.bits .f32 = 32 ∨ (Rect.block (s := S3x1x512) S1x1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x512.size a ≤ S3x4096x512.size a
  hwx1_4 : ∀ i : grid1.Coords, EltTy.bits .bf16 = 32 ∨ (Rect.block (s := S3x4096x512) S1x1024x512.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x4096x512.size a ≤ S3x4096x512.size a
  hwx2_0 : ∀ i : grid2.Coords, EltTy.bits .bf16 = 32 ∨ (Rect.block (s := S3x4096x512) S1x4096x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x32x512.size a ≤ S3x32x512.size a
  hwx2_1 : ∀ i : grid2.Coords, EltTy.bits .f32 = 32 ∨ (Rect.block (s := S3x32x512) S1x32x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S4096x32.size a ≤ S4096x32.size a
  hwx2_3 : ∀ i : grid2.Coords, EltTy.bits .f32 = 32 ∨ (Rect.block (s := S4096x32) S4096x32.size (cc2_transform_3 i) (hinb2_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S4096x512_S512x32_S4096x32_1_0_0_1_n_n : DotDims S4096x512 S512x32 S4096x32 where
  lhsContracting := [1]
  rhsContracting := [0]
  lhsNonContracting := [0]
  rhsNonContracting := [1]
  lhsBatch := []
  rhsBatch := []
  wf := dot_S4096x512_S512x32_S4096x32_1_0_0_1_n_n_wf

abbrev win0_0 : Pipeline.Window sig grid0 :=
  Pipeline.Window.ofSpec (Memref.whole main_v0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1x512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v7) S1x4096x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1x32x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S4096x32.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S12288x512 : Shape := ⟨2, ![12288, 512]⟩
abbrev S12288x12288 : Shape := ⟨2, ![12288, 12288]⟩
abbrev S12288 : Shape := ⟨1, ![12288]⟩
abbrev S3x512x512 : Shape := ⟨3, ![3, 512, 512]⟩
abbrev S3x512 : Shape := ⟨2, ![3, 512]⟩
abbrev S32x1536 : Shape := ⟨2, ![32, 1536]⟩
abbrev S32 : Shape := ⟨1, ![32]⟩
abbrev S3x4096x512 : Shape := ⟨3, ![3, 4096, 512]⟩
abbrev S4096x12288 : Shape := ⟨2, ![4096, 12288]⟩
abbrev S4096x3x4096 : Shape := ⟨3, ![4096, 3, 4096]⟩
abbrev S3x4096x4096 : Shape := ⟨3, ![3, 4096, 4096]⟩
abbrev S3x1x512 : Shape := ⟨3, ![3, 1, 512]⟩
abbrev S_ : Shape := ⟨0, ![]⟩
abbrev S4096x3x512 : Shape := ⟨3, ![4096, 3, 512]⟩
abbrev S4096x1536 : Shape := ⟨2, ![4096, 1536]⟩
abbrev S1536x32 : Shape := ⟨2, ![1536, 32]⟩
abbrev S4096x32 : Shape := ⟨2, ![4096, 32]⟩
abbrev S1x32 : Shape := ⟨2, ![1, 32]⟩
abbrev S4096 : Shape := ⟨1, ![4096]⟩
abbrev S4096x1 : Shape := ⟨2, ![4096, 1]⟩

abbrev nBuf : Space → Nat
  | .hbm => 50
  | .vmem => 0
  | .smem => 0
  | _ => 0

abbrev bufTy : (tb : Table) → Fin (tcTables nBuf tb) → BufTy
  | .hbm, ⟨0, _⟩ => ⟨S12288x512, .f32⟩
  | .hbm, ⟨1, _⟩ => ⟨S12288x12288, .f32⟩
  | .hbm, ⟨2, _⟩ => ⟨S12288, .i32⟩
  | .hbm, ⟨3, _⟩ => ⟨S3x512x512, .f32⟩
  | .hbm, ⟨4, _⟩ => ⟨S3x512, .f32⟩
  | .hbm, ⟨5, _⟩ => ⟨S3x512x512, .f32⟩
  | .hbm, ⟨6, _⟩ => ⟨S3x512, .f32⟩
  | .hbm, ⟨7, _⟩ => ⟨S32x1536, .f32⟩
  | .hbm, ⟨8, _⟩ => ⟨S32, .f32⟩
  | .hbm, ⟨9, _⟩ => ⟨S3x4096x512, .f32⟩
  | .hbm, ⟨10, _⟩ => ⟨S4096x12288, .f32⟩
  | .hbm, ⟨11, _⟩ => ⟨S4096x3x4096, .f32⟩
  | .hbm, ⟨12, _⟩ => ⟨S3x4096x4096, .f32⟩
  | .hbm, ⟨13, _⟩ => ⟨S3x4096x512, .f32⟩
  | .hbm, ⟨14, _⟩ => ⟨S3x1x512, .f32⟩
  | .hbm, ⟨15, _⟩ => ⟨S3x4096x512, .f32⟩
  | .hbm, ⟨16, _⟩ => ⟨S3x4096x512, .f32⟩
  | .hbm, ⟨17, _⟩ => ⟨S_, .f32⟩
  | .hbm, ⟨18, _⟩ => ⟨S3x4096x512, .f32⟩
  | .hbm, ⟨19, _⟩ => ⟨S3x4096x512, .f32⟩
  | .hbm, ⟨20, _⟩ => ⟨S3x4096x512, .f32⟩
  | .hbm, ⟨21, _⟩ => ⟨S3x4096x512, .f32⟩
  | .hbm, ⟨22, _⟩ => ⟨S3x1x512, .f32⟩
  | .hbm, ⟨23, _⟩ => ⟨S3x4096x512, .f32⟩
  | .hbm, ⟨24, _⟩ => ⟨S3x4096x512, .f32⟩
  | .hbm, ⟨25, _⟩ => ⟨S_, .f32⟩
  | .hbm, ⟨26, _⟩ => ⟨S3x4096x512, .f32⟩
  | .hbm, ⟨27, _⟩ => ⟨S3x4096x512, .f32⟩
  | .hbm, ⟨28, _⟩ => ⟨S4096x3x512, .f32⟩
  | .hbm, ⟨29, _⟩ => ⟨S4096x1536, .f32⟩
  | .hbm, ⟨30, _⟩ => ⟨S1536x32, .f32⟩
  | .hbm, ⟨31, _⟩ => ⟨S4096x32, .f32⟩
  | .hbm, ⟨32, _⟩ => ⟨S1x32, .f32⟩
  | .hbm, ⟨33, _⟩ => ⟨S4096x32, .f32⟩
  | .hbm, ⟨34, _⟩ => ⟨S4096x32, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096x1, .f32⟩
  | .hbm, ⟨41, _⟩ => ⟨S4096x32, .f32⟩
  | .hbm, ⟨42, _⟩ => ⟨S4096x32, .f32⟩
  | .hbm, ⟨43, _⟩ => ⟨S4096x32, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1, .f32⟩
  | .hbm, ⟨48, _⟩ => ⟨S4096x32, .f32⟩
  | .hbm, ⟨49, _⟩ => ⟨S4096x32, .f32⟩
  | _, _ => ⟨S12288x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call1_cst : Ref sig .tc := ⟨.hbm, 25, rfl⟩
abbrev main_call1_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call2_cst : Ref sig .tc := ⟨.hbm, 35, rfl⟩
abbrev main_call2_v0 : Ref sig .tc := ⟨.hbm, 36, rfl⟩
abbrev main_call2_cst_0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_v6 : Ref sig .tc := ⟨.hbm, 43, rfl⟩
abbrev main_call2_cst_1 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_v22 : Ref sig .tc := ⟨.hbm, 49, rfl⟩

abbrev nD : Nat := 1
abbrev τ : Topo := Topo.v7x

variable {F : FTy → Type} [FloatOps F]

class Facts₀ : Prop where
  shapeCasts_S12288x512_S3x4096x512 : S12288x512.ShapeCasts S3x4096x512
  slices_S12288x12288_S4096x12288_0_0 : S12288x12288.Slices ![0, 0] S4096x12288
  shapeCasts_S4096x12288_S4096x3x4096 : S4096x12288.ShapeCasts S4096x3x4096
  transposes_S4096x3x4096_S3x4096x4096_1_0_2 : S4096x3x4096.Transposes [1, 0, 2] S3x4096x4096
  bcast_S3x512_S3x1x512_0_2 : S3x512.BroadcastsInDim S3x1x512 (![0, 2] : Fin 2 → Fin S3x1x512.rank)
  bcast_S3x1x512_S3x4096x512_0_1_2 : S3x1x512.BroadcastsInDim S3x4096x512 (![0, 1, 2] : Fin 3 → Fin S3x4096x512.rank)
  bcast_S_S3x4096x512 : S_.BroadcastsInDim S3x4096x512 (![] : Fin 0 → Fin S3x4096x512.rank)
  transposes_S3x4096x512_S4096x3x512_1_0_2 : S3x4096x512.Transposes [1, 0, 2] S4096x3x512
  shapeCasts_S4096x3x512_S4096x1536 : S4096x3x512.ShapeCasts S4096x1536
  transposes_S32x1536_S1536x32_1_0 : S32x1536.Transposes [1, 0] S1536x32
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  reducesTo_S4096x32_S4096_d1 : S4096x32.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32_0_1 : S4096x1.BroadcastsInDim S4096x32 (![0, 1] : Fin 2 → Fin S4096x32.rank)
  dot_S3x4096x512_S3x512x512_S3x4096x512_2_2_1_1_0_0_wf : DotDims.WF S3x4096x512 S3x512x512 S3x4096x512 [2] [2] [1] [1] [0] [0]
  dot_S3x4096x4096_S3x4096x512_S3x4096x512_2_1_1_2_0_0_wf : DotDims.WF S3x4096x4096 S3x4096x512 S3x4096x512 [2] [1] [1] [2] [0] [0]
  dot_S4096x1536_S1536x32_S4096x32_1_0_0_1_n_n_wf : DotDims.WF S4096x1536 S1536x32 S4096x32 [1] [0] [0] [1] [] []

variable [Facts₀]

def dot_S3x4096x512_S3x512x512_S3x4096x512_2_2_1_1_0_0 : DotDims S3x4096x512 S3x512x512 S3x4096x512 where
  lhsContracting := [2]
  rhsContracting := [2]
  lhsNonContracting := [1]
  rhsNonContracting := [1]
  lhsBatch := [0]
  rhsBatch := [0]
  wf := dot_S3x4096x512_S3x512x512_S3x4096x512_2_2_1_1_0_0_wf
def dot_S3x4096x4096_S3x4096x512_S3x4096x512_2_1_1_2_0_0 : DotDims S3x4096x4096 S3x4096x512 S3x4096x512 where
  lhsContracting := [2]
  rhsContracting := [1]
  lhsNonContracting := [1]
  rhsNonContracting := [2]
  lhsBatch := [0]
  rhsBatch := [0]
  wf := dot_S3x4096x4096_S3x4096x512_S3x4096x512_2_1_1_2_0_0_wf
def dot_S4096x1536_S1536x32_S4096x32_1_0_0_1_n_n : DotDims S4096x1536 S1536x32 S4096x32 where
  lhsContracting := [1]
  rhsContracting := [0]
  lhsNonContracting := [0]
  rhsNonContracting := [1]
  lhsBatch := []
  rhsBatch := []
  wf := dot_S4096x1536_S1536x32_S4096x32_1_0_0_1_n_n_wf

class Facts : Prop extends Facts₀ where

variable [Facts]
-- ==== Proof.K.R0.lean ====
/-
  The first kernel region of the program as printed (read at the word level; the proof is the same at every float instance): for relation t and row tile i it stages the tile
  xs[t, 1024 i .. 1024 i + 1023, :], the whole weight matrix W_conv[t] and the bias row b_conv[t], and stores
  max(x W^T + b, 0) into the tile's block of the result. Every grid point is independent of every other:
  the body loads its three input blocks whole, computes one value and stores it whole into the output block,
  so what the output block holds after the body is one function of the three input blocks (`out0_3`), the
  region's invariant is only that its other on-chip buffers exist, and nothing is owed between points.
  Everything here is stated at an arbitrary float instance and at arbitrary contents `V` of the buffers on entry.
-/
import proofs.«101938_j11553462026818_2_alg».proof.Proof.Gen.Kernel.Launch
import proofs.«101938_j11553462026818_2_alg».proof.Proof.Gen.Kernel.Skeleton
import proofs.«101938_j11553462026818_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input blocks -/

/-- Window `w`'s block at grid point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, whether the block was
    fetched at that point or is still there from an earlier one (its index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

/-- The whole of each block: the rectangles the body loads and stores through. -/
abbrev r0_0 : Rect S1x1024x512 := Rect.unit (s := S1x1024x512) ![0, 0, 0] S1x1024x512.size inb_S1x1024x512_S1x1024x512_0_0_0
abbrev r0_1 : Rect S1x512x512 := Rect.unit (s := S1x512x512) ![0, 0, 0] S1x512x512.size inb_S1x512x512_S1x512x512_0_0_0
abbrev r0_2 : Rect S1x1x512 := Rect.unit (s := S1x1x512) ![0, 0, 0] S1x1x512.size inb_S1x1x512_S1x1x512_0_0_0

/-- The output block after the body, as a function of the three input blocks: its one store read back. -/
def out0_3 (x0 : Vec F S1x1024x512 .f32) (x1 : Vec F S1x512x512 .f32) (x2 : Vec F S1x1x512 .f32) : Vec F S1x1024x512 .bf16 :=
  View.canon [⟨r0_0, k0_pay1 (View.ld x0 r0_0) (View.ld x1 r0_1) (View.ld x2 r0_2)⟩]

/-- The one store is of the whole block, so it covers it. -/
theorem cover0_3 (p0 : Vec F S1x1024x512 .bf16) (y : S1x1024x512.Idx) :
    ∃ pc ∈ ([⟨r0_0, p0⟩] : List (View.Piece (Elt F) S1x1024x512 .bf16)), y ∈ pc.1.set :=
  View.cover_of_tiled [⟨r0_0, p0⟩] S1x1024x512.size (by rfl) y

/-! ## The body's triple -/

set_option maxHeartbeats 2000000 in
/-- On whole staging buffers, the inputs' at known contents and the output's at anything, the body runs to its end
    with the inputs' buffers as they were and the output's at `out0_3` of the inputs'. -/
theorem sound_kernel0 (c : Dev nD) (E : Set ℕ) (i : grid0.Coords)
    (arg2 : Memref sig .tc .vmem S1x1024x512 .f32) (harg2 : arg2.IsWhole) (arg3 : Memref sig .tc .vmem S1x512x512 .f32) (harg3 : arg3.IsWhole)
    (arg4 : Memref sig .tc .vmem S1x1x512 .f32) (harg4 : arg4.IsWhole) (arg5 : Memref sig .tc .vmem S1x1024x512 .bf16) (harg5 : arg5.IsWhole)
    (x0 : Vec F S1x1024x512 .f32) (x1 : Vec F S1x512x512 .f32) (x2 : Vec F S1x1x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__conv_kernel i arg2 harg2 arg3 harg3 arg4 harg4 arg5 harg5) K := by
  simp only [cc0__conv_kernel_eq_skeleton]; unfold cc0__conv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The arrays as the region finds them; after the body at point `t` each input's buffer still at its block and
    the output's at `out0_3` of the three blocks; the invariant: the other on-chip buffers and the generator
    register exist; nothing owed; whole shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what
    the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.C1.lean ====
/-
  What the second kernel region's case runs and invariant are stated over. The body branches on its last grid
  coordinate only: at the first step of a reduction it zeroes the accumulator it keeps on chip, at every step it adds
  one product into it, at the last step it also finishes and stores the output block. So a grid point is in one of
  three cases (first / middle / last step), decided over the grid once; the output window is idle except at the last
  step; and between the steps of one reduction the accumulator's contents are what the previous step left.
-/
import proofs.«101938_j11553462026818_2_alg».proof.Proof.K.R0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, from the grid coordinates -/

/-- "This is the reduction's first step." -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is the reduction's last step." -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from a reduction's last step the output window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last step it is live. -/
theorem liveAt1_4 : ∀ t : Fin cfg1.N, cond1_1 (grid1.coords t) → cfg1.idle 4 (grid1.coords t) = false := by decide +kernel

/-! ## The memrefs the body is called with -/

/-- One staging buffer of the output window, through which its contents are stated. -/
abbrev VO1 : View sig .tc .vmem S1x1024x512 .bf16 := (Memref.whole cc1_stg4_0 : Memref sig .tc .vmem S1x1024x512 .bf16).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x512 .bf16 := win1_4.stage (cfg1.slots t 4)
abbrev hs1_4 (t : Fin cfg1.N) : (ms1_4 t).IsWhole := hstage1_4 ((cfg1.slots t 4).cast nbuf1_4)
/-- The accumulator: a whole on-chip buffer of the kernel's own. -/
abbrev scM1_0 : Memref sig .tc .vmem S1024x512 .f32 := Memref.whole cc1_scratch0
abbrev VS1 : View sig .tc .vmem S1024x512 .f32 := scM1_0.view

/-! ## The invariant between regions, with the accumulator set apart -/

/-- The core's other on-chip buffers that this region does not stage, each at some contents. -/
def restO1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_scratch0), ((c : Thread nD τ).loc cc2_scratch0) ↦{fullShare} f))

/-- The invariant a region is entered with — every on-chip buffer it does not stage at some contents, the generator
    register at some state — with the accumulator named. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_scratch0), ((c : Thread nD τ).loc cc2_scratch0) ↦{fullShare} f)) ∗ (∃ r, prngReg c r)) := by
  unfold Pipeline.ΦA; rw [scopedRest1_eq]; simp only [scM1_0, owns_whole]; try rfl

theorem PhiA1_split (c : Dev nD) :
    (Pipeline.ΦA spec1 c : sProp 𝕄) ⊢ iprop((∃ d, owns (c : Thread nD τ) scM1_0 fullShare d) ∗ restO1 c ∗ (∃ r, prngReg c r)) := by
  rw [PhiA1_eq]; unfold restO1
  iintro ⟨⟨B0, B1, B2, B3, B4, B5, B6, B7, HS, A0, A1, A2, A3, A4, A5, A6⟩, Hg⟩
  isplitl [HS]; · iexact HS
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [A0]; · iexact A0
  isplitl [A1]; · iexact A1
  isplitl [A2]; · iexact A2
  isplitl [A3]; · iexact A3
  isplitl [A4]; · iexact A4
  isplitl [A5]; · iexact A5
  iexact A6

theorem PhiA1_join (c : Dev nD) :
    iprop((∃ d, owns (c : Thread nD τ) scM1_0 fullShare d) ∗ restO1 c ∗ (∃ r, prngReg c r)) ⊢ (Pipeline.ΦA spec1 c : sProp 𝕄) := by
  rw [PhiA1_eq]; unfold restO1
  iintro ⟨HS, ⟨B0, B1, B2, B3, B4, B5, B6, B7, A0, A1, A2, A3, A4, A5, A6⟩, Hg⟩
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [HS]; · iexact HS
  isplitl [A0]; · iexact A0
  isplitl [A1]; · iexact A1
  isplitl [A2]; · iexact A2
  isplitl [A3]; · iexact A3
  isplitl [A4]; · iexact A4
  isplitl [A5]; · iexact A5
  iexact A6

end Cert.Kernel.Hand

end
-- ==== Proof.K.Run1A.lean ====
/-
  The second region's body run whole in the reduction's first step: the accumulator is zeroed, then one product is added. The stores each buffer ends with, as pieces,
  are found by running the body symbolically; they come with the proof that from whole buffers at the stated contents
  the body runs to its end leaving exactly those pieces written.
-/
import proofs.«101938_j11553462026818_2_alg».proof.Proof.K.C1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : cond1_0 i) (hc1 : ¬cond1_1 i)
    (x0 : Vec F S1024x1024 .f32) (x1 : Vec F S1x4096x512 .bf16) (x2 : Vec F S1x512x512 .f32) (x3 : Vec F S1x1x512 .f32) :
    Σ' (LO : List (View.Piece (Elt F) S1x1024x512 .bf16)), { LS : List (View.Piece (Elt F) S1024x512 .f32) //
      ∀ (xi : Vec F S1x1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1__spmm_sage_kernel i arg3 harg3 arg4 harg4 arg5 harg5 arg6 harg6 arg7 harg7 arg8 harg8) K } := by
  refine ⟨[], ?_, fun xi E K => ?run⟩
  case run =>
    simp only [cc1__spmm_sage_kernel_eq_skeleton]; unfold cc1__spmm_sage_kernel_skel
    unfold owns
    iintro ⟨⟨%f0, %hf0, H0⟩, ⟨%f1, %hf1, H1⟩, ⟨%f2, %hf2, H2⟩, ⟨%f3, %hf3, H3⟩, ⟨%fO, %hfO, HO⟩, ⟨%dS, %fS, -, HS⟩, Hk⟩
    obtain rfl := harg3.eq_unread hf0; obtain rfl := harg4.eq_unread hf1; obtain rfl := harg5.eq_unread hf2; obtain rfl := harg6.eq_unread hf3; obtain rfl := harg7.eq_unread hfO
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    iexists _; iexact HS

end Cert.Kernel.Hand

end
-- ==== Proof.K.Run1B.lean ====
/-
  The second region's body run whole in a middle step: one product is added to the accumulator. The stores each buffer ends with, as pieces,
  are found by running the body symbolically; they come with the proof that from whole buffers at the stated contents
  the body runs to its end leaving exactly those pieces written.
-/
import proofs.«101938_j11553462026818_2_alg».proof.Proof.K.Run1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : ¬cond1_0 i) (hc1 : ¬cond1_1 i)
    (x0 : Vec F S1024x1024 .f32) (x1 : Vec F S1x4096x512 .bf16) (x2 : Vec F S1x512x512 .f32) (x3 : Vec F S1x1x512 .f32) (xs0 : Vec F S1024x512 .f32) :
    Σ' (LO : List (View.Piece (Elt F) S1x1024x512 .bf16)), { LS : List (View.Piece (Elt F) S1024x512 .f32) //
      ∀ (xi : Vec F S1x1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1__spmm_sage_kernel i arg3 harg3 arg4 harg4 arg5 harg5 arg6 harg6 arg7 harg7 arg8 harg8) K } := by
  refine ⟨[], ?_, fun xi E K => ?run⟩
  case run =>
    simp only [cc1__spmm_sage_kernel_eq_skeleton]; unfold cc1__spmm_sage_kernel_skel
    unfold owns
    iintro ⟨⟨%f0, %hf0, H0⟩, ⟨%f1, %hf1, H1⟩, ⟨%f2, %hf2, H2⟩, ⟨%f3, %hf3, H3⟩, ⟨%fO, %hfO, HO⟩, ⟨%fS, %hfS, HS⟩, Hk⟩
    obtain rfl := harg3.eq_unread hf0; obtain rfl := harg4.eq_unread hf1; obtain rfl := harg5.eq_unread hf2; obtain rfl := harg6.eq_unread hf3; obtain rfl := harg7.eq_unread hfO; obtain rfl := harg8.eq_unread hfS
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    iexists _; iexact HS

end Cert.Kernel.Hand

end
-- ==== Proof.K.Run1C.lean ====
/-
  The second region's body run whole in the reduction's last step: one more product is added, then the output block is computed from the accumulator and stored. The stores each buffer ends with, as pieces,
  are found by running the body symbolically; they come with the proof that from whole buffers at the stated contents
  the body runs to its end leaving exactly those pieces written.
-/
import proofs.«101938_j11553462026818_2_alg».proof.Proof.K.Run1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : ¬cond1_0 i) (hc1 : cond1_1 i)
    (x0 : Vec F S1024x1024 .f32) (x1 : Vec F S1x4096x512 .bf16) (x2 : Vec F S1x512x512 .f32) (x3 : Vec F S1x1x512 .f32) (xs0 : Vec F S1024x512 .f32) :
    Σ' (LO : List (View.Piece (Elt F) S1x1024x512 .bf16)), { LS : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc1__spmm_sage_kernel i arg3 harg3 arg4 harg4 arg5 harg5 arg6 harg6 arg7 harg7 arg8 harg8) K } := by
  refine ⟨?_, ?_, fun E K => ?run⟩
  case run =>
    simp only [cc1__spmm_sage_kernel_eq_skeleton]; unfold cc1__spmm_sage_kernel_skel
    unfold owns
    iintro ⟨⟨%f0, %hf0, H0⟩, ⟨%f1, %hf1, H1⟩, ⟨%f2, %hf2, H2⟩, ⟨%f3, %hf3, H3⟩, ⟨%dO, %fO, -, HO⟩, ⟨%fS, %hfS, HS⟩, Hk⟩
    obtain rfl := harg3.eq_unread hf0; obtain rfl := harg4.eq_unread hf1; obtain rfl := harg5.eq_unread hf2; obtain rfl := harg6.eq_unread hf3; obtain rfl := harg8.eq_unread hfS
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]; · iexists _; iexact HO
    iexists _; iexact HS

end Cert.Kernel.Hand

end
-- ==== Proof.K.F1.lean ====
/-
  The second kernel region's proof data and body obligation. What the accumulator holds after grid
  position n is defined by recursion on n: at a reduction's first step it is what the zero-then-add run leaves, at a
  later step what the add run leaves over the previous position's contents; the output block is written at a
  reduction's last step only, from the accumulator that step leaves. The invariant between positions is the other
  on-chip buffers at anything, the generator register at some state, and — after the first position — the
  accumulator at exactly those contents. Every statement is at arbitrary entry contents `V` and any float instance.
-/
import proofs.«101938_j11553462026818_2_alg».proof.Proof.K.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the accumulator and in the output block -/

theorem scover1_A (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : cond1_0 i) (hc1 : ¬cond1_1 i)
    (x0 : Vec F S1024x1024 .f32) (x1 : Vec F S1x4096x512 .bf16) (x2 : Vec F S1x512x512 .f32) (x3 : Vec F S1x1x512 .f32) (y : S1024x512.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S1024x512.size (by sl_kernel_rfl) y
def sout1_A (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : cond1_0 i) (hc1 : ¬cond1_1 i)
    (x0 : Vec F S1024x1024 .f32) (x1 : Vec F S1x4096x512 .bf16) (x2 : Vec F S1x512x512 .f32) (x3 : Vec F S1x1x512 .f32) : Vec F S1024x512 .f32 :=
  VS1.read (Elt F) (VS1.writes (Elt F) VS1.junk (kernelRun1_A c i arg3 harg3 arg4 harg4 arg5 harg5 arg6 harg6 arg7 harg7 arg8 harg8 hc0 hc1 x0 x1 x2 x3).2.1)

theorem scover1_B (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : ¬cond1_0 i) (hc1 : ¬cond1_1 i)
    (x0 : Vec F S1024x1024 .f32) (x1 : Vec F S1x4096x512 .bf16) (x2 : Vec F S1x512x512 .f32) (x3 : Vec F S1x1x512 .f32) (xs0 : Vec F S1024x512 .f32) (y : S1024x512.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S1024x512.size (by sl_kernel_rfl) y
def sout1_B (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : ¬cond1_0 i) (hc1 : ¬cond1_1 i)
    (x0 : Vec F S1024x1024 .f32) (x1 : Vec F S1x4096x512 .bf16) (x2 : Vec F S1x512x512 .f32) (x3 : Vec F S1x1x512 .f32) (xs0 : Vec F S1024x512 .f32) : Vec F S1024x512 .f32 :=
  VS1.read (Elt F) (VS1.writes (Elt F) VS1.junk (kernelRun1_B c i arg3 harg3 arg4 harg4 arg5 harg5 arg6 harg6 arg7 harg7 arg8 harg8 hc0 hc1 x0 x1 x2 x3 xs0).2.1)

theorem scover1_C (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : ¬cond1_0 i) (hc1 : cond1_1 i)
    (x0 : Vec F S1024x1024 .f32) (x1 : Vec F S1x4096x512 .bf16) (x2 : Vec F S1x512x512 .f32) (x3 : Vec F S1x1x512 .f32) (xs0 : Vec F S1024x512 .f32) (y : S1024x512.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1024x512.size (by sl_kernel_rfl) y
def sout1_C (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : ¬cond1_0 i) (hc1 : cond1_1 i)
    (x0 : Vec F S1024x1024 .f32) (x1 : Vec F S1x4096x512 .bf16) (x2 : Vec F S1x512x512 .f32) (x3 : Vec F S1x1x512 .f32) (xs0 : Vec F S1024x512 .f32) : Vec F S1024x512 .f32 :=
  VS1.read (Elt F) (VS1.writes (Elt F) VS1.junk (kernelRun1_C c i arg3 harg3 arg4 harg4 arg5 harg5 arg6 harg6 arg7 harg7 arg8 harg8 hc0 hc1 x0 x1 x2 x3 xs0).2.1)
theorem cover1_C (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : ¬cond1_0 i) (hc1 : cond1_1 i)
    (x0 : Vec F S1024x1024 .f32) (x1 : Vec F S1x4096x512 .bf16) (x2 : Vec F S1x512x512 .f32) (x3 : Vec F S1x1x512 .f32) (xs0 : Vec F S1024x512 .f32) (y : S1x1024x512.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1x1024x512.size (by sl_kernel_rfl) y
def out1_C (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : ¬cond1_0 i) (hc1 : cond1_1 i)
    (x0 : Vec F S1024x1024 .f32) (x1 : Vec F S1x4096x512 .bf16) (x2 : Vec F S1x512x512 .f32) (x3 : Vec F S1x1x512 .f32) (xs0 : Vec F S1024x512 .f32) : Vec F S1x1024x512 .bf16 :=
  VO1.read (Elt F) (VO1.writes (Elt F) VO1.junk (kernelRun1_C c i arg3 harg3 arg4 harg4 arg5 harg5 arg6 harg6 arg7 harg7 arg8 harg8 hc0 hc1 x0 x1 x2 x3 xs0).1)

/-- A placeholder for the output block at positions where its window is idle: nothing reads it. -/
def outIdle1 : Vec F S1x1024x512 .bf16 := VO1.read (Elt F) VO1.junk

/-! ## The same at a grid position, on the buffers the pipeline passes there -/

def soutAt1_A (c : Dev nD) (t : Fin cfg1.N) (h0 : t.val % 4 = 0) (h1 : ¬t.val % 4 = 3) : Vec F S1024x512 .f32 :=
  sout1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)
def soutAt1_B (c : Dev nD) (t : Fin cfg1.N) (h0 : ¬t.val % 4 = 0) (h1 : ¬t.val % 4 = 3) (prev : Vec F S1024x512 .f32) : Vec F S1024x512 .f32 :=
  sout1_B c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) prev
def soutAt1_C (c : Dev nD) (t : Fin cfg1.N) (h0 : ¬t.val % 4 = 0) (h1 : t.val % 4 = 3) (prev : Vec F S1024x512 .f32) : Vec F S1024x512 .f32 :=
  sout1_C c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) prev
def outAt1_C (c : Dev nD) (t : Fin cfg1.N) (h0 : ¬t.val % 4 = 0) (h1 : t.val % 4 = 3) (prev : Vec F S1024x512 .f32) : Vec F S1x1024x512 .bf16 :=
  out1_C c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) prev

/-! ## What the output block and the accumulator hold after each position -/

/-- After position `n`: the output block (a placeholder where idle) and the accumulator. -/
def outsAt1 (c : Dev nD) : (n : ℕ) → n < cfg1.N → Vec F S1x1024x512 .bf16 × Vec F S1024x512 .f32
  | 0, hn => (outIdle1, soutAt1_A V c ⟨0, hn⟩ (Nat.zero_mod _) (by simp))
  | n + 1, hn =>
    if h0 : (n + 1) % 4 = 0 then
      (outIdle1, soutAt1_A V c ⟨n + 1, hn⟩ h0 (by intro h; dsimp only at h h0; omega))
    else
      if h1 : (n + 1) % 4 = 3 then
        (outAt1_C V c ⟨n + 1, hn⟩ h0 h1 (outsAt1 c n (Nat.lt_of_succ_lt hn)).2, soutAt1_C V c ⟨n + 1, hn⟩ h0 h1 (outsAt1 c n (Nat.lt_of_succ_lt hn)).2)
      else
        (outIdle1, soutAt1_B V c ⟨n + 1, hn⟩ h0 h1 (outsAt1 c n (Nat.lt_of_succ_lt hn)).2)

theorem outsAt1_A (c : Dev nD) (t : Fin cfg1.N) (h0 : t.val % 4 = 0) (h1 : ¬t.val % 4 = 3) :
    outsAt1 V c t.val t.isLt = (outIdle1, soutAt1_A V c t h0 h1) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (outIdle1, soutAt1_B V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (outAt1_C V c t h0 h1 (outsAt1 V c (t.val - 1) (Nat.lt_of_le_of_lt (Nat.sub_le _ _) t.isLt)).2, soutAt1_C V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant between positions -/

def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ restO1 c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1_0 fullShare ((outsAt1 V c n hn).2) ∗ restO1 c ∗ (∃ r, prngReg c r)) := rfl
theorem PhiS1_pos (c : Dev nD) (n : ℕ) (h : n ≤ cfg1.N) (hz : n ≠ 0) :
    PhiS1 V c n h = iprop(owns (c : Thread nD τ) scM1_0 fullShare ((outsAt1 V c (n - 1) (by omega)).2) ∗ restO1 c ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any position: the inputs' buffers hold their blocks; the position is in exactly one of the three
    cases; the invariant hands over the accumulator at what the previous position left (at anything before the
    first position) and takes it back at what this position leaves. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 48 := lt_of_lt_of_eq t.isLt (show cfg1.N = 48 from N_1)
  rw [show (dat1 V c).leavesExact 0 t = owns (c : Thread nD τ) (ms1_0 t) fullShare ((dat1 V c).after 0 t) from (by unfold Dat.leavesExact; rw [liveAt1_0 t]), after1_0]
  rw [show (dat1 V c).leavesExact 1 t = owns (c : Thread nD τ) (ms1_1 t) fullShare ((dat1 V c).after 1 t) from (by unfold Dat.leavesExact; rw [liveAt1_1 t]), after1_1]
  rw [show (dat1 V c).leavesExact 2 t = owns (c : Thread nD τ) (ms1_2 t) fullShare ((dat1 V c).after 2 t) from (by unfold Dat.leavesExact; rw [liveAt1_2 t]), after1_2]
  rw [show (dat1 V c).leavesExact 3 t = owns (c : Thread nD τ) (ms1_3 t) fullShare ((dat1 V c).after 3 t) from (by unfold Dat.leavesExact; rw [liveAt1_3 t]), after1_3]
  by_cases h0 : t.val % 4 = 0
  · have h1 : ¬t.val % 4 = 3 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold soutAt1_A sout1_A; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩⟩
      ihave HΦ' := (PhiA1_split c) $$ HΦ
      icases HΦ' with ⟨HS, HR, Hg⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%eS, HS⟩⟩
      isplitl [HS HR Hg]
      · isplitl [HS]
        · unfold owns; iexists _; isplitr
          swap; · iexact HS
          ipureintro; exact View.read_writes_of_cover _ _ _ _ _ (scover1_A c _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨HS, HR, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%eS, HS⟩⟩
      isplitl [HS HR Hg]
      · isplitl [HS]
        · unfold owns; iexists _; isplitr
          swap; · iexact HS
          ipureintro; exact View.read_writes_of_cover _ _ _ _ _ (scover1_A c _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by intro hz; rw [hz] at h0; exact h0 (Nat.zero_mod _)
    by_cases h1 : t.val % 4 = 3
    · rw [show (dat1 V c).leavesExact 4 t = owns (c : Thread nD τ) (ms1_4 t) fullShare ((dat1 V c).after 4 t) from (by unfold Dat.leavesExact; rw [liveAt1_4 t ((hcond1_1 t).mpr h1)]), after1_4]
      rw [outsAt1_C V c t h0 h1]
      unfold outAt1_C soutAt1_C out1_C sout1_C; (try dsimp only)
      rw [PhiS1_castSucc V c t, PhiS1_pos V c _ _ hz]
      iintro ⟨⟨HS, HR, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%eO, H4⟩, ⟨%eS, HS⟩⟩
      isplitl [HS HR Hg]
      · isplitl [HS]
        · unfold owns; iexists _; isplitr
          swap; · iexact HS
          ipureintro; exact View.read_writes_of_cover _ _ _ _ _ (scover1_C c _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C c _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold soutAt1_B sout1_B; (try dsimp only)
      rw [PhiS1_castSucc V c t, PhiS1_pos V c _ _ hz]
      iintro ⟨⟨HS, HR, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%eS, HS⟩⟩
      isplitl [HS HR Hg]
      · isplitl [HS]
        · unfold owns; iexists _; isplitr
          swap; · iexact HS
          ipureintro; exact View.read_writes_of_cover _ _ _ _ _ (scover1_B c _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-! ## Into the invariant before the first position, and out of it after the last -/

theorem hinΦ1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem houtΦ1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 48 := N_1; omega)]
  iintro ⟨HS, HR, Hg⟩
  iapply (PhiA1_join c)
  isplitl [HS]; · iexists _; iexact HS
  isplitl [HR]; · iexact HR
  iexact Hg

end Cert.Kernel.Hand

end
-- ==== Proof.K.C2.lean ====
/-
  What the third kernel region's case runs and invariant are stated over. The body branches on its last grid
  coordinate only: at the first step of a reduction it zeroes the accumulator it keeps on chip, at every step it adds
  one product into it, at the last step it also finishes and stores the output block. So a grid point is in one of
  three cases (first / middle / last step), decided over the grid once; the output window is idle except at the last
  step; and between the steps of one reduction the accumulator's contents are what the previous step left.
-/
import proofs.«101938_j11553462026818_2_alg».proof.Proof.K.R0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, from the grid coordinates -/

/-- "This is the reduction's first step." -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 3 = 0 :=
  (by decide +kernel : ∀ t : Fin grid2.N, cond2_0 (grid2.coords t) ↔ t.val % 3 = 0)
/-- "This is the reduction's last step." -/
abbrev cond2_1 (i : grid2.Coords) : Prop := k2_cond2 i = 1#1
theorem hcond2_1 : ∀ t : Fin cfg2.N, cond2_1 (grid2.coords t) ↔ t.val % 3 = 2 :=
  (by decide +kernel : ∀ t : Fin grid2.N, cond2_1 (grid2.coords t) ↔ t.val % 3 = 2)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from a reduction's last step the output window is idle and is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At the last step it is live. -/
theorem liveAt2_3 : ∀ t : Fin cfg2.N, cond2_1 (grid2.coords t) → cfg2.idle 3 (grid2.coords t) = false := by decide +kernel

/-! ## The memrefs the body is called with -/

/-- One staging buffer of the output window, through which its contents are stated. -/
abbrev VO2 : View sig .tc .vmem S4096x32 .f32 := (Memref.whole cc2_stg3_0 : Memref sig .tc .vmem S4096x32 .f32).view
abbrev ms2_0 (t : Fin cfg2.N) : Memref sig .tc .vmem S1x4096x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x32x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x32 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x32 .f32 := win2_3.stage (cfg2.slots t 3)
abbrev hs2_3 (t : Fin cfg2.N) : (ms2_3 t).IsWhole := hstage2_3 ((cfg2.slots t 3).cast nbuf2_3)
/-- The accumulator: a whole on-chip buffer of the kernel's own. -/
abbrev scM2_0 : Memref sig .tc .vmem S4096x32 .f32 := Memref.whole cc2_scratch0
abbrev VS2 : View sig .tc .vmem S4096x32 .f32 := scM2_0.view

/-! ## The invariant between regions, with the accumulator set apart -/

/-- The core's other on-chip buffers that this region does not stage, each at some contents. -/
def restO2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The invariant a region is entered with — every on-chip buffer it does not stage at some contents, the generator
    register at some state — with the accumulator named. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ d, owns (c : Thread nD τ) scM2_0 fullShare d)) ∗ (∃ r, prngReg c r)) := by
  unfold Pipeline.ΦA; rw [scopedRest2_eq]; simp only [scM2_0, owns_whole]; try rfl

theorem PhiA2_split (c : Dev nD) :
    (Pipeline.ΦA spec2 c : sProp 𝕄) ⊢ iprop((∃ d, owns (c : Thread nD τ) scM2_0 fullShare d) ∗ restO2 c ∗ (∃ r, prngReg c r)) := by
  rw [PhiA2_eq]; unfold restO2
  iintro ⟨⟨B0, B1, B2, B3, B4, B5, B6, B7, B8, B9, B10, B11, B12, B13, B14, B15, B16, B17, B18, HS⟩, Hg⟩
  isplitl [HS]; · iexact HS
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  iexact B18

theorem PhiA2_join (c : Dev nD) :
    iprop((∃ d, owns (c : Thread nD τ) scM2_0 fullShare d) ∗ restO2 c ∗ (∃ r, prngReg c r)) ⊢ (Pipeline.ΦA spec2 c : sProp 𝕄) := by
  rw [PhiA2_eq]; unfold restO2
  iintro ⟨HS, ⟨B0, B1, B2, B3, B4, B5, B6, B7, B8, B9, B10, B11, B12, B13, B14, B15, B16, B17, B18⟩, Hg⟩
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  isplitl [B18]; · iexact B18
  iexact HS

end Cert.Kernel.Hand

end
-- ==== Proof.K.Run2A.lean ====
/-
  The third region's body run whole in the reduction's first step: the accumulator is zeroed, then one product is added. The stores each buffer ends with, as pieces,
  are found by running the body symbolically; they come with the proof that from whole buffers at the stated contents
  the body runs to its end leaving exactly those pieces written.
-/
import proofs.«101938_j11553462026818_2_alg».proof.Proof.K.C2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : cond2_0 i) (hc1 : ¬cond2_1 i)
    (x0 : Vec F S1x4096x512 .bf16) (x1 : Vec F S1x32x512 .f32) (x2 : Vec F S1x32 .f32) :
    Σ' (LO : List (View.Piece (Elt F) S4096x32 .f32)), { LS : List (View.Piece (Elt F) S4096x32 .f32) //
      ∀ (xi : Vec F S4096x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc2__final_kernel i arg2 harg2 arg3 harg3 arg4 harg4 arg5 harg5 arg6 harg6) K } := by
  refine ⟨[], ?_, fun xi E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%fO, %hfO, HO⟩, ⟨%dS, %fS, -, HS⟩, Hk⟩
    obtain rfl := harg2.eq_unread hf0; obtain rfl := harg3.eq_unread hf1; obtain rfl := harg4.eq_unread hf2; obtain rfl := harg5.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

end Cert.Kernel.Hand

end
-- ==== Proof.K.Run2B.lean ====
/-
  The third region's body run whole in a middle step: one product is added to the accumulator. The stores each buffer ends with, as pieces,
  are found by running the body symbolically; they come with the proof that from whole buffers at the stated contents
  the body runs to its end leaving exactly those pieces written.
-/
import proofs.«101938_j11553462026818_2_alg».proof.Proof.K.Run2A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : ¬cond2_0 i) (hc1 : ¬cond2_1 i)
    (x0 : Vec F S1x4096x512 .bf16) (x1 : Vec F S1x32x512 .f32) (x2 : Vec F S1x32 .f32) (xs0 : Vec F S4096x32 .f32) :
    Σ' (LO : List (View.Piece (Elt F) S4096x32 .f32)), { LS : List (View.Piece (Elt F) S4096x32 .f32) //
      ∀ (xi : Vec F S4096x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc2__final_kernel i arg2 harg2 arg3 harg3 arg4 harg4 arg5 harg5 arg6 harg6) K } := by
  refine ⟨[], ?_, fun xi E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%fO, %hfO, HO⟩, ⟨%fS, %hfS, HS⟩, Hk⟩
    obtain rfl := harg2.eq_unread hf0; obtain rfl := harg3.eq_unread hf1; obtain rfl := harg4.eq_unread hf2; obtain rfl := harg5.eq_unread hfO; obtain rfl := harg6.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

end Cert.Kernel.Hand

end
-- ==== Proof.K.Run2C.lean ====
/-
  The third region's body run whole in the reduction's last step: one more product is added, then the output block is computed from the accumulator and stored. The stores each buffer ends with, as pieces,
  are found by running the body symbolically; they come with the proof that from whole buffers at the stated contents
  the body runs to its end leaving exactly those pieces written.
-/
import proofs.«101938_j11553462026818_2_alg».proof.Proof.K.Run2B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : ¬cond2_0 i) (hc1 : cond2_1 i)
    (x0 : Vec F S1x4096x512 .bf16) (x1 : Vec F S1x32x512 .f32) (x2 : Vec F S1x32 .f32) (xs0 : Vec F S4096x32 .f32) :
    Σ' (LO : List (View.Piece (Elt F) S4096x32 .f32)), { LS : List (View.Piece (Elt F) S4096x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc2__final_kernel i arg2 harg2 arg3 harg3 arg4 harg4 arg5 harg5 arg6 harg6) K } := by
  refine ⟨?_, ?_, fun E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%dO, %fO, -, HO⟩, ⟨%fS, %hfS, HS⟩, Hk⟩
    obtain rfl := harg2.eq_unread hf0; obtain rfl := harg3.eq_unread hf1; obtain rfl := harg4.eq_unread hf2; obtain rfl := harg6.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS

end Cert.Kernel.Hand

end
-- ==== Proof.K.F2.lean ====
/-
  The third kernel region's proof data and body obligation. What the accumulator holds after grid
  position n is defined by recursion on n: at a reduction's first step it is what the zero-then-add run leaves, at a
  later step what the add run leaves over the previous position's contents; the output block is written at a
  reduction's last step only, from the accumulator that step leaves. The invariant between positions is the other
  on-chip buffers at anything, the generator register at some state, and — after the first position — the
  accumulator at exactly those contents. Every statement is at arbitrary entry contents `V` and any float instance.
-/
import proofs.«101938_j11553462026818_2_alg».proof.Proof.K.Run2C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input blocks -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the accumulator and in the output block -/

theorem scover2_A (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : cond2_0 i) (hc1 : ¬cond2_1 i)
    (x0 : Vec F S1x4096x512 .bf16) (x1 : Vec F S1x32x512 .f32) (x2 : Vec F S1x32 .f32) (y : S4096x32.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S4096x32.size (by sl_kernel_rfl) y
def sout2_A (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : cond2_0 i) (hc1 : ¬cond2_1 i)
    (x0 : Vec F S1x4096x512 .bf16) (x1 : Vec F S1x32x512 .f32) (x2 : Vec F S1x32 .f32) : Vec F S4096x32 .f32 :=
  VS2.read (Elt F) (VS2.writes (Elt F) VS2.junk (kernelRun2_A c i arg2 harg2 arg3 harg3 arg4 harg4 arg5 harg5 arg6 harg6 hc0 hc1 x0 x1 x2).2.1)

theorem scover2_B (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : ¬cond2_0 i) (hc1 : ¬cond2_1 i)
    (x0 : Vec F S1x4096x512 .bf16) (x1 : Vec F S1x32x512 .f32) (x2 : Vec F S1x32 .f32) (xs0 : Vec F S4096x32 .f32) (y : S4096x32.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S4096x32.size (by sl_kernel_rfl) y
def sout2_B (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : ¬cond2_0 i) (hc1 : ¬cond2_1 i)
    (x0 : Vec F S1x4096x512 .bf16) (x1 : Vec F S1x32x512 .f32) (x2 : Vec F S1x32 .f32) (xs0 : Vec F S4096x32 .f32) : Vec F S4096x32 .f32 :=
  VS2.read (Elt F) (VS2.writes (Elt F) VS2.junk (kernelRun2_B c i arg2 harg2 arg3 harg3 arg4 harg4 arg5 harg5 arg6 harg6 hc0 hc1 x0 x1 x2 xs0).2.1)

theorem scover2_C (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : ¬cond2_0 i) (hc1 : cond2_1 i)
    (x0 : Vec F S1x4096x512 .bf16) (x1 : Vec F S1x32x512 .f32) (x2 : Vec F S1x32 .f32) (xs0 : Vec F S4096x32 .f32) (y : S4096x32.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S4096x32.size (by sl_kernel_rfl) y
def sout2_C (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : ¬cond2_0 i) (hc1 : cond2_1 i)
    (x0 : Vec F S1x4096x512 .bf16) (x1 : Vec F S1x32x512 .f32) (x2 : Vec F S1x32 .f32) (xs0 : Vec F S4096x32 .f32) : Vec F S4096x32 .f32 :=
  VS2.read (Elt F) (VS2.writes (Elt F) VS2.junk (kernelRun2_C c i arg2 harg2 arg3 harg3 arg4 harg4 arg5 harg5 arg6 harg6 hc0 hc1 x0 x1 x2 xs0).2.1)
theorem cover2_C (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : ¬cond2_0 i) (hc1 : cond2_1 i)
    (x0 : Vec F S1x4096x512 .bf16) (x1 : Vec F S1x32x512 .f32) (x2 : Vec F S1x32 .f32) (xs0 : Vec F S4096x32 .f32) (y : S4096x32.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S4096x32.size (by sl_kernel_rfl) y
def out2_C (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : ¬cond2_0 i) (hc1 : cond2_1 i)
    (x0 : Vec F S1x4096x512 .bf16) (x1 : Vec F S1x32x512 .f32) (x2 : Vec F S1x32 .f32) (xs0 : Vec F S4096x32 .f32) : Vec F S4096x32 .f32 :=
  VO2.read (Elt F) (VO2.writes (Elt F) VO2.junk (kernelRun2_C c i arg2 harg2 arg3 harg3 arg4 harg4 arg5 harg5 arg6 harg6 hc0 hc1 x0 x1 x2 xs0).1)

/-- A placeholder for the output block at positions where its window is idle: nothing reads it. -/
def outIdle2 : Vec F S4096x32 .f32 := VO2.read (Elt F) VO2.junk

/-! ## The same at a grid position, on the buffers the pipeline passes there -/

def soutAt2_A (c : Dev nD) (t : Fin cfg2.N) (h0 : t.val % 3 = 0) (h1 : ¬t.val % 3 = 2) : Vec F S4096x32 .f32 :=
  sout2_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)
def soutAt2_B (c : Dev nD) (t : Fin cfg2.N) (h0 : ¬t.val % 3 = 0) (h1 : ¬t.val % 3 = 2) (prev : Vec F S4096x32 .f32) : Vec F S4096x32 .f32 :=
  sout2_B c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) prev
def soutAt2_C (c : Dev nD) (t : Fin cfg2.N) (h0 : ¬t.val % 3 = 0) (h1 : t.val % 3 = 2) (prev : Vec F S4096x32 .f32) : Vec F S4096x32 .f32 :=
  sout2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) prev
def outAt2_C (c : Dev nD) (t : Fin cfg2.N) (h0 : ¬t.val % 3 = 0) (h1 : t.val % 3 = 2) (prev : Vec F S4096x32 .f32) : Vec F S4096x32 .f32 :=
  out2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) prev

/-! ## What the output block and the accumulator hold after each position -/

/-- After position `n`: the output block (a placeholder where idle) and the accumulator. -/
def outsAt2 (c : Dev nD) : (n : ℕ) → n < cfg2.N → Vec F S4096x32 .f32 × Vec F S4096x32 .f32
  | 0, hn => (outIdle2, soutAt2_A V c ⟨0, hn⟩ (Nat.zero_mod _) (by simp))
  | n + 1, hn =>
    if h0 : (n + 1) % 3 = 0 then
      (outIdle2, soutAt2_A V c ⟨n + 1, hn⟩ h0 (by intro h; dsimp only at h h0; omega))
    else
      if h1 : (n + 1) % 3 = 2 then
        (outAt2_C V c ⟨n + 1, hn⟩ h0 h1 (outsAt2 c n (Nat.lt_of_succ_lt hn)).2, soutAt2_C V c ⟨n + 1, hn⟩ h0 h1 (outsAt2 c n (Nat.lt_of_succ_lt hn)).2)
      else
        (outIdle2, soutAt2_B V c ⟨n + 1, hn⟩ h0 h1 (outsAt2 c n (Nat.lt_of_succ_lt hn)).2)

theorem outsAt2_A (c : Dev nD) (t : Fin cfg2.N) (h0 : t.val % 3 = 0) (h1 : ¬t.val % 3 = 2) :
    outsAt2 V c t.val t.isLt = (outIdle2, soutAt2_A V c t h0 h1) := by
  obtain ⟨n, hn⟩ := t
  cases n with
  | zero => exact rfl
  | succ n => exact (dif_pos h0).trans rfl

theorem outsAt2_B (c : Dev nD) (t : Fin cfg2.N) (h0 : ¬t.val % 3 = 0) (h1 : ¬t.val % 3 = 2) :
    outsAt2 V c t.val t.isLt = (outIdle2, soutAt2_B V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 3 = 0) (h1 : t.val % 3 = 2) :
    outsAt2 V c t.val t.isLt = (outAt2_C V c t h0 h1 (outsAt2 V c (t.val - 1) (Nat.lt_of_le_of_lt (Nat.sub_le _ _) t.isLt)).2, soutAt2_C V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant between positions -/

def PhiS2 (c : Dev nD) : (n : ℕ) → n ≤ cfg2.N → sProp 𝕄
  | 0, _ => Pipeline.ΦA spec2 c
  | n + 1, hn => iprop(owns (c : Thread nD τ) scM2_0 fullShare ((outsAt2 V c n hn).2) ∗ restO2 c ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) scM2_0 fullShare ((outsAt2 V c n hn).2) ∗ restO2 c ∗ (∃ r, prngReg c r)) := rfl
theorem PhiS2_pos (c : Dev nD) (n : ℕ) (h : n ≤ cfg2.N) (hz : n ≠ 0) :
    PhiS2 V c n h = iprop(owns (c : Thread nD τ) scM2_0 fullShare ((outsAt2 V c (n - 1) (by omega)).2) ∗ restO2 c ∗ (∃ r, prngReg c r)) := by
  cases n with
  | zero => exact absurd rfl hz
  | succ n => rfl

/-! ## The region's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any position: the inputs' buffers hold their blocks; the position is in exactly one of the three
    cases; the invariant hands over the accumulator at what the previous position left (at anything before the
    first position) and takes it back at what this position leaves. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 3 := lt_of_lt_of_eq t.isLt (show cfg2.N = 3 from N_2)
  rw [show (dat2 V c).leavesExact 0 t = owns (c : Thread nD τ) (ms2_0 t) fullShare ((dat2 V c).after 0 t) from (by unfold Dat.leavesExact; rw [liveAt2_0 t]), after2_0]
  rw [show (dat2 V c).leavesExact 1 t = owns (c : Thread nD τ) (ms2_1 t) fullShare ((dat2 V c).after 1 t) from (by unfold Dat.leavesExact; rw [liveAt2_1 t]), after2_1]
  rw [show (dat2 V c).leavesExact 2 t = owns (c : Thread nD τ) (ms2_2 t) fullShare ((dat2 V c).after 2 t) from (by unfold Dat.leavesExact; rw [liveAt2_2 t]), after2_2]
  by_cases h0 : t.val % 3 = 0
  · have h1 : ¬t.val % 3 = 2 := by omega
    rw [Dat.leavesExact_idle (dat2 V c) 3 t (idleAt2_3 t (fun h => h1 ((hcond2_1 t).mp h))) (noFlush2_3 t (fun h => h1 ((hcond2_1 t).mp h)))]
    rw [outsAt2_A V c t h0 h1]
    unfold soutAt2_A sout2_A; (try dsimp only)
    by_cases hz : t.val = 0
    · rw [PhiS2_castSucc V c t, PhiS2_zero V c _ _ hz]
      iintro ⟨HΦ, Ho, ⟨%d0, H0⟩, ⟨%d1, H1⟩, ⟨%d2, H2⟩, ⟨%d3, H3⟩⟩
      ihave HΦ' := (PhiA2_split c) $$ HΦ
      icases HΦ' with ⟨HS, HR, Hg⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%eS, HS⟩⟩
      isplitl [HS HR Hg]
      · isplitl [HS]
        · unfold owns; iexists _; isplitr
          swap; · iexact HS
          ipureintro; exact View.read_writes_of_cover _ _ _ _ _ (scover2_A c _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨HS, HR, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%eS, HS⟩⟩
      isplitl [HS HR Hg]
      · isplitl [HS]
        · unfold owns; iexists _; isplitr
          swap; · iexact HS
          ipureintro; exact View.read_writes_of_cover _ _ _ _ _ (scover2_A c _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := by intro hz; rw [hz] at h0; exact h0 (Nat.zero_mod _)
    by_cases h1 : t.val % 3 = 2
    · rw [show (dat2 V c).leavesExact 3 t = owns (c : Thread nD τ) (ms2_3 t) fullShare ((dat2 V c).after 3 t) from (by unfold Dat.leavesExact; rw [liveAt2_3 t ((hcond2_1 t).mpr h1)]), after2_3]
      rw [outsAt2_C V c t h0 h1]
      unfold outAt2_C soutAt2_C out2_C sout2_C; (try dsimp only)
      rw [PhiS2_castSucc V c t, PhiS2_pos V c _ _ hz]
      iintro ⟨⟨HS, HR, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eO, H3⟩, ⟨%eS, HS⟩⟩
      isplitl [HS HR Hg]
      · isplitl [HS]
        · unfold owns; iexists _; isplitr
          swap; · iexact HS
          ipureintro; exact View.read_writes_of_cover _ _ _ _ _ (scover2_C c _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [outsAt2_B V c t h0 h1]
      unfold soutAt2_B sout2_B; (try dsimp only)
      rw [PhiS2_castSucc V c t, PhiS2_pos V c _ _ hz]
      iintro ⟨⟨HS, HR, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%eS, HS⟩⟩
      isplitl [HS HR Hg]
      · isplitl [HS]
        · unfold owns; iexists _; isplitr
          swap; · iexact HS
          ipureintro; exact View.read_writes_of_cover _ _ _ _ _ (scover2_B c _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

/-! ## Into the invariant before the first position, and out of it after the last -/

theorem hinΦ2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem houtΦ2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 3 := N_2; omega)]
  iintro ⟨HS, HR, Hg⟩
  iapply (PhiA2_join c)
  isplitl [HS]; · iexists _; iexact HS
  isplitl [HR]; · iexact HR
  iexact Hg

end Cert.Kernel.Hand

end
-- ==== Proof.K.Main.lean ====
/-
  The kernel program as printed, run from its launch to its return (the proof is the same at every float instance). @main is a stretch of six layout operations on the
  host followed by the three kernel regions. The contents of the core's unscoped buffers at the five boundaries are
  named as a fold through @main: as launched; after the host stretch; and after each region, its windows' arrays at
  what its pipeline leaves. Each region is a segment between two such boundaries, and the several-region launch
  theorem chains them: every weakly fair execution terminates, nothing faults, and at the end every unscoped buffer
  holds the last boundary's contents — in particular each argument is as launched and the result array is the last
  region's output array.
-/
import proofs.«101938_j11553462026818_2_alg».proof.Proof.K.F1
import proofs.«101938_j11553462026818_2_alg».proof.Proof.K.F2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev bnd0 : Dev nD → Valuation τ sig (Elt F) := fun c b => (s₀ m ρ).mem ((c : Dev nD), b)
/-- After the host stretch. -/
abbrev bnd1 : Dev nD → Valuation τ sig (Elt F) := fun c => StableHlo.after hostOps0 (bnd0 m ρ c)
abbrev at1 : (c : Dev nD) → (b : Ref sig .tc) → Buf (Elt F) ((c : Thread nD τ).loc b) := fun c b => bnd1 m ρ c b

/-- After region 0: its windows' arrays at what the pipeline leaves in them (an input's as entered, the output's
    with every written-back block in place), every other buffer as the region found it. -/
def bnd2 (c : Dev nD) : Valuation τ sig (Elt F) :=
  Pipeline.withArrays spec0 c (bnd1 m ρ c) fun w => (dat0 (at1 m ρ) c).arrAt w cfg0.N
theorem bnd2_arr (c : Dev nD) (w : Fin cfg0.W) :
    bnd2 m ρ c (Proc.devRef .tc (Pipeline.arrRef spec0 w)) = (dat0 (at1 m ρ) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m ρ c (Proc.devRef .tc b) = bnd1 m ρ c (Proc.devRef .tc b) := by
  unfold bnd2; exact Pipeline.withArrays_of_ne spec0 c _ _ b hb
abbrev at2 : (c : Dev nD) → (b : Ref sig .tc) → Buf (Elt F) ((c : Thread nD τ).loc b) := fun c b => bnd2 m ρ c b
theorem hF0 (c : Dev nD) (w : Fin cfg0.W) : (dat0 (at1 m ρ) c).arrAt w cfg0.N = at2 m ρ c (Pipeline.arrRef spec0 w) :=
  (bnd2_arr m ρ c w).symm
theorem hrest0 (c : Dev nD) : ∀ b, b ∉ Finset.univ.image (Pipeline.arrRef spec0) → at2 m ρ c b = at1 m ρ c b :=
  fun b hb => bnd2_of_ne m ρ c b fun w e => hb (Finset.mem_image.mpr ⟨w, Finset.mem_univ _, e⟩)

/-- After region 1: its windows' arrays at what the pipeline leaves in them (an input's as entered, the output's
    with every written-back block in place), every other buffer as the region found it. -/
def bnd3 (c : Dev nD) : Valuation τ sig (Elt F) :=
  Pipeline.withArrays spec1 c (bnd2 m ρ c) fun w => (dat1 (at2 m ρ) c).arrAt w cfg1.N
theorem bnd3_arr (c : Dev nD) (w : Fin cfg1.W) :
    bnd3 m ρ c (Proc.devRef .tc (Pipeline.arrRef spec1 w)) = (dat1 (at2 m ρ) c).arrAt w cfg1.N := by
  unfold bnd3; exact Pipeline.withArrays_arr spec1 launch1.win.arr_inj c _ _ w
theorem bnd3_of_ne (c : Dev nD) (b : Ref sig .tc) (hb : ∀ w, Pipeline.arrRef spec1 w ≠ b) :
    bnd3 m ρ c (Proc.devRef .tc b) = bnd2 m ρ c (Proc.devRef .tc b) := by
  unfold bnd3; exact Pipeline.withArrays_of_ne spec1 c _ _ b hb
abbrev at3 : (c : Dev nD) → (b : Ref sig .tc) → Buf (Elt F) ((c : Thread nD τ).loc b) := fun c b => bnd3 m ρ c b
theorem hF1 (c : Dev nD) (w : Fin cfg1.W) : (dat1 (at2 m ρ) c).arrAt w cfg1.N = at3 m ρ c (Pipeline.arrRef spec1 w) :=
  (bnd3_arr m ρ c w).symm
theorem hrest1 (c : Dev nD) : ∀ b, b ∉ Finset.univ.image (Pipeline.arrRef spec1) → at3 m ρ c b = at2 m ρ c b :=
  fun b hb => bnd3_of_ne m ρ c b fun w e => hb (Finset.mem_image.mpr ⟨w, Finset.mem_univ _, e⟩)

/-- After region 2: its windows' arrays at what the pipeline leaves in them (an input's as entered, the output's
    with every written-back block in place), every other buffer as the region found it. -/
def bnd4 (c : Dev nD) : Valuation τ sig (Elt F) :=
  Pipeline.withArrays spec2 c (bnd3 m ρ c) fun w => (dat2 (at3 m ρ) c).arrAt w cfg2.N
theorem bnd4_arr (c : Dev nD) (w : Fin cfg2.W) :
    bnd4 m ρ c (Proc.devRef .tc (Pipeline.arrRef spec2 w)) = (dat2 (at3 m ρ) c).arrAt w cfg2.N := by
  unfold bnd4; exact Pipeline.withArrays_arr spec2 launch2.win.arr_inj c _ _ w
theorem bnd4_of_ne (c : Dev nD) (b : Ref sig .tc) (hb : ∀ w, Pipeline.arrRef spec2 w ≠ b) :
    bnd4 m ρ c (Proc.devRef .tc b) = bnd3 m ρ c (Proc.devRef .tc b) := by
  unfold bnd4; exact Pipeline.withArrays_of_ne spec2 c _ _ b hb
abbrev at4 : (c : Dev nD) → (b : Ref sig .tc) → Buf (Elt F) ((c : Thread nD τ).loc b) := fun c b => bnd4 m ρ c b
theorem hF2 (c : Dev nD) (w : Fin cfg2.W) : (dat2 (at3 m ρ) c).arrAt w cfg2.N = at4 m ρ c (Pipeline.arrRef spec2 w) :=
  (bnd4_arr m ρ c w).symm
theorem hrest2 (c : Dev nD) : ∀ b, b ∉ Finset.univ.image (Pipeline.arrRef spec2) → at4 m ρ c b = at3 m ρ c b :=
  fun b hb => bnd4_of_ne m ρ c b fun w e => hb (Finset.mem_image.mpr ⟨w, Finset.mem_univ _, e⟩)

/-! ## No segment changes an argument -/

/-- The references the host stretch writes. -/
abbrev hostW : List (Ref sig .tc) := [main_v0, main_v1, main_v2, main_v3, main_v4, main_v5]
theorem hostOps0_writes' : (hostOps0 : List (HloOp τ sig (Elt F))).Forall fun op => op.writes ⊆ (hostW.map (Proc.devRef (τ := τ) .tc)).toFinset := by
  simp only [List.Forall]
  refine ⟨?_, ?_, ?_, ?_, ?_, ?_⟩ <;>
    (simp only [StableHlo.unary_writes, StableHlo.reshape_writes, Finset.singleton_subset_iff, List.mem_toFinset]; exact List.mem_map_of_mem (by decide))
theorem hostOps0_fresh' : (hostOps0 : List (HloOp τ sig (Elt F))).Forall fun op => op.fresh = ∅ := by
  simp only [List.Forall]; repeat' constructor

theorem bnd4_main_arg0 (c : Dev nD) : bnd4 m ρ c (Proc.devRef .tc main_arg0) = m ((c : Thread nD τ).loc main_arg0) :=
  calc bnd4 m ρ c (Proc.devRef .tc main_arg0)
    _ = bnd3 m ρ c (Proc.devRef .tc main_arg0) := bnd4_of_ne m ρ c main_arg0 (by decide)
    _ = bnd2 m ρ c (Proc.devRef .tc main_arg0) := bnd3_of_ne m ρ c main_arg0 (by decide)
    _ = bnd1 m ρ c (Proc.devRef .tc main_arg0) := bnd2_of_ne m ρ c main_arg0 (by decide)
    _ = bnd0 m ρ c (Proc.devRef .tc main_arg0) := StableHlo.after_of_writes_sub hostOps0 _ hostOps0_writes' (by decide)
    _ = m ((c : Thread nD τ).loc main_arg0) := rfl
theorem bnd4_main_arg1 (c : Dev nD) : bnd4 m ρ c (Proc.devRef .tc main_arg1) = m ((c : Thread nD τ).loc main_arg1) :=
  calc bnd4 m ρ c (Proc.devRef .tc main_arg1)
    _ = bnd3 m ρ c (Proc.devRef .tc main_arg1) := bnd4_of_ne m ρ c main_arg1 (by decide)
    _ = bnd2 m ρ c (Proc.devRef .tc main_arg1) := (bnd3_arr m ρ c 0).trans (((dat1 (at2 m ρ) c).arrAt_in 0 rfl _).trans (A_eq1 (at2 m ρ) c 0))
    _ = bnd1 m ρ c (Proc.devRef .tc main_arg1) := bnd2_of_ne m ρ c main_arg1 (by decide)
    _ = bnd0 m ρ c (Proc.devRef .tc main_arg1) := StableHlo.after_of_writes_sub hostOps0 _ hostOps0_writes' (by decide)
    _ = m ((c : Thread nD τ).loc main_arg1) := rfl
theorem bnd4_main_arg2 (c : Dev nD) : bnd4 m ρ c (Proc.devRef .tc main_arg2) = m ((c : Thread nD τ).loc main_arg2) :=
  calc bnd4 m ρ c (Proc.devRef .tc main_arg2)
    _ = bnd3 m ρ c (Proc.devRef .tc main_arg2) := bnd4_of_ne m ρ c main_arg2 (by decide)
    _ = bnd2 m ρ c (Proc.devRef .tc main_arg2) := bnd3_of_ne m ρ c main_arg2 (by decide)
    _ = bnd1 m ρ c (Proc.devRef .tc main_arg2) := bnd2_of_ne m ρ c main_arg2 (by decide)
    _ = bnd0 m ρ c (Proc.devRef .tc main_arg2) := StableHlo.after_of_writes_sub hostOps0 _ hostOps0_writes' (by decide)
    _ = m ((c : Thread nD τ).loc main_arg2) := rfl
theorem bnd4_main_arg3 (c : Dev nD) : bnd4 m ρ c (Proc.devRef .tc main_arg3) = m ((c : Thread nD τ).loc main_arg3) :=
  calc bnd4 m ρ c (Proc.devRef .tc main_arg3)
    _ = bnd3 m ρ c (Proc.devRef .tc main_arg3) := bnd4_of_ne m ρ c main_arg3 (by decide)
    _ = bnd2 m ρ c (Proc.devRef .tc main_arg3) := bnd3_of_ne m ρ c main_arg3 (by decide)
    _ = bnd1 m ρ c (Proc.devRef .tc main_arg3) := (bnd2_arr m ρ c 1).trans (((dat0 (at1 m ρ) c).arrAt_in 1 rfl _).trans (A_eq0 (at1 m ρ) c 1))
    _ = bnd0 m ρ c (Proc.devRef .tc main_arg3) := StableHlo.after_of_writes_sub hostOps0 _ hostOps0_writes' (by decide)
    _ = m ((c : Thread nD τ).loc main_arg3) := rfl
theorem bnd4_main_arg4 (c : Dev nD) : bnd4 m ρ c (Proc.devRef .tc main_arg4) = m ((c : Thread nD τ).loc main_arg4) :=
  calc bnd4 m ρ c (Proc.devRef .tc main_arg4)
    _ = bnd3 m ρ c (Proc.devRef .tc main_arg4) := bnd4_of_ne m ρ c main_arg4 (by decide)
    _ = bnd2 m ρ c (Proc.devRef .tc main_arg4) := bnd3_of_ne m ρ c main_arg4 (by decide)
    _ = bnd1 m ρ c (Proc.devRef .tc main_arg4) := bnd2_of_ne m ρ c main_arg4 (by decide)
    _ = bnd0 m ρ c (Proc.devRef .tc main_arg4) := StableHlo.after_of_writes_sub hostOps0 _ hostOps0_writes' (by decide)
    _ = m ((c : Thread nD τ).loc main_arg4) := rfl
theorem bnd4_main_arg5 (c : Dev nD) : bnd4 m ρ c (Proc.devRef .tc main_arg5) = m ((c : Thread nD τ).loc main_arg5) :=
  calc bnd4 m ρ c (Proc.devRef .tc main_arg5)
    _ = bnd3 m ρ c (Proc.devRef .tc main_arg5) := bnd4_of_ne m ρ c main_arg5 (by decide)
    _ = bnd2 m ρ c (Proc.devRef .tc main_arg5) := (bnd3_arr m ρ c 2).trans (((dat1 (at2 m ρ) c).arrAt_in 2 rfl _).trans (A_eq1 (at2 m ρ) c 2))
    _ = bnd1 m ρ c (Proc.devRef .tc main_arg5) := bnd2_of_ne m ρ c main_arg5 (by decide)
    _ = bnd0 m ρ c (Proc.devRef .tc main_arg5) := StableHlo.after_of_writes_sub hostOps0 _ hostOps0_writes' (by decide)
    _ = m ((c : Thread nD τ).loc main_arg5) := rfl
theorem bnd4_main_arg6 (c : Dev nD) : bnd4 m ρ c (Proc.devRef .tc main_arg6) = m ((c : Thread nD τ).loc main_arg6) :=
  calc bnd4 m ρ c (Proc.devRef .tc main_arg6)
    _ = bnd3 m ρ c (Proc.devRef .tc main_arg6) := bnd4_of_ne m ρ c main_arg6 (by decide)
    _ = bnd2 m ρ c (Proc.devRef .tc main_arg6) := bnd3_of_ne m ρ c main_arg6 (by decide)
    _ = bnd1 m ρ c (Proc.devRef .tc main_arg6) := bnd2_of_ne m ρ c main_arg6 (by decide)
    _ = bnd0 m ρ c (Proc.devRef .tc main_arg6) := StableHlo.after_of_writes_sub hostOps0 _ hostOps0_writes' (by decide)
    _ = m ((c : Thread nD τ).loc main_arg6) := rfl
theorem bnd4_main_arg7 (c : Dev nD) : bnd4 m ρ c (Proc.devRef .tc main_arg7) = m ((c : Thread nD τ).loc main_arg7) :=
  calc bnd4 m ρ c (Proc.devRef .tc main_arg7)
    _ = bnd3 m ρ c (Proc.devRef .tc main_arg7) := bnd4_of_ne m ρ c main_arg7 (by decide)
    _ = bnd2 m ρ c (Proc.devRef .tc main_arg7) := bnd3_of_ne m ρ c main_arg7 (by decide)
    _ = bnd1 m ρ c (Proc.devRef .tc main_arg7) := bnd2_of_ne m ρ c main_arg7 (by decide)
    _ = bnd0 m ρ c (Proc.devRef .tc main_arg7) := StableHlo.after_of_writes_sub hostOps0 _ hostOps0_writes' (by decide)
    _ = m ((c : Thread nD τ).loc main_arg7) := rfl
theorem bnd4_main_arg8 (c : Dev nD) : bnd4 m ρ c (Proc.devRef .tc main_arg8) = m ((c : Thread nD τ).loc main_arg8) :=
  calc bnd4 m ρ c (Proc.devRef .tc main_arg8)
    _ = bnd3 m ρ c (Proc.devRef .tc main_arg8) := bnd4_of_ne m ρ c main_arg8 (by decide)
    _ = bnd2 m ρ c (Proc.devRef .tc main_arg8) := bnd3_of_ne m ρ c main_arg8 (by decide)
    _ = bnd1 m ρ c (Proc.devRef .tc main_arg8) := bnd2_of_ne m ρ c main_arg8 (by decide)
    _ = bnd0 m ρ c (Proc.devRef .tc main_arg8) := StableHlo.after_of_writes_sub hostOps0 _ hostOps0_writes' (by decide)
    _ = m ((c : Thread nD τ).loc main_arg8) := rfl

/-- The result array at the end is the last region's output array as its pipeline leaves it. -/
theorem bnd4_main_v8 (c : Dev nD) : bnd4 m ρ c (Proc.devRef .tc main_v8) = (dat2 (at3 m ρ) c).arrAt 3 cfg2.N :=
  bnd4_arr m ρ c 3

/-! ## The proof data family and what rides along -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (at1 m ρ) c
  | ⟨1, _⟩ => fun c => dat1 (at2 m ρ) c
  | ⟨2, _⟩ => fun c => dat2 (at3 m ρ) c
abbrev 𝒱₀ : Variants := Variants.none
abbrev L : GSem nD τ sig → Finset Unit := fun _ => ∅
abbrev lv : GSem nD τ sig → Unit → ℕ := fun _ _ => 0
/-- Beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (bnd4 m ρ c) ∗ ∃ r, prngReg c r)

/-! ## The regions as segments -/

set_option backward.isDefEq.respectTransparency.types false in
/-- Region 0 over the thread state: entered with every unscoped buffer at the boundary contents before it, left with
    them at the boundary contents after it. Its windows' arrays are split out of the unscoped buffers on entry and
    put back at their final contents on exit; the generator register goes into the invariant and comes back; nothing
    is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (at1 m ρ) c).loose
  hwaits := Pipeline.hwaits_of_owed_zero _ _ _ _ L lv 0 fun _ _ => rfl
  pre c := iprop(StableHlo.held (c : Thread nD τ) (Pipeline.ucRefs τ sig) (bnd1 m ρ c) ∗ R c)
  post c := iprop(StableHlo.held (c : Thread nD τ) (Pipeline.ucRefs τ sig) (bnd2 m ρ c) ∗ R c)
  X c := iprop(∃ r, prngReg c r)
  Y c := iprop(∃ r, prngReg c r)
  Z c := Pipeline.unscopedRest (Ix := Unit) (Name := ℕ) (U := UR sig nD τ) (Lvl := ℕ) spec0 c (at1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (at1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (at1 m ρ c) (at2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary contents before it, left with
    them at the boundary contents after it. Its windows' arrays are split out of the unscoped buffers on entry and
    put back at their final contents on exit; the generator register goes into the invariant and comes back; nothing
    is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (at2 m ρ) c).loose
  hwaits := Pipeline.hwaits_of_owed_zero _ _ _ _ L lv 1 fun _ _ => rfl
  pre c := iprop(StableHlo.held (c : Thread nD τ) (Pipeline.ucRefs τ sig) (bnd2 m ρ c) ∗ R c)
  post c := iprop(StableHlo.held (c : Thread nD τ) (Pipeline.ucRefs τ sig) (bnd3 m ρ c) ∗ R c)
  X c := iprop(∃ r, prngReg c r)
  Y c := iprop(∃ r, prngReg c r)
  Z c := Pipeline.unscopedRest (Ix := Unit) (Name := ℕ) (U := UR sig nD τ) (Lvl := ℕ) spec1 c (at2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (at2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinΦ1 (at2 m ρ) c); unfold Pipeline.ΦA
    iintro ⟨Hp, -, Hr⟩
    isplitl [Hr]; · iexact Hr
    iexact Hp
  hout c := by
    rw [Pipeline.ownSems0_none]
    refine BIBase.Entails.trans (houtΦ1 (at2 m ρ) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (at2 m ρ c) (at3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the boundary contents before it, left with
    them at the boundary contents after it. Its windows' arrays are split out of the unscoped buffers on entry and
    put back at their final contents on exit; the generator register goes into the invariant and comes back; nothing
    is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (at3 m ρ) c).loose
  hwaits := Pipeline.hwaits_of_owed_zero _ _ _ _ L lv 2 fun _ _ => rfl
  pre c := iprop(StableHlo.held (c : Thread nD τ) (Pipeline.ucRefs τ sig) (bnd3 m ρ c) ∗ R c)
  post c := iprop(StableHlo.held (c : Thread nD τ) (Pipeline.ucRefs τ sig) (bnd4 m ρ c) ∗ R c)
  X c := iprop(∃ r, prngReg c r)
  Y c := iprop(∃ r, prngReg c r)
  Z c := Pipeline.unscopedRest (Ix := Unit) (Name := ℕ) (U := UR sig nD τ) (Lvl := ℕ) spec2 c (at3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (at3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinΦ2 (at3 m ρ) c); unfold Pipeline.ΦA
    iintro ⟨Hp, -, Hr⟩
    isplitl [Hr]; · iexact Hr
    iexact Hp
  hout c := by
    rw [Pipeline.ownSems0_none]
    refine BIBase.Entails.trans (houtΦ2 (at3 m ρ) c) ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (at3 m ρ c) (at4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh' (bnd0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: every weakly fair execution of @main from memory `m` with zero counters terminates, nothing faulting, and
    in every final state every unscoped buffer of every core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = bnd4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (bnd4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (bnd0 m ρ c)
        from Pipeline.unscopedBufs_held c (bnd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd4 m ρ c b)
    (hfin := fun c s' => by
      iintro ⟨⟨Hh, -⟩, HSI⟩
      unfold StableHlo.held
      imodintro
      iapply (pointsTo_read_all (Pipeline.ucRefs τ sig) (fun b => (((c : Thread nD τ)).1, b)) (bnd4 m ρ c) s')
      isplitl [Hh] <;> iassumption)
    (hQ := fun s h => h)

/-- THE FRAME, at any float instance: the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (bnd4_main_arg0 m ρ c),
     (h c _ (mem_uc main_arg1 (by decide))).trans (bnd4_main_arg1 m ρ c),
     (h c _ (mem_uc main_arg2 (by decide))).trans (bnd4_main_arg2 m ρ c),
     (h c _ (mem_uc main_arg3 (by decide))).trans (bnd4_main_arg3 m ρ c),
     (h c _ (mem_uc main_arg4 (by decide))).trans (bnd4_main_arg4 m ρ c),
     (h c _ (mem_uc main_arg5 (by decide))).trans (bnd4_main_arg5 m ρ c),
     (h c _ (mem_uc main_arg6 (by decide))).trans (bnd4_main_arg6 m ρ c),
     (h c _ (mem_uc main_arg7 (by decide))).trans (bnd4_main_arg7 m ρ c),
     (h c _ (mem_uc main_arg8 (by decide))).trans (bnd4_main_arg8 m ρ c)⟩) (run m ρ)

/-- The run with the result array named: it ends at the last region's output array as its pipeline leaves it. -/
theorem run_value : θ_run defs (onTc (τ := τ) (main (F := F))) ⟨m, fun _ => 0, ρ⟩ (fun r => ∀ c : Dev nD,
      r.2.mem ((c.tc : Thread nD τ).loc main_v8) = (dat2 (at3 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_v8 (by decide))).trans (bnd4_main_v8 m ρ c),
     (h c _ (mem_uc main_arg0 (by decide))).trans (bnd4_main_arg0 m ρ c),
     (h c _ (mem_uc main_arg1 (by decide))).trans (bnd4_main_arg1 m ρ c),
     (h c _ (mem_uc main_arg2 (by decide))).trans (bnd4_main_arg2 m ρ c),
     (h c _ (mem_uc main_arg3 (by decide))).trans (bnd4_main_arg3 m ρ c),
     (h c _ (mem_uc main_arg4 (by decide))).trans (bnd4_main_arg4 m ρ c),
     (h c _ (mem_uc main_arg5 (by decide))).trans (bnd4_main_arg5 m ρ c),
     (h c _ (mem_uc main_arg6 (by decide))).trans (bnd4_main_arg6 m ρ c),
     (h c _ (mem_uc main_arg7 (by decide))).trans (bnd4_main_arg7 m ρ c),
     (h c _ (mem_uc main_arg8 (by decide))).trans (bnd4_main_arg8 m ρ c)⟩) (run m ρ)

end Cert.Kernel.Hand

end
-- ==== Proof.KI.R0.lean ====
/-
  The first kernel region of the idealized program: for relation t and row tile i it stages the tile
  xs[t, 1024 i .. 1024 i + 1023, :], the whole weight matrix W_conv[t] and the bias row b_conv[t], and stores
  max(x W^T + b, 0) into the tile's block of the result. Every grid point is independent of every other:
  the body loads its three input blocks whole, computes one value and stores it whole into the output block,
  so what the output block holds after the body is one function of the three input blocks (`out0_3`), the
  region's invariant is only that its other on-chip buffers exist, and nothing is owed between points.
  Everything here is stated at an arbitrary float instance and at arbitrary contents `V` of the buffers on entry.
-/
import proofs.«101938_j11553462026818_2_alg».proof.Proof.Gen.KernelIdeal.Launch
import proofs.«101938_j11553462026818_2_alg».proof.Proof.Gen.KernelIdeal.Skeleton
import proofs.«101938_j11553462026818_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input blocks -/

/-- Window `w`'s block at grid point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, whether the block was
    fetched at that point or is still there from an earlier one (its index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

/-- The whole of each block: the rectangles the body loads and stores through. -/
abbrev r0_0 : Rect S1x1024x512 := Rect.unit (s := S1x1024x512) ![0, 0, 0] S1x1024x512.size inb_S1x1024x512_S1x1024x512_0_0_0
abbrev r0_1 : Rect S1x512x512 := Rect.unit (s := S1x512x512) ![0, 0, 0] S1x512x512.size inb_S1x512x512_S1x512x512_0_0_0
abbrev r0_2 : Rect S1x1x512 := Rect.unit (s := S1x1x512) ![0, 0, 0] S1x1x512.size inb_S1x1x512_S1x1x512_0_0_0

/-- The output block after the body, as a function of the three input blocks: its one store read back. -/
def out0_3 (x0 : Vec F S1x1024x512 .f32) (x1 : Vec F S1x512x512 .f32) (x2 : Vec F S1x1x512 .f32) : Vec F S1x1024x512 .bf16 :=
  View.canon [⟨r0_0, k0_pay1 (View.ld x0 r0_0) (View.ld x1 r0_1) (View.ld x2 r0_2)⟩]

/-- The one store is of the whole block, so it covers it. -/
theorem cover0_3 (p0 : Vec F S1x1024x512 .bf16) (y : S1x1024x512.Idx) :
    ∃ pc ∈ ([⟨r0_0, p0⟩] : List (View.Piece (Elt F) S1x1024x512 .bf16)), y ∈ pc.1.set :=
  View.cover_of_tiled [⟨r0_0, p0⟩] S1x1024x512.size (by rfl) y

/-! ## The body's triple -/

set_option maxHeartbeats 2000000 in
/-- On whole staging buffers, the inputs' at known contents and the output's at anything, the body runs to its end
    with the inputs' buffers as they were and the output's at `out0_3` of the inputs'. -/
theorem sound_kernel0 (c : Dev nD) (E : Set ℕ) (i : grid0.Coords)
    (arg2 : Memref sig .tc .vmem S1x1024x512 .f32) (harg2 : arg2.IsWhole) (arg3 : Memref sig .tc .vmem S1x512x512 .f32) (harg3 : arg3.IsWhole)
    (arg4 : Memref sig .tc .vmem S1x1x512 .f32) (harg4 : arg4.IsWhole) (arg5 : Memref sig .tc .vmem S1x1024x512 .bf16) (harg5 : arg5.IsWhole)
    (x0 : Vec F S1x1024x512 .f32) (x1 : Vec F S1x512x512 .f32) (x2 : Vec F S1x1x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__conv_kernel i arg2 harg2 arg3 harg3 arg4 harg4 arg5 harg5) K := by
  simp only [cc0__conv_kernel_eq_skeleton]; unfold cc0__conv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The arrays as the region finds them; after the body at point `t` each input's buffer still at its block and
    the output's at `out0_3` of the three blocks; the invariant: the other on-chip buffers and the generator
    register exist; nothing owed; whole shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what
    the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.C1.lean ====
/-
  What the second kernel region's case runs and invariant are stated over. The body branches on its last grid
  coordinate only: at the first step of a reduction it zeroes the accumulator it keeps on chip, at every step it adds
  one product into it, at the last step it also finishes and stores the output block. So a grid point is in one of
  three cases (first / middle / last step), decided over the grid once; the output window is idle except at the last
  step; and between the steps of one reduction the accumulator's contents are what the previous step left.
-/
import proofs.«101938_j11553462026818_2_alg».proof.Proof.KI.R0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, from the grid coordinates -/

/-- "This is the reduction's first step." -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is the reduction's last step." -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from a reduction's last step the output window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last step it is live. -/
theorem liveAt1_4 : ∀ t : Fin cfg1.N, cond1_1 (grid1.coords t) → cfg1.idle 4 (grid1.coords t) = false := by decide +kernel

/-! ## The memrefs the body is called with -/

/-- One staging buffer of the output window, through which its contents are stated. -/
abbrev VO1 : View sig .tc .vmem S1x1024x512 .bf16 := (Memref.whole cc1_stg4_0 : Memref sig .tc .vmem S1x1024x512 .bf16).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x512 .bf16 := win1_4.stage (cfg1.slots t 4)
abbrev hs1_4 (t : Fin cfg1.N) : (ms1_4 t).IsWhole := hstage1_4 ((cfg1.slots t 4).cast nbuf1_4)
/-- The accumulator: a whole on-chip buffer of the kernel's own. -/
abbrev scM1_0 : Memref sig .tc .vmem S1024x512 .f32 := Memref.whole cc1_scratch0
abbrev VS1 : View sig .tc .vmem S1024x512 .f32 := scM1_0.view

/-! ## The invariant between regions, with the accumulator set apart -/

/-- The core's other on-chip buffers that this region does not stage, each at some contents. -/
def restO1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_scratch0), ((c : Thread nD τ).loc cc2_scratch0) ↦{fullShare} f))

/-- The invariant a region is entered with — every on-chip buffer it does not stage at some contents, the generator
    register at some state — with the accumulator named. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_scratch0), ((c : Thread nD τ).loc cc2_scratch0) ↦{fullShare} f)) ∗ (∃ r, prngReg c r)) := by
  unfold Pipeline.ΦA; rw [scopedRest1_eq]; simp only [scM1_0, owns_whole]; try rfl

theorem PhiA1_split (c : Dev nD) :
    (Pipeline.ΦA spec1 c : sProp 𝕄) ⊢ iprop((∃ d, owns (c : Thread nD τ) scM1_0 fullShare d) ∗ restO1 c ∗ (∃ r, prngReg c r)) := by
  rw [PhiA1_eq]; unfold restO1
  iintro ⟨⟨B0, B1, B2, B3, B4, B5, B6, B7, HS, A0, A1, A2, A3, A4, A5, A6⟩, Hg⟩
  isplitl [HS]; · iexact HS
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [A0]; · iexact A0
  isplitl [A1]; · iexact A1
  isplitl [A2]; · iexact A2
  isplitl [A3]; · iexact A3
  isplitl [A4]; · iexact A4
  isplitl [A5]; · iexact A5
  iexact A6

theorem PhiA1_join (c : Dev nD) :
    iprop((∃ d, owns (c : Thread nD τ) scM1_0 fullShare d) ∗ restO1 c ∗ (∃ r, prngReg c r)) ⊢ (Pipeline.ΦA spec1 c : sProp 𝕄) := by
  rw [PhiA1_eq]; unfold restO1
  iintro ⟨HS, ⟨B0, B1, B2, B3, B4, B5, B6, B7, A0, A1, A2, A3, A4, A5, A6⟩, Hg⟩
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [HS]; · iexact HS
  isplitl [A0]; · iexact A0
  isplitl [A1]; · iexact A1
  isplitl [A2]; · iexact A2
  isplitl [A3]; · iexact A3
  isplitl [A4]; · iexact A4
  isplitl [A5]; · iexact A5
  iexact A6

end Cert.KernelIdeal.Hand

end
-- ==== Proof.KI.Run1A.lean ====
/-
  The second region's body run whole in the reduction's first step: the accumulator is zeroed, then one product is added. The stores each buffer ends with, as pieces,
  are found by running the body symbolically; they come with the proof that from whole buffers at the stated contents
  the body runs to its end leaving exactly those pieces written.
-/
import proofs.«101938_j11553462026818_2_alg».proof.Proof.KI.C1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : cond1_0 i) (hc1 : ¬cond1_1 i)
    (x0 : Vec F S1024x1024 .f32) (x1 : Vec F S1x4096x512 .bf16) (x2 : Vec F S1x512x512 .f32) (x3 : Vec F S1x1x512 .f32) :
    Σ' (LO : List (View.Piece (Elt F) S1x1024x512 .bf16)), { LS : List (View.Piece (Elt F) S1024x512 .f32) //
      ∀ (xi : Vec F S1x1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1__spmm_sage_kernel i arg3 harg3 arg4 harg4 arg5 harg5 arg6 harg6 arg7 harg7 arg8 harg8) K } := by
  refine ⟨[], ?_, fun xi E K => ?run⟩
  case run =>
    simp only [cc1__spmm_sage_kernel_eq_skeleton]; unfold cc1__spmm_sage_kernel_skel
    unfold owns
    iintro ⟨⟨%f0, %hf0, H0⟩, ⟨%f1, %hf1, H1⟩, ⟨%f2, %hf2, H2⟩, ⟨%f3, %hf3, H3⟩, ⟨%fO, %hfO, HO⟩, ⟨%dS, %fS, -, HS⟩, Hk⟩
    obtain rfl := harg3.eq_unread hf0; obtain rfl := harg4.eq_unread hf1; obtain rfl := harg5.eq_unread hf2; obtain rfl := harg6.eq_unread hf3; obtain rfl := harg7.eq_unread hfO
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    iexists _; iexact HS

end Cert.KernelIdeal.Hand

end
-- ==== Proof.KI.Run1B.lean ====
/-
  The second region's body run whole in a middle step: one product is added to the accumulator. The stores each buffer ends with, as pieces,
  are found by running the body symbolically; they come with the proof that from whole buffers at the stated contents
  the body runs to its end leaving exactly those pieces written.
-/
import proofs.«101938_j11553462026818_2_alg».proof.Proof.KI.Run1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : ¬cond1_0 i) (hc1 : ¬cond1_1 i)
    (x0 : Vec F S1024x1024 .f32) (x1 : Vec F S1x4096x512 .bf16) (x2 : Vec F S1x512x512 .f32) (x3 : Vec F S1x1x512 .f32) (xs0 : Vec F S1024x512 .f32) :
    Σ' (LO : List (View.Piece (Elt F) S1x1024x512 .bf16)), { LS : List (View.Piece (Elt F) S1024x512 .f32) //
      ∀ (xi : Vec F S1x1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1__spmm_sage_kernel i arg3 harg3 arg4 harg4 arg5 harg5 arg6 harg6 arg7 harg7 arg8 harg8) K } := by
  refine ⟨[], ?_, fun xi E K => ?run⟩
  case run =>
    simp only [cc1__spmm_sage_kernel_eq_skeleton]; unfold cc1__spmm_sage_kernel_skel
    unfold owns
    iintro ⟨⟨%f0, %hf0, H0⟩, ⟨%f1, %hf1, H1⟩, ⟨%f2, %hf2, H2⟩, ⟨%f3, %hf3, H3⟩, ⟨%fO, %hfO, HO⟩, ⟨%fS, %hfS, HS⟩, Hk⟩
    obtain rfl := harg3.eq_unread hf0; obtain rfl := harg4.eq_unread hf1; obtain rfl := harg5.eq_unread hf2; obtain rfl := harg6.eq_unread hf3; obtain rfl := harg7.eq_unread hfO; obtain rfl := harg8.eq_unread hfS
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    iexists _; iexact HS

end Cert.KernelIdeal.Hand

end
-- ==== Proof.KI.Run1C.lean ====
/-
  The second region's body run whole in the reduction's last step: one more product is added, then the output block is computed from the accumulator and stored. The stores each buffer ends with, as pieces,
  are found by running the body symbolically; they come with the proof that from whole buffers at the stated contents
  the body runs to its end leaving exactly those pieces written.
-/
import proofs.«101938_j11553462026818_2_alg».proof.Proof.KI.Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : ¬cond1_0 i) (hc1 : cond1_1 i)
    (x0 : Vec F S1024x1024 .f32) (x1 : Vec F S1x4096x512 .bf16) (x2 : Vec F S1x512x512 .f32) (x3 : Vec F S1x1x512 .f32) (xs0 : Vec F S1024x512 .f32) :
    Σ' (LO : List (View.Piece (Elt F) S1x1024x512 .bf16)), { LS : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc1__spmm_sage_kernel i arg3 harg3 arg4 harg4 arg5 harg5 arg6 harg6 arg7 harg7 arg8 harg8) K } := by
  refine ⟨?_, ?_, fun E K => ?run⟩
  case run =>
    simp only [cc1__spmm_sage_kernel_eq_skeleton]; unfold cc1__spmm_sage_kernel_skel
    unfold owns
    iintro ⟨⟨%f0, %hf0, H0⟩, ⟨%f1, %hf1, H1⟩, ⟨%f2, %hf2, H2⟩, ⟨%f3, %hf3, H3⟩, ⟨%dO, %fO, -, HO⟩, ⟨%fS, %hfS, HS⟩, Hk⟩
    obtain rfl := harg3.eq_unread hf0; obtain rfl := harg4.eq_unread hf1; obtain rfl := harg5.eq_unread hf2; obtain rfl := harg6.eq_unread hf3; obtain rfl := harg8.eq_unread hfS
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]; · iexists _; iexact HO
    iexists _; iexact HS

end Cert.KernelIdeal.Hand

end
-- ==== Proof.KI.F1.lean ====
/-
  The second kernel region's proof data and body obligation. What the accumulator holds after grid
  position n is defined by recursion on n: at a reduction's first step it is what the zero-then-add run leaves, at a
  later step what the add run leaves over the previous position's contents; the output block is written at a
  reduction's last step only, from the accumulator that step leaves. The invariant between positions is the other
  on-chip buffers at anything, the generator register at some state, and — after the first position — the
  accumulator at exactly those contents. Every statement is at arbitrary entry contents `V` and any float instance.
-/
import proofs.«101938_j11553462026818_2_alg».proof.Proof.KI.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the accumulator and in the output block -/

theorem scover1_A (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : cond1_0 i) (hc1 : ¬cond1_1 i)
    (x0 : Vec F S1024x1024 .f32) (x1 : Vec F S1x4096x512 .bf16) (x2 : Vec F S1x512x512 .f32) (x3 : Vec F S1x1x512 .f32) (y : S1024x512.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S1024x512.size (by sl_kernel_rfl) y
def sout1_A (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : cond1_0 i) (hc1 : ¬cond1_1 i)
    (x0 : Vec F S1024x1024 .f32) (x1 : Vec F S1x4096x512 .bf16) (x2 : Vec F S1x512x512 .f32) (x3 : Vec F S1x1x512 .f32) : Vec F S1024x512 .f32 :=
  VS1.read (Elt F) (VS1.writes (Elt F) VS1.junk (kernelRun1_A c i arg3 harg3 arg4 harg4 arg5 harg5 arg6 harg6 arg7 harg7 arg8 harg8 hc0 hc1 x0 x1 x2 x3).2.1)

theorem scover1_B (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : ¬cond1_0 i) (hc1 : ¬cond1_1 i)
    (x0 : Vec F S1024x1024 .f32) (x1 : Vec F S1x4096x512 .bf16) (x2 : Vec F S1x512x512 .f32) (x3 : Vec F S1x1x512 .f32) (xs0 : Vec F S1024x512 .f32) (y : S1024x512.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S1024x512.size (by sl_kernel_rfl) y
def sout1_B (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : ¬cond1_0 i) (hc1 : ¬cond1_1 i)
    (x0 : Vec F S1024x1024 .f32) (x1 : Vec F S1x4096x512 .bf16) (x2 : Vec F S1x512x512 .f32) (x3 : Vec F S1x1x512 .f32) (xs0 : Vec F S1024x512 .f32) : Vec F S1024x512 .f32 :=
  VS1.read (Elt F) (VS1.writes (Elt F) VS1.junk (kernelRun1_B c i arg3 harg3 arg4 harg4 arg5 harg5 arg6 harg6 arg7 harg7 arg8 harg8 hc0 hc1 x0 x1 x2 x3 xs0).2.1)

theorem scover1_C (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : ¬cond1_0 i) (hc1 : cond1_1 i)
    (x0 : Vec F S1024x1024 .f32) (x1 : Vec F S1x4096x512 .bf16) (x2 : Vec F S1x512x512 .f32) (x3 : Vec F S1x1x512 .f32) (xs0 : Vec F S1024x512 .f32) (y : S1024x512.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1024x512.size (by sl_kernel_rfl) y
def sout1_C (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : ¬cond1_0 i) (hc1 : cond1_1 i)
    (x0 : Vec F S1024x1024 .f32) (x1 : Vec F S1x4096x512 .bf16) (x2 : Vec F S1x512x512 .f32) (x3 : Vec F S1x1x512 .f32) (xs0 : Vec F S1024x512 .f32) : Vec F S1024x512 .f32 :=
  VS1.read (Elt F) (VS1.writes (Elt F) VS1.junk (kernelRun1_C c i arg3 harg3 arg4 harg4 arg5 harg5 arg6 harg6 arg7 harg7 arg8 harg8 hc0 hc1 x0 x1 x2 x3 xs0).2.1)
theorem cover1_C (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : ¬cond1_0 i) (hc1 : cond1_1 i)
    (x0 : Vec F S1024x1024 .f32) (x1 : Vec F S1x4096x512 .bf16) (x2 : Vec F S1x512x512 .f32) (x3 : Vec F S1x1x512 .f32) (xs0 : Vec F S1024x512 .f32) (y : S1x1024x512.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1x1024x512.size (by sl_kernel_rfl) y
def out1_C (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : ¬cond1_0 i) (hc1 : cond1_1 i)
    (x0 : Vec F S1024x1024 .f32) (x1 : Vec F S1x4096x512 .bf16) (x2 : Vec F S1x512x512 .f32) (x3 : Vec F S1x1x512 .f32) (xs0 : Vec F S1024x512 .f32) : Vec F S1x1024x512 .bf16 :=
  VO1.read (Elt F) (VO1.writes (Elt F) VO1.junk (kernelRun1_C c i arg3 harg3 arg4 harg4 arg5 harg5 arg6 harg6 arg7 harg7 arg8 harg8 hc0 hc1 x0 x1 x2 x3 xs0).1)

/-- A placeholder for the output block at positions where its window is idle: nothing reads it. -/
def outIdle1 : Vec F S1x1024x512 .bf16 := VO1.read (Elt F) VO1.junk

/-! ## The same at a grid position, on the buffers the pipeline passes there -/

def soutAt1_A (c : Dev nD) (t : Fin cfg1.N) (h0 : t.val % 4 = 0) (h1 : ¬t.val % 4 = 3) : Vec F S1024x512 .f32 :=
  sout1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)
def soutAt1_B (c : Dev nD) (t : Fin cfg1.N) (h0 : ¬t.val % 4 = 0) (h1 : ¬t.val % 4 = 3) (prev : Vec F S1024x512 .f32) : Vec F S1024x512 .f32 :=
  sout1_B c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) prev
def soutAt1_C (c : Dev nD) (t : Fin cfg1.N) (h0 : ¬t.val % 4 = 0) (h1 : t.val % 4 = 3) (prev : Vec F S1024x512 .f32) : Vec F S1024x512 .f32 :=
  sout1_C c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) prev
def outAt1_C (c : Dev nD) (t : Fin cfg1.N) (h0 : ¬t.val % 4 = 0) (h1 : t.val % 4 = 3) (prev : Vec F S1024x512 .f32) : Vec F S1x1024x512 .bf16 :=
  out1_C c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) prev

/-! ## What the output block and the accumulator hold after each position -/

/-- After position `n`: the output block (a placeholder where idle) and the accumulator. -/
def outsAt1 (c : Dev nD) : (n : ℕ) → n < cfg1.N → Vec F S1x1024x512 .bf16 × Vec F S1024x512 .f32
  | 0, hn => (outIdle1, soutAt1_A V c ⟨0, hn⟩ (Nat.zero_mod _) (by simp))
  | n + 1, hn =>
    if h0 : (n + 1) % 4 = 0 then
      (outIdle1, soutAt1_A V c ⟨n + 1, hn⟩ h0 (by intro h; dsimp only at h h0; omega))
    else
      if h1 : (n + 1) % 4 = 3 then
        (outAt1_C V c ⟨n + 1, hn⟩ h0 h1 (outsAt1 c n (Nat.lt_of_succ_lt hn)).2, soutAt1_C V c ⟨n + 1, hn⟩ h0 h1 (outsAt1 c n (Nat.lt_of_succ_lt hn)).2)
      else
        (outIdle1, soutAt1_B V c ⟨n + 1, hn⟩ h0 h1 (outsAt1 c n (Nat.lt_of_succ_lt hn)).2)

theorem outsAt1_A (c : Dev nD) (t : Fin cfg1.N) (h0 : t.val % 4 = 0) (h1 : ¬t.val % 4 = 3) :
    outsAt1 V c t.val t.isLt = (outIdle1, soutAt1_A V c t h0 h1) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (outIdle1, soutAt1_B V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (outAt1_C V c t h0 h1 (outsAt1 V c (t.val - 1) (Nat.lt_of_le_of_lt (Nat.sub_le _ _) t.isLt)).2, soutAt1_C V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant between positions -/

def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ restO1 c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1_0 fullShare ((outsAt1 V c n hn).2) ∗ restO1 c ∗ (∃ r, prngReg c r)) := rfl
theorem PhiS1_pos (c : Dev nD) (n : ℕ) (h : n ≤ cfg1.N) (hz : n ≠ 0) :
    PhiS1 V c n h = iprop(owns (c : Thread nD τ) scM1_0 fullShare ((outsAt1 V c (n - 1) (by omega)).2) ∗ restO1 c ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any position: the inputs' buffers hold their blocks; the position is in exactly one of the three
    cases; the invariant hands over the accumulator at what the previous position left (at anything before the
    first position) and takes it back at what this position leaves. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 48 := lt_of_lt_of_eq t.isLt (show cfg1.N = 48 from N_1)
  rw [show (dat1 V c).leavesExact 0 t = owns (c : Thread nD τ) (ms1_0 t) fullShare ((dat1 V c).after 0 t) from (by unfold Dat.leavesExact; rw [liveAt1_0 t]), after1_0]
  rw [show (dat1 V c).leavesExact 1 t = owns (c : Thread nD τ) (ms1_1 t) fullShare ((dat1 V c).after 1 t) from (by unfold Dat.leavesExact; rw [liveAt1_1 t]), after1_1]
  rw [show (dat1 V c).leavesExact 2 t = owns (c : Thread nD τ) (ms1_2 t) fullShare ((dat1 V c).after 2 t) from (by unfold Dat.leavesExact; rw [liveAt1_2 t]), after1_2]
  rw [show (dat1 V c).leavesExact 3 t = owns (c : Thread nD τ) (ms1_3 t) fullShare ((dat1 V c).after 3 t) from (by unfold Dat.leavesExact; rw [liveAt1_3 t]), after1_3]
  by_cases h0 : t.val % 4 = 0
  · have h1 : ¬t.val % 4 = 3 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold soutAt1_A sout1_A; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩⟩
      ihave HΦ' := (PhiA1_split c) $$ HΦ
      icases HΦ' with ⟨HS, HR, Hg⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%eS, HS⟩⟩
      isplitl [HS HR Hg]
      · isplitl [HS]
        · unfold owns; iexists _; isplitr
          swap; · iexact HS
          ipureintro; exact View.read_writes_of_cover _ _ _ _ _ (scover1_A c _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨HS, HR, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%eS, HS⟩⟩
      isplitl [HS HR Hg]
      · isplitl [HS]
        · unfold owns; iexists _; isplitr
          swap; · iexact HS
          ipureintro; exact View.read_writes_of_cover _ _ _ _ _ (scover1_A c _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by intro hz; rw [hz] at h0; exact h0 (Nat.zero_mod _)
    by_cases h1 : t.val % 4 = 3
    · rw [show (dat1 V c).leavesExact 4 t = owns (c : Thread nD τ) (ms1_4 t) fullShare ((dat1 V c).after 4 t) from (by unfold Dat.leavesExact; rw [liveAt1_4 t ((hcond1_1 t).mpr h1)]), after1_4]
      rw [outsAt1_C V c t h0 h1]
      unfold outAt1_C soutAt1_C out1_C sout1_C; (try dsimp only)
      rw [PhiS1_castSucc V c t, PhiS1_pos V c _ _ hz]
      iintro ⟨⟨HS, HR, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%eO, H4⟩, ⟨%eS, HS⟩⟩
      isplitl [HS HR Hg]
      · isplitl [HS]
        · unfold owns; iexists _; isplitr
          swap; · iexact HS
          ipureintro; exact View.read_writes_of_cover _ _ _ _ _ (scover1_C c _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C c _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold soutAt1_B sout1_B; (try dsimp only)
      rw [PhiS1_castSucc V c t, PhiS1_pos V c _ _ hz]
      iintro ⟨⟨HS, HR, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%eS, HS⟩⟩
      isplitl [HS HR Hg]
      · isplitl [HS]
        · unfold owns; iexists _; isplitr
          swap; · iexact HS
          ipureintro; exact View.read_writes_of_cover _ _ _ _ _ (scover1_B c _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-! ## Into the invariant before the first position, and out of it after the last -/

theorem hinΦ1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem houtΦ1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 48 := N_1; omega)]
  iintro ⟨HS, HR, Hg⟩
  iapply (PhiA1_join c)
  isplitl [HS]; · iexists _; iexact HS
  isplitl [HR]; · iexact HR
  iexact Hg

end Cert.KernelIdeal.Hand

end
-- ==== Proof.KI.C2.lean ====
/-
  What the third kernel region's case runs and invariant are stated over. The body branches on its last grid
  coordinate only: at the first step of a reduction it zeroes the accumulator it keeps on chip, at every step it adds
  one product into it, at the last step it also finishes and stores the output block. So a grid point is in one of
  three cases (first / middle / last step), decided over the grid once; the output window is idle except at the last
  step; and between the steps of one reduction the accumulator's contents are what the previous step left.
-/
import proofs.«101938_j11553462026818_2_alg».proof.Proof.KI.R0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, from the grid coordinates -/

/-- "This is the reduction's first step." -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 3 = 0 :=
  (by decide +kernel : ∀ t : Fin grid2.N, cond2_0 (grid2.coords t) ↔ t.val % 3 = 0)
/-- "This is the reduction's last step." -/
abbrev cond2_1 (i : grid2.Coords) : Prop := k2_cond2 i = 1#1
theorem hcond2_1 : ∀ t : Fin cfg2.N, cond2_1 (grid2.coords t) ↔ t.val % 3 = 2 :=
  (by decide +kernel : ∀ t : Fin grid2.N, cond2_1 (grid2.coords t) ↔ t.val % 3 = 2)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from a reduction's last step the output window is idle and is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At the last step it is live. -/
theorem liveAt2_3 : ∀ t : Fin cfg2.N, cond2_1 (grid2.coords t) → cfg2.idle 3 (grid2.coords t) = false := by decide +kernel

/-! ## The memrefs the body is called with -/

/-- One staging buffer of the output window, through which its contents are stated. -/
abbrev VO2 : View sig .tc .vmem S4096x32 .f32 := (Memref.whole cc2_stg3_0 : Memref sig .tc .vmem S4096x32 .f32).view
abbrev ms2_0 (t : Fin cfg2.N) : Memref sig .tc .vmem S1x4096x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x32x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x32 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x32 .f32 := win2_3.stage (cfg2.slots t 3)
abbrev hs2_3 (t : Fin cfg2.N) : (ms2_3 t).IsWhole := hstage2_3 ((cfg2.slots t 3).cast nbuf2_3)
/-- The accumulator: a whole on-chip buffer of the kernel's own. -/
abbrev scM2_0 : Memref sig .tc .vmem S4096x32 .f32 := Memref.whole cc2_scratch0
abbrev VS2 : View sig .tc .vmem S4096x32 .f32 := scM2_0.view

/-! ## The invariant between regions, with the accumulator set apart -/

/-- The core's other on-chip buffers that this region does not stage, each at some contents. -/
def restO2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The invariant a region is entered with — every on-chip buffer it does not stage at some contents, the generator
    register at some state — with the accumulator named. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ d, owns (c : Thread nD τ) scM2_0 fullShare d)) ∗ (∃ r, prngReg c r)) := by
  unfold Pipeline.ΦA; rw [scopedRest2_eq]; simp only [scM2_0, owns_whole]; try rfl

theorem PhiA2_split (c : Dev nD) :
    (Pipeline.ΦA spec2 c : sProp 𝕄) ⊢ iprop((∃ d, owns (c : Thread nD τ) scM2_0 fullShare d) ∗ restO2 c ∗ (∃ r, prngReg c r)) := by
  rw [PhiA2_eq]; unfold restO2
  iintro ⟨⟨B0, B1, B2, B3, B4, B5, B6, B7, B8, B9, B10, B11, B12, B13, B14, B15, B16, B17, B18, HS⟩, Hg⟩
  isplitl [HS]; · iexact HS
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  iexact B18

theorem PhiA2_join (c : Dev nD) :
    iprop((∃ d, owns (c : Thread nD τ) scM2_0 fullShare d) ∗ restO2 c ∗ (∃ r, prngReg c r)) ⊢ (Pipeline.ΦA spec2 c : sProp 𝕄) := by
  rw [PhiA2_eq]; unfold restO2
  iintro ⟨HS, ⟨B0, B1, B2, B3, B4, B5, B6, B7, B8, B9, B10, B11, B12, B13, B14, B15, B16, B17, B18⟩, Hg⟩
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  isplitl [B18]; · iexact B18
  iexact HS

end Cert.KernelIdeal.Hand

end
-- ==== Proof.KI.Run2A.lean ====
/-
  The third region's body run whole in the reduction's first step: the accumulator is zeroed, then one product is added. The stores each buffer ends with, as pieces,
  are found by running the body symbolically; they come with the proof that from whole buffers at the stated contents
  the body runs to its end leaving exactly those pieces written.
-/
import proofs.«101938_j11553462026818_2_alg».proof.Proof.KI.C2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : cond2_0 i) (hc1 : ¬cond2_1 i)
    (x0 : Vec F S1x4096x512 .bf16) (x1 : Vec F S1x32x512 .f32) (x2 : Vec F S1x32 .f32) :
    Σ' (LO : List (View.Piece (Elt F) S4096x32 .f32)), { LS : List (View.Piece (Elt F) S4096x32 .f32) //
      ∀ (xi : Vec F S4096x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc2__final_kernel i arg2 harg2 arg3 harg3 arg4 harg4 arg5 harg5 arg6 harg6) K } := by
  refine ⟨[], ?_, fun xi E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%fO, %hfO, HO⟩, ⟨%dS, %fS, -, HS⟩, Hk⟩
    obtain rfl := harg2.eq_unread hf0; obtain rfl := harg3.eq_unread hf1; obtain rfl := harg4.eq_unread hf2; obtain rfl := harg5.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

end Cert.KernelIdeal.Hand

end
-- ==== Proof.KI.Run2B.lean ====
/-
  The third region's body run whole in a middle step: one product is added to the accumulator. The stores each buffer ends with, as pieces,
  are found by running the body symbolically; they come with the proof that from whole buffers at the stated contents
  the body runs to its end leaving exactly those pieces written.
-/
import proofs.«101938_j11553462026818_2_alg».proof.Proof.KI.Run2A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : ¬cond2_0 i) (hc1 : ¬cond2_1 i)
    (x0 : Vec F S1x4096x512 .bf16) (x1 : Vec F S1x32x512 .f32) (x2 : Vec F S1x32 .f32) (xs0 : Vec F S4096x32 .f32) :
    Σ' (LO : List (View.Piece (Elt F) S4096x32 .f32)), { LS : List (View.Piece (Elt F) S4096x32 .f32) //
      ∀ (xi : Vec F S4096x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc2__final_kernel i arg2 harg2 arg3 harg3 arg4 harg4 arg5 harg5 arg6 harg6) K } := by
  refine ⟨[], ?_, fun xi E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%fO, %hfO, HO⟩, ⟨%fS, %hfS, HS⟩, Hk⟩
    obtain rfl := harg2.eq_unread hf0; obtain rfl := harg3.eq_unread hf1; obtain rfl := harg4.eq_unread hf2; obtain rfl := harg5.eq_unread hfO; obtain rfl := harg6.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

end Cert.KernelIdeal.Hand

end
-- ==== Proof.KI.Run2C.lean ====
/-
  The third region's body run whole in the reduction's last step: one more product is added, then the output block is computed from the accumulator and stored. The stores each buffer ends with, as pieces,
  are found by running the body symbolically; they come with the proof that from whole buffers at the stated contents
  the body runs to its end leaving exactly those pieces written.
-/
import proofs.«101938_j11553462026818_2_alg».proof.Proof.KI.Run2B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : ¬cond2_0 i) (hc1 : cond2_1 i)
    (x0 : Vec F S1x4096x512 .bf16) (x1 : Vec F S1x32x512 .f32) (x2 : Vec F S1x32 .f32) (xs0 : Vec F S4096x32 .f32) :
    Σ' (LO : List (View.Piece (Elt F) S4096x32 .f32)), { LS : List (View.Piece (Elt F) S4096x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc2__final_kernel i arg2 harg2 arg3 harg3 arg4 harg4 arg5 harg5 arg6 harg6) K } := by
  refine ⟨?_, ?_, fun E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%dO, %fO, -, HO⟩, ⟨%fS, %hfS, HS⟩, Hk⟩
    obtain rfl := harg2.eq_unread hf0; obtain rfl := harg3.eq_unread hf1; obtain rfl := harg4.eq_unread hf2; obtain rfl := harg6.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS

end Cert.KernelIdeal.Hand

end
-- ==== Proof.KI.F2.lean ====
/-
  The third kernel region's proof data and body obligation. What the accumulator holds after grid
  position n is defined by recursion on n: at a reduction's first step it is what the zero-then-add run leaves, at a
  later step what the add run leaves over the previous position's contents; the output block is written at a
  reduction's last step only, from the accumulator that step leaves. The invariant between positions is the other
  on-chip buffers at anything, the generator register at some state, and — after the first position — the
  accumulator at exactly those contents. Every statement is at arbitrary entry contents `V` and any float instance.
-/
import proofs.«101938_j11553462026818_2_alg».proof.Proof.KI.Run2C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input blocks -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the accumulator and in the output block -/

theorem scover2_A (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : cond2_0 i) (hc1 : ¬cond2_1 i)
    (x0 : Vec F S1x4096x512 .bf16) (x1 : Vec F S1x32x512 .f32) (x2 : Vec F S1x32 .f32) (y : S4096x32.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S4096x32.size (by sl_kernel_rfl) y
def sout2_A (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : cond2_0 i) (hc1 : ¬cond2_1 i)
    (x0 : Vec F S1x4096x512 .bf16) (x1 : Vec F S1x32x512 .f32) (x2 : Vec F S1x32 .f32) : Vec F S4096x32 .f32 :=
  VS2.read (Elt F) (VS2.writes (Elt F) VS2.junk (kernelRun2_A c i arg2 harg2 arg3 harg3 arg4 harg4 arg5 harg5 arg6 harg6 hc0 hc1 x0 x1 x2).2.1)

theorem scover2_B (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : ¬cond2_0 i) (hc1 : ¬cond2_1 i)
    (x0 : Vec F S1x4096x512 .bf16) (x1 : Vec F S1x32x512 .f32) (x2 : Vec F S1x32 .f32) (xs0 : Vec F S4096x32 .f32) (y : S4096x32.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S4096x32.size (by sl_kernel_rfl) y
def sout2_B (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : ¬cond2_0 i) (hc1 : ¬cond2_1 i)
    (x0 : Vec F S1x4096x512 .bf16) (x1 : Vec F S1x32x512 .f32) (x2 : Vec F S1x32 .f32) (xs0 : Vec F S4096x32 .f32) : Vec F S4096x32 .f32 :=
  VS2.read (Elt F) (VS2.writes (Elt F) VS2.junk (kernelRun2_B c i arg2 harg2 arg3 harg3 arg4 harg4 arg5 harg5 arg6 harg6 hc0 hc1 x0 x1 x2 xs0).2.1)

theorem scover2_C (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : ¬cond2_0 i) (hc1 : cond2_1 i)
    (x0 : Vec F S1x4096x512 .bf16) (x1 : Vec F S1x32x512 .f32) (x2 : Vec F S1x32 .f32) (xs0 : Vec F S4096x32 .f32) (y : S4096x32.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S4096x32.size (by sl_kernel_rfl) y
def sout2_C (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : ¬cond2_0 i) (hc1 : cond2_1 i)
    (x0 : Vec F S1x4096x512 .bf16) (x1 : Vec F S1x32x512 .f32) (x2 : Vec F S1x32 .f32) (xs0 : Vec F S4096x32 .f32) : Vec F S4096x32 .f32 :=
  VS2.read (Elt F) (VS2.writes (Elt F) VS2.junk (kernelRun2_C c i arg2 harg2 arg3 harg3 arg4 harg4 arg5 harg5 arg6 harg6 hc0 hc1 x0 x1 x2 xs0).2.1)
theorem cover2_C (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : ¬cond2_0 i) (hc1 : cond2_1 i)
    (x0 : Vec F S1x4096x512 .bf16) (x1 : Vec F S1x32x512 .f32) (x2 : Vec F S1x32 .f32) (xs0 : Vec F S4096x32 .f32) (y : S4096x32.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S4096x32.size (by sl_kernel_rfl) y
def out2_C (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : ¬cond2_0 i) (hc1 : cond2_1 i)
    (x0 : Vec F S1x4096x512 .bf16) (x1 : Vec F S1x32x512 .f32) (x2 : Vec F S1x32 .f32) (xs0 : Vec F S4096x32 .f32) : Vec F S4096x32 .f32 :=
  VO2.read (Elt F) (VO2.writes (Elt F) VO2.junk (kernelRun2_C c i arg2 harg2 arg3 harg3 arg4 harg4 arg5 harg5 arg6 harg6 hc0 hc1 x0 x1 x2 xs0).1)

/-- A placeholder for the output block at positions where its window is idle: nothing reads it. -/
def outIdle2 : Vec F S4096x32 .f32 := VO2.read (Elt F) VO2.junk

/-! ## The same at a grid position, on the buffers the pipeline passes there -/

def soutAt2_A (c : Dev nD) (t : Fin cfg2.N) (h0 : t.val % 3 = 0) (h1 : ¬t.val % 3 = 2) : Vec F S4096x32 .f32 :=
  sout2_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)
def soutAt2_B (c : Dev nD) (t : Fin cfg2.N) (h0 : ¬t.val % 3 = 0) (h1 : ¬t.val % 3 = 2) (prev : Vec F S4096x32 .f32) : Vec F S4096x32 .f32 :=
  sout2_B c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) prev
def soutAt2_C (c : Dev nD) (t : Fin cfg2.N) (h0 : ¬t.val % 3 = 0) (h1 : t.val % 3 = 2) (prev : Vec F S4096x32 .f32) : Vec F S4096x32 .f32 :=
  sout2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) prev
def outAt2_C (c : Dev nD) (t : Fin cfg2.N) (h0 : ¬t.val % 3 = 0) (h1 : t.val % 3 = 2) (prev : Vec F S4096x32 .f32) : Vec F S4096x32 .f32 :=
  out2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) prev

/-! ## What the output block and the accumulator hold after each position -/

/-- After position `n`: the output block (a placeholder where idle) and the accumulator. -/
def outsAt2 (c : Dev nD) : (n : ℕ) → n < cfg2.N → Vec F S4096x32 .f32 × Vec F S4096x32 .f32
  | 0, hn => (outIdle2, soutAt2_A V c ⟨0, hn⟩ (Nat.zero_mod _) (by simp))
  | n + 1, hn =>
    if h0 : (n + 1) % 3 = 0 then
      (outIdle2, soutAt2_A V c ⟨n + 1, hn⟩ h0 (by intro h; dsimp only at h h0; omega))
    else
      if h1 : (n + 1) % 3 = 2 then
        (outAt2_C V c ⟨n + 1, hn⟩ h0 h1 (outsAt2 c n (Nat.lt_of_succ_lt hn)).2, soutAt2_C V c ⟨n + 1, hn⟩ h0 h1 (outsAt2 c n (Nat.lt_of_succ_lt hn)).2)
      else
        (outIdle2, soutAt2_B V c ⟨n + 1, hn⟩ h0 h1 (outsAt2 c n (Nat.lt_of_succ_lt hn)).2)

theorem outsAt2_A (c : Dev nD) (t : Fin cfg2.N) (h0 : t.val % 3 = 0) (h1 : ¬t.val % 3 = 2) :
    outsAt2 V c t.val t.isLt = (outIdle2, soutAt2_A V c t h0 h1) := by
  obtain ⟨n, hn⟩ := t
  cases n with
  | zero => exact rfl
  | succ n => exact (dif_pos h0).trans rfl

theorem outsAt2_B (c : Dev nD) (t : Fin cfg2.N) (h0 : ¬t.val % 3 = 0) (h1 : ¬t.val % 3 = 2) :
    outsAt2 V c t.val t.isLt = (outIdle2, soutAt2_B V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 3 = 0) (h1 : t.val % 3 = 2) :
    outsAt2 V c t.val t.isLt = (outAt2_C V c t h0 h1 (outsAt2 V c (t.val - 1) (Nat.lt_of_le_of_lt (Nat.sub_le _ _) t.isLt)).2, soutAt2_C V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant between positions -/

def PhiS2 (c : Dev nD) : (n : ℕ) → n ≤ cfg2.N → sProp 𝕄
  | 0, _ => Pipeline.ΦA spec2 c
  | n + 1, hn => iprop(owns (c : Thread nD τ) scM2_0 fullShare ((outsAt2 V c n hn).2) ∗ restO2 c ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) scM2_0 fullShare ((outsAt2 V c n hn).2) ∗ restO2 c ∗ (∃ r, prngReg c r)) := rfl
theorem PhiS2_pos (c : Dev nD) (n : ℕ) (h : n ≤ cfg2.N) (hz : n ≠ 0) :
    PhiS2 V c n h = iprop(owns (c : Thread nD τ) scM2_0 fullShare ((outsAt2 V c (n - 1) (by omega)).2) ∗ restO2 c ∗ (∃ r, prngReg c r)) := by
  cases n with
  | zero => exact absurd rfl hz
  | succ n => rfl

/-! ## The region's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any position: the inputs' buffers hold their blocks; the position is in exactly one of the three
    cases; the invariant hands over the accumulator at what the previous position left (at anything before the
    first position) and takes it back at what this position leaves. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 3 := lt_of_lt_of_eq t.isLt (show cfg2.N = 3 from N_2)
  rw [show (dat2 V c).leavesExact 0 t = owns (c : Thread nD τ) (ms2_0 t) fullShare ((dat2 V c).after 0 t) from (by unfold Dat.leavesExact; rw [liveAt2_0 t]), after2_0]
  rw [show (dat2 V c).leavesExact 1 t = owns (c : Thread nD τ) (ms2_1 t) fullShare ((dat2 V c).after 1 t) from (by unfold Dat.leavesExact; rw [liveAt2_1 t]), after2_1]
  rw [show (dat2 V c).leavesExact 2 t = owns (c : Thread nD τ) (ms2_2 t) fullShare ((dat2 V c).after 2 t) from (by unfold Dat.leavesExact; rw [liveAt2_2 t]), after2_2]
  by_cases h0 : t.val % 3 = 0
  · have h1 : ¬t.val % 3 = 2 := by omega
    rw [Dat.leavesExact_idle (dat2 V c) 3 t (idleAt2_3 t (fun h => h1 ((hcond2_1 t).mp h))) (noFlush2_3 t (fun h => h1 ((hcond2_1 t).mp h)))]
    rw [outsAt2_A V c t h0 h1]
    unfold soutAt2_A sout2_A; (try dsimp only)
    by_cases hz : t.val = 0
    · rw [PhiS2_castSucc V c t, PhiS2_zero V c _ _ hz]
      iintro ⟨HΦ, Ho, ⟨%d0, H0⟩, ⟨%d1, H1⟩, ⟨%d2, H2⟩, ⟨%d3, H3⟩⟩
      ihave HΦ' := (PhiA2_split c) $$ HΦ
      icases HΦ' with ⟨HS, HR, Hg⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%eS, HS⟩⟩
      isplitl [HS HR Hg]
      · isplitl [HS]
        · unfold owns; iexists _; isplitr
          swap; · iexact HS
          ipureintro; exact View.read_writes_of_cover _ _ _ _ _ (scover2_A c _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨HS, HR, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%eS, HS⟩⟩
      isplitl [HS HR Hg]
      · isplitl [HS]
        · unfold owns; iexists _; isplitr
          swap; · iexact HS
          ipureintro; exact View.read_writes_of_cover _ _ _ _ _ (scover2_A c _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := by intro hz; rw [hz] at h0; exact h0 (Nat.zero_mod _)
    by_cases h1 : t.val % 3 = 2
    · rw [show (dat2 V c).leavesExact 3 t = owns (c : Thread nD τ) (ms2_3 t) fullShare ((dat2 V c).after 3 t) from (by unfold Dat.leavesExact; rw [liveAt2_3 t ((hcond2_1 t).mpr h1)]), after2_3]
      rw [outsAt2_C V c t h0 h1]
      unfold outAt2_C soutAt2_C out2_C sout2_C; (try dsimp only)
      rw [PhiS2_castSucc V c t, PhiS2_pos V c _ _ hz]
      iintro ⟨⟨HS, HR, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eO, H3⟩, ⟨%eS, HS⟩⟩
      isplitl [HS HR Hg]
      · isplitl [HS]
        · unfold owns; iexists _; isplitr
          swap; · iexact HS
          ipureintro; exact View.read_writes_of_cover _ _ _ _ _ (scover2_C c _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [outsAt2_B V c t h0 h1]
      unfold soutAt2_B sout2_B; (try dsimp only)
      rw [PhiS2_castSucc V c t, PhiS2_pos V c _ _ hz]
      iintro ⟨⟨HS, HR, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%eS, HS⟩⟩
      isplitl [HS HR Hg]
      · isplitl [HS]
        · unfold owns; iexists _; isplitr
          swap; · iexact HS
          ipureintro; exact View.read_writes_of_cover _ _ _ _ _ (scover2_B c _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

/-! ## Into the invariant before the first position, and out of it after the last -/

theorem hinΦ2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem houtΦ2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 3 := N_2; omega)]
  iintro ⟨HS, HR, Hg⟩
  iapply (PhiA2_join c)
  isplitl [HS]; · iexists _; iexact HS
  isplitl [HR]; · iexact HR
  iexact Hg

end Cert.KernelIdeal.Hand

end
-- ==== Proof.KI.Main.lean ====
/-
  The idealized kernel program run from its launch to its return. @main is a stretch of six layout operations on the
  host followed by the three kernel regions. The contents of the core's unscoped buffers at the five boundaries are
  named as a fold through @main: as launched; after the host stretch; and after each region, its windows' arrays at
  what its pipeline leaves. Each region is a segment between two such boundaries, and the several-region launch
  theorem chains them: every weakly fair execution terminates, nothing faults, and at the end every unscoped buffer
  holds the last boundary's contents — in particular each argument is as launched and the result array is the last
  region's output array.
-/
import proofs.«101938_j11553462026818_2_alg».proof.Proof.KI.F1
import proofs.«101938_j11553462026818_2_alg».proof.Proof.KI.F2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev bnd0 : Dev nD → Valuation τ sig (Elt F) := fun c b => (s₀ m ρ).mem ((c : Dev nD), b)
/-- After the host stretch. -/
abbrev bnd1 : Dev nD → Valuation τ sig (Elt F) := fun c => StableHlo.after hostOps0 (bnd0 m ρ c)
abbrev at1 : (c : Dev nD) → (b : Ref sig .tc) → Buf (Elt F) ((c : Thread nD τ).loc b) := fun c b => bnd1 m ρ c b

/-- After region 0: its windows' arrays at what the pipeline leaves in them (an input's as entered, the output's
    with every written-back block in place), every other buffer as the region found it. -/
def bnd2 (c : Dev nD) : Valuation τ sig (Elt F) :=
  Pipeline.withArrays spec0 c (bnd1 m ρ c) fun w => (dat0 (at1 m ρ) c).arrAt w cfg0.N
theorem bnd2_arr (c : Dev nD) (w : Fin cfg0.W) :
    bnd2 m ρ c (Proc.devRef .tc (Pipeline.arrRef spec0 w)) = (dat0 (at1 m ρ) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m ρ c (Proc.devRef .tc b) = bnd1 m ρ c (Proc.devRef .tc b) := by
  unfold bnd2; exact Pipeline.withArrays_of_ne spec0 c _ _ b hb
abbrev at2 : (c : Dev nD) → (b : Ref sig .tc) → Buf (Elt F) ((c : Thread nD τ).loc b) := fun c b => bnd2 m ρ c b
theorem hF0 (c : Dev nD) (w : Fin cfg0.W) : (dat0 (at1 m ρ) c).arrAt w cfg0.N = at2 m ρ c (Pipeline.arrRef spec0 w) :=
  (bnd2_arr m ρ c w).symm
theorem hrest0 (c : Dev nD) : ∀ b, b ∉ Finset.univ.image (Pipeline.arrRef spec0) → at2 m ρ c b = at1 m ρ c b :=
  fun b hb => bnd2_of_ne m ρ c b fun w e => hb (Finset.mem_image.mpr ⟨w, Finset.mem_univ _, e⟩)

/-- After region 1: its windows' arrays at what the pipeline leaves in them (an input's as entered, the output's
    with every written-back block in place), every other buffer as the region found it. -/
def bnd3 (c : Dev nD) : Valuation τ sig (Elt F) :=
  Pipeline.withArrays spec1 c (bnd2 m ρ c) fun w => (dat1 (at2 m ρ) c).arrAt w cfg1.N
theorem bnd3_arr (c : Dev nD) (w : Fin cfg1.W) :
    bnd3 m ρ c (Proc.devRef .tc (Pipeline.arrRef spec1 w)) = (dat1 (at2 m ρ) c).arrAt w cfg1.N := by
  unfold bnd3; exact Pipeline.withArrays_arr spec1 launch1.win.arr_inj c _ _ w
theorem bnd3_of_ne (c : Dev nD) (b : Ref sig .tc) (hb : ∀ w, Pipeline.arrRef spec1 w ≠ b) :
    bnd3 m ρ c (Proc.devRef .tc b) = bnd2 m ρ c (Proc.devRef .tc b) := by
  unfold bnd3; exact Pipeline.withArrays_of_ne spec1 c _ _ b hb
abbrev at3 : (c : Dev nD) → (b : Ref sig .tc) → Buf (Elt F) ((c : Thread nD τ).loc b) := fun c b => bnd3 m ρ c b
theorem hF1 (c : Dev nD) (w : Fin cfg1.W) : (dat1 (at2 m ρ) c).arrAt w cfg1.N = at3 m ρ c (Pipeline.arrRef spec1 w) :=
  (bnd3_arr m ρ c w).symm
theorem hrest1 (c : Dev nD) : ∀ b, b ∉ Finset.univ.image (Pipeline.arrRef spec1) → at3 m ρ c b = at2 m ρ c b :=
  fun b hb => bnd3_of_ne m ρ c b fun w e => hb (Finset.mem_image.mpr ⟨w, Finset.mem_univ _, e⟩)

/-- After region 2: its windows' arrays at what the pipeline leaves in them (an input's as entered, the output's
    with every written-back block in place), every other buffer as the region found it. -/
def bnd4 (c : Dev nD) : Valuation τ sig (Elt F) :=
  Pipeline.withArrays spec2 c (bnd3 m ρ c) fun w => (dat2 (at3 m ρ) c).arrAt w cfg2.N
theorem bnd4_arr (c : Dev nD) (w : Fin cfg2.W) :
    bnd4 m ρ c (Proc.devRef .tc (Pipeline.arrRef spec2 w)) = (dat2 (at3 m ρ) c).arrAt w cfg2.N := by
  unfold bnd4; exact Pipeline.withArrays_arr spec2 launch2.win.arr_inj c _ _ w
theorem bnd4_of_ne (c : Dev nD) (b : Ref sig .tc) (hb : ∀ w, Pipeline.arrRef spec2 w ≠ b) :
    bnd4 m ρ c (Proc.devRef .tc b) = bnd3 m ρ c (Proc.devRef .tc b) := by
  unfold bnd4; exact Pipeline.withArrays_of_ne spec2 c _ _ b hb
abbrev at4 : (c : Dev nD) → (b : Ref sig .tc) → Buf (Elt F) ((c : Thread nD τ).loc b) := fun c b => bnd4 m ρ c b
theorem hF2 (c : Dev nD) (w : Fin cfg2.W) : (dat2 (at3 m ρ) c).arrAt w cfg2.N = at4 m ρ c (Pipeline.arrRef spec2 w) :=
  (bnd4_arr m ρ c w).symm
theorem hrest2 (c : Dev nD) : ∀ b, b ∉ Finset.univ.image (Pipeline.arrRef spec2) → at4 m ρ c b = at3 m ρ c b :=
  fun b hb => bnd4_of_ne m ρ c b fun w e => hb (Finset.mem_image.mpr ⟨w, Finset.mem_univ _, e⟩)

/-! ## No segment changes an argument -/

/-- The references the host stretch writes. -/
abbrev hostW : List (Ref sig .tc) := [main_v0, main_v1, main_v2, main_v3, main_v4, main_v5]
theorem hostOps0_writes' : (hostOps0 : List (HloOp τ sig (Elt F))).Forall fun op => op.writes ⊆ (hostW.map (Proc.devRef (τ := τ) .tc)).toFinset := by
  simp only [List.Forall]
  refine ⟨?_, ?_, ?_, ?_, ?_, ?_⟩ <;>
    (simp only [StableHlo.unary_writes, StableHlo.reshape_writes, Finset.singleton_subset_iff, List.mem_toFinset]; exact List.mem_map_of_mem (by decide))
theorem hostOps0_fresh' : (hostOps0 : List (HloOp τ sig (Elt F))).Forall fun op => op.fresh = ∅ := by
  simp only [List.Forall]; repeat' constructor

theorem bnd4_main_arg0 (c : Dev nD) : bnd4 m ρ c (Proc.devRef .tc main_arg0) = m ((c : Thread nD τ).loc main_arg0) :=
  calc bnd4 m ρ c (Proc.devRef .tc main_arg0)
    _ = bnd3 m ρ c (Proc.devRef .tc main_arg0) := bnd4_of_ne m ρ c main_arg0 (by decide)
    _ = bnd2 m ρ c (Proc.devRef .tc main_arg0) := bnd3_of_ne m ρ c main_arg0 (by decide)
    _ = bnd1 m ρ c (Proc.devRef .tc main_arg0) := bnd2_of_ne m ρ c main_arg0 (by decide)
    _ = bnd0 m ρ c (Proc.devRef .tc main_arg0) := StableHlo.after_of_writes_sub hostOps0 _ hostOps0_writes' (by decide)
    _ = m ((c : Thread nD τ).loc main_arg0) := rfl
theorem bnd4_main_arg1 (c : Dev nD) : bnd4 m ρ c (Proc.devRef .tc main_arg1) = m ((c : Thread nD τ).loc main_arg1) :=
  calc bnd4 m ρ c (Proc.devRef .tc main_arg1)
    _ = bnd3 m ρ c (Proc.devRef .tc main_arg1) := bnd4_of_ne m ρ c main_arg1 (by decide)
    _ = bnd2 m ρ c (Proc.devRef .tc main_arg1) := (bnd3_arr m ρ c 0).trans (((dat1 (at2 m ρ) c).arrAt_in 0 rfl _).trans (A_eq1 (at2 m ρ) c 0))
    _ = bnd1 m ρ c (Proc.devRef .tc main_arg1) := bnd2_of_ne m ρ c main_arg1 (by decide)
    _ = bnd0 m ρ c (Proc.devRef .tc main_arg1) := StableHlo.after_of_writes_sub hostOps0 _ hostOps0_writes' (by decide)
    _ = m ((c : Thread nD τ).loc main_arg1) := rfl
theorem bnd4_main_arg2 (c : Dev nD) : bnd4 m ρ c (Proc.devRef .tc main_arg2) = m ((c : Thread nD τ).loc main_arg2) :=
  calc bnd4 m ρ c (Proc.devRef .tc main_arg2)
    _ = bnd3 m ρ c (Proc.devRef .tc main_arg2) := bnd4_of_ne m ρ c main_arg2 (by decide)
    _ = bnd2 m ρ c (Proc.devRef .tc main_arg2) := bnd3_of_ne m ρ c main_arg2 (by decide)
    _ = bnd1 m ρ c (Proc.devRef .tc main_arg2) := bnd2_of_ne m ρ c main_arg2 (by decide)
    _ = bnd0 m ρ c (Proc.devRef .tc main_arg2) := StableHlo.after_of_writes_sub hostOps0 _ hostOps0_writes' (by decide)
    _ = m ((c : Thread nD τ).loc main_arg2) := rfl
theorem bnd4_main_arg3 (c : Dev nD) : bnd4 m ρ c (Proc.devRef .tc main_arg3) = m ((c : Thread nD τ).loc main_arg3) :=
  calc bnd4 m ρ c (Proc.devRef .tc main_arg3)
    _ = bnd3 m ρ c (Proc.devRef .tc main_arg3) := bnd4_of_ne m ρ c main_arg3 (by decide)
    _ = bnd2 m ρ c (Proc.devRef .tc main_arg3) := bnd3_of_ne m ρ c main_arg3 (by decide)
    _ = bnd1 m ρ c (Proc.devRef .tc main_arg3) := (bnd2_arr m ρ c 1).trans (((dat0 (at1 m ρ) c).arrAt_in 1 rfl _).trans (A_eq0 (at1 m ρ) c 1))
    _ = bnd0 m ρ c (Proc.devRef .tc main_arg3) := StableHlo.after_of_writes_sub hostOps0 _ hostOps0_writes' (by decide)
    _ = m ((c : Thread nD τ).loc main_arg3) := rfl
theorem bnd4_main_arg4 (c : Dev nD) : bnd4 m ρ c (Proc.devRef .tc main_arg4) = m ((c : Thread nD τ).loc main_arg4) :=
  calc bnd4 m ρ c (Proc.devRef .tc main_arg4)
    _ = bnd3 m ρ c (Proc.devRef .tc main_arg4) := bnd4_of_ne m ρ c main_arg4 (by decide)
    _ = bnd2 m ρ c (Proc.devRef .tc main_arg4) := bnd3_of_ne m ρ c main_arg4 (by decide)
    _ = bnd1 m ρ c (Proc.devRef .tc main_arg4) := bnd2_of_ne m ρ c main_arg4 (by decide)
    _ = bnd0 m ρ c (Proc.devRef .tc main_arg4) := StableHlo.after_of_writes_sub hostOps0 _ hostOps0_writes' (by decide)
    _ = m ((c : Thread nD τ).loc main_arg4) := rfl
theorem bnd4_main_arg5 (c : Dev nD) : bnd4 m ρ c (Proc.devRef .tc main_arg5) = m ((c : Thread nD τ).loc main_arg5) :=
  calc bnd4 m ρ c (Proc.devRef .tc main_arg5)
    _ = bnd3 m ρ c (Proc.devRef .tc main_arg5) := bnd4_of_ne m ρ c main_arg5 (by decide)
    _ = bnd2 m ρ c (Proc.devRef .tc main_arg5) := (bnd3_arr m ρ c 2).trans (((dat1 (at2 m ρ) c).arrAt_in 2 rfl _).trans (A_eq1 (at2 m ρ) c 2))
    _ = bnd1 m ρ c (Proc.devRef .tc main_arg5) := bnd2_of_ne m ρ c main_arg5 (by decide)
    _ = bnd0 m ρ c (Proc.devRef .tc main_arg5) := StableHlo.after_of_writes_sub hostOps0 _ hostOps0_writes' (by decide)
    _ = m ((c : Thread nD τ).loc main_arg5) := rfl
theorem bnd4_main_arg6 (c : Dev nD) : bnd4 m ρ c (Proc.devRef .tc main_arg6) = m ((c : Thread nD τ).loc main_arg6) :=
  calc bnd4 m ρ c (Proc.devRef .tc main_arg6)
    _ = bnd3 m ρ c (Proc.devRef .tc main_arg6) := bnd4_of_ne m ρ c main_arg6 (by decide)
    _ = bnd2 m ρ c (Proc.devRef .tc main_arg6) := bnd3_of_ne m ρ c main_arg6 (by decide)
    _ = bnd1 m ρ c (Proc.devRef .tc main_arg6) := bnd2_of_ne m ρ c main_arg6 (by decide)
    _ = bnd0 m ρ c (Proc.devRef .tc main_arg6) := StableHlo.after_of_writes_sub hostOps0 _ hostOps0_writes' (by decide)
    _ = m ((c : Thread nD τ).loc main_arg6) := rfl
theorem bnd4_main_arg7 (c : Dev nD) : bnd4 m ρ c (Proc.devRef .tc main_arg7) = m ((c : Thread nD τ).loc main_arg7) :=
  calc bnd4 m ρ c (Proc.devRef .tc main_arg7)
    _ = bnd3 m ρ c (Proc.devRef .tc main_arg7) := bnd4_of_ne m ρ c main_arg7 (by decide)
    _ = bnd2 m ρ c (Proc.devRef .tc main_arg7) := bnd3_of_ne m ρ c main_arg7 (by decide)
    _ = bnd1 m ρ c (Proc.devRef .tc main_arg7) := bnd2_of_ne m ρ c main_arg7 (by decide)
    _ = bnd0 m ρ c (Proc.devRef .tc main_arg7) := StableHlo.after_of_writes_sub hostOps0 _ hostOps0_writes' (by decide)
    _ = m ((c : Thread nD τ).loc main_arg7) := rfl
theorem bnd4_main_arg8 (c : Dev nD) : bnd4 m ρ c (Proc.devRef .tc main_arg8) = m ((c : Thread nD τ).loc main_arg8) :=
  calc bnd4 m ρ c (Proc.devRef .tc main_arg8)
    _ = bnd3 m ρ c (Proc.devRef .tc main_arg8) := bnd4_of_ne m ρ c main_arg8 (by decide)
    _ = bnd2 m ρ c (Proc.devRef .tc main_arg8) := bnd3_of_ne m ρ c main_arg8 (by decide)
    _ = bnd1 m ρ c (Proc.devRef .tc main_arg8) := bnd2_of_ne m ρ c main_arg8 (by decide)
    _ = bnd0 m ρ c (Proc.devRef .tc main_arg8) := StableHlo.after_of_writes_sub hostOps0 _ hostOps0_writes' (by decide)
    _ = m ((c : Thread nD τ).loc main_arg8) := rfl

/-- The result array at the end is the last region's output array as its pipeline leaves it. -/
theorem bnd4_main_v8 (c : Dev nD) : bnd4 m ρ c (Proc.devRef .tc main_v8) = (dat2 (at3 m ρ) c).arrAt 3 cfg2.N :=
  bnd4_arr m ρ c 3

/-! ## The proof data family and what rides along -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (at1 m ρ) c
  | ⟨1, _⟩ => fun c => dat1 (at2 m ρ) c
  | ⟨2, _⟩ => fun c => dat2 (at3 m ρ) c
abbrev 𝒱₀ : Variants := Variants.none
abbrev L : GSem nD τ sig → Finset Unit := fun _ => ∅
abbrev lv : GSem nD τ sig → Unit → ℕ := fun _ _ => 0
/-- Beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (bnd4 m ρ c) ∗ ∃ r, prngReg c r)

/-! ## The regions as segments -/

set_option backward.isDefEq.respectTransparency.types false in
/-- Region 0 over the thread state: entered with every unscoped buffer at the boundary contents before it, left with
    them at the boundary contents after it. Its windows' arrays are split out of the unscoped buffers on entry and
    put back at their final contents on exit; the generator register goes into the invariant and comes back; nothing
    is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (at1 m ρ) c).loose
  hwaits := Pipeline.hwaits_of_owed_zero _ _ _ _ L lv 0 fun _ _ => rfl
  pre c := iprop(StableHlo.held (c : Thread nD τ) (Pipeline.ucRefs τ sig) (bnd1 m ρ c) ∗ R c)
  post c := iprop(StableHlo.held (c : Thread nD τ) (Pipeline.ucRefs τ sig) (bnd2 m ρ c) ∗ R c)
  X c := iprop(∃ r, prngReg c r)
  Y c := iprop(∃ r, prngReg c r)
  Z c := Pipeline.unscopedRest (Ix := Unit) (Name := ℕ) (U := UR sig nD τ) (Lvl := ℕ) spec0 c (at1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (at1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (at1 m ρ c) (at2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary contents before it, left with
    them at the boundary contents after it. Its windows' arrays are split out of the unscoped buffers on entry and
    put back at their final contents on exit; the generator register goes into the invariant and comes back; nothing
    is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (at2 m ρ) c).loose
  hwaits := Pipeline.hwaits_of_owed_zero _ _ _ _ L lv 1 fun _ _ => rfl
  pre c := iprop(StableHlo.held (c : Thread nD τ) (Pipeline.ucRefs τ sig) (bnd2 m ρ c) ∗ R c)
  post c := iprop(StableHlo.held (c : Thread nD τ) (Pipeline.ucRefs τ sig) (bnd3 m ρ c) ∗ R c)
  X c := iprop(∃ r, prngReg c r)
  Y c := iprop(∃ r, prngReg c r)
  Z c := Pipeline.unscopedRest (Ix := Unit) (Name := ℕ) (U := UR sig nD τ) (Lvl := ℕ) spec1 c (at2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (at2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinΦ1 (at2 m ρ) c); unfold Pipeline.ΦA
    iintro ⟨Hp, -, Hr⟩
    isplitl [Hr]; · iexact Hr
    iexact Hp
  hout c := by
    rw [Pipeline.ownSems0_none]
    refine BIBase.Entails.trans (houtΦ1 (at2 m ρ) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (at2 m ρ c) (at3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the boundary contents before it, left with
    them at the boundary contents after it. Its windows' arrays are split out of the unscoped buffers on entry and
    put back at their final contents on exit; the generator register goes into the invariant and comes back; nothing
    is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (at3 m ρ) c).loose
  hwaits := Pipeline.hwaits_of_owed_zero _ _ _ _ L lv 2 fun _ _ => rfl
  pre c := iprop(StableHlo.held (c : Thread nD τ) (Pipeline.ucRefs τ sig) (bnd3 m ρ c) ∗ R c)
  post c := iprop(StableHlo.held (c : Thread nD τ) (Pipeline.ucRefs τ sig) (bnd4 m ρ c) ∗ R c)
  X c := iprop(∃ r, prngReg c r)
  Y c := iprop(∃ r, prngReg c r)
  Z c := Pipeline.unscopedRest (Ix := Unit) (Name := ℕ) (U := UR sig nD τ) (Lvl := ℕ) spec2 c (at3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (at3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinΦ2 (at3 m ρ) c); unfold Pipeline.ΦA
    iintro ⟨Hp, -, Hr⟩
    isplitl [Hr]; · iexact Hr
    iexact Hp
  hout c := by
    rw [Pipeline.ownSems0_none]
    refine BIBase.Entails.trans (houtΦ2 (at3 m ρ) c) ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (at3 m ρ c) (at4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh' (bnd0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: every weakly fair execution of @main from memory `m` with zero counters terminates, nothing faulting, and
    in every final state every unscoped buffer of every core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = bnd4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (bnd4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (bnd0 m ρ c)
        from Pipeline.unscopedBufs_held c (bnd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd4 m ρ c b)
    (hfin := fun c s' => by
      iintro ⟨⟨Hh, -⟩, HSI⟩
      unfold StableHlo.held
      imodintro
      iapply (pointsTo_read_all (Pipeline.ucRefs τ sig) (fun b => (((c : Thread nD τ)).1, b)) (bnd4 m ρ c) s')
      isplitl [Hh] <;> iassumption)
    (hQ := fun s h => h)

/-- THE FRAME, at any float instance: the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (bnd4_main_arg0 m ρ c),
     (h c _ (mem_uc main_arg1 (by decide))).trans (bnd4_main_arg1 m ρ c),
     (h c _ (mem_uc main_arg2 (by decide))).trans (bnd4_main_arg2 m ρ c),
     (h c _ (mem_uc main_arg3 (by decide))).trans (bnd4_main_arg3 m ρ c),
     (h c _ (mem_uc main_arg4 (by decide))).trans (bnd4_main_arg4 m ρ c),
     (h c _ (mem_uc main_arg5 (by decide))).trans (bnd4_main_arg5 m ρ c),
     (h c _ (mem_uc main_arg6 (by decide))).trans (bnd4_main_arg6 m ρ c),
     (h c _ (mem_uc main_arg7 (by decide))).trans (bnd4_main_arg7 m ρ c),
     (h c _ (mem_uc main_arg8 (by decide))).trans (bnd4_main_arg8 m ρ c)⟩) (run m ρ)

/-- The run with the result array named: it ends at the last region's output array as its pipeline leaves it. -/
theorem run_value : θ_run defs (onTc (τ := τ) (main (F := F))) ⟨m, fun _ => 0, ρ⟩ (fun r => ∀ c : Dev nD,
      r.2.mem ((c.tc : Thread nD τ).loc main_v8) = (dat2 (at3 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_v8 (by decide))).trans (bnd4_main_v8 m ρ c),
     (h c _ (mem_uc main_arg0 (by decide))).trans (bnd4_main_arg0 m ρ c),
     (h c _ (mem_uc main_arg1 (by decide))).trans (bnd4_main_arg1 m ρ c),
     (h c _ (mem_uc main_arg2 (by decide))).trans (bnd4_main_arg2 m ρ c),
     (h c _ (mem_uc main_arg3 (by decide))).trans (bnd4_main_arg3 m ρ c),
     (h c _ (mem_uc main_arg4 (by decide))).trans (bnd4_main_arg4 m ρ c),
     (h c _ (mem_uc main_arg5 (by decide))).trans (bnd4_main_arg5 m ρ c),
     (h c _ (mem_uc main_arg6 (by decide))).trans (bnd4_main_arg6 m ρ c),
     (h c _ (mem_uc main_arg7 (by decide))).trans (bnd4_main_arg7 m ρ c),
     (h c _ (mem_uc main_arg8 (by decide))).trans (bnd4_main_arg8 m ρ c)⟩) (run m ρ)

end Cert.KernelIdeal.Hand

end
-- ==== Proof.Ref.Stages.lean ====
/-
  The reference computation cut into named whole-array stages, each a function of abstract array contents, for any
  float values.

  Three blocks of 4096 rows of `x`; the first 4096 rows of the adjacency cut into three 4096-column blocks; per
  block a dense layer with bias and rectifier; the block-wise aggregation; a second dense layer; the three blocks'
  features laid side by side and a final linear layer; then the row-wise log-softmax as a shift by the row maximum
  followed by subtracting the logarithm of the row's sum of exponentials.
-/
import proofs.«101938_j11553462026818_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

/-- An f32 array of shape `S` over the float values `F`. -/
abbrev Arr (F : FTy → Type) [FloatOps F] (S : Shape) : Type := (⟨S, .f32⟩ : BufTy).Contents (Elt F)

variable {F : FTy → Type} [FloatOps F]

/-! ## The layout stages of the two large arguments -/

/-- The 12288 rows of `x` as three blocks of 4096 rows. -/
def xBlocks (x : Arr F S12288x512) : Arr F S3x4096x512 :=
  shapeCast _ x shapeCasts_S12288x512_S3x4096x512

/-- The first 4096 rows of the adjacency. -/
def adjTop (a : Arr F S12288x12288) : Arr F S4096x12288 :=
  extractStridedSlice S4096x12288 ![0, 0] a slices_S12288x12288_S4096x12288_0_0

/-- Those rows with their 12288 columns cut into three blocks of 4096. -/
def adjSplit (a : Arr F S12288x12288) : Arr F S4096x3x4096 :=
  shapeCast _ (adjTop a) shapeCasts_S4096x12288_S4096x3x4096

/-- The same with the block coordinate first: one 4096 × 4096 matrix per block. -/
def adjBlocks (a : Arr F S12288x12288) : Arr F S3x4096x4096 :=
  transpose S3x4096x4096 [1, 0, 2] (adjSplit a) transposes_S4096x3x4096_S3x4096x4096_1_0_2

/-! ## A dense layer per block, with bias and rectifier -/

/-- A per-block bias row repeated down the 4096 rows. -/
def biasRows (b : Arr F S3x512) : Arr F S3x4096x512 :=
  broadcastInDim S3x4096x512 ![0, 1, 2] bcast_S3x1x512_S3x4096x512_0_1_2
    (broadcastInDim S3x1x512 ![0, 2] bcast_S3x512_S3x1x512_0_2 b)

/-- The rectifier's zero at every place. -/
def zeros3 : Arr F S3x4096x512 :=
  broadcastInDim S3x4096x512 ![] bcast_S_S3x4096x512 (constant S_ .f32 0x00000000#32)

/-- Per block, rows against the rows of the block's weight matrix. -/
def dense (y : Arr F S3x4096x512) (w : Arr F S3x512x512) : Arr F S3x4096x512 :=
  Host.dotGeneral dot_S3x4096x512_S3x512x512_S3x4096x512_2_2_1_1_0_0 none y w

/-- The dense layer, its bias, and the rectifier. -/
def denseRelu (y : Arr F S3x4096x512) (w : Arr F S3x512x512) (b : Arr F S3x512) : Arr F S3x4096x512 :=
  maximumf (addf (dense y w) (biasRows b)) zeros3

/-- Per block, the block's adjacency matrix against the block's node features. -/
def aggregate (a : Arr F S3x4096x4096) (h : Arr F S3x4096x512) : Arr F S3x4096x512 :=
  Host.dotGeneral dot_S3x4096x4096_S3x4096x512_S3x4096x512_2_1_1_2_0_0 none a h

/-! ## The final linear layer -/

/-- Node first, then block, then feature. -/
def nodeFirst (h : Arr F S3x4096x512) : Arr F S4096x3x512 :=
  transpose S4096x3x512 [1, 0, 2] h transposes_S3x4096x512_S4096x3x512_1_0_2

/-- The three blocks' 512 features side by side: 1536 columns per node. -/
def sideBySide (h : Arr F S3x4096x512) : Arr F S4096x1536 :=
  shapeCast _ (nodeFirst h) shapeCasts_S4096x3x512_S4096x1536

/-- The final weight matrix with its 1536 inputs as rows. -/
def weightT (w : Arr F S32x1536) : Arr F S1536x32 :=
  transpose S1536x32 [1, 0] w transposes_S32x1536_S1536x32_1_0

/-- The 32 class biases repeated down the 4096 rows. -/
def biasCols (b : Arr F S32) : Arr F S4096x32 :=
  broadcastInDim S4096x32 ![0, 1] bcast_S1x32_S4096x32_0_1 (broadcastInDim S1x32 ![1] bcast_S32_S1x32_1 b)

/-- The product of the side-by-side features with the final weights. -/
def classDot (f : Arr F S4096x1536) (wt : Arr F S1536x32) : Arr F S4096x32 :=
  Host.dotGeneral dot_S4096x1536_S1536x32_S4096x32_1_0_0_1_n_n none f wt

/-- The final linear layer. -/
def linear (h : Arr F S3x4096x512) (w : Arr F S32x1536) (b : Arr F S32) : Arr F S4096x32 :=
  addf (classDot (sideBySide h) (weightT w)) (biasCols b)

/-! ## The row-wise log-softmax -/

/-- A vector of 4096 as a column. -/
def asColumn (v : Arr F S4096) : Arr F S4096x1 :=
  broadcastInDim S4096x1 ![0] bcast_S4096_S4096x1_0 v

/-- A column repeated across the 32 classes. -/
def acrossClasses (col : Arr F S4096x1) : Arr F S4096x32 :=
  broadcastInDim S4096x32 ![0, 1] bcast_S4096x1_S4096x32_0_1 col

/-- The starting value of the maximum at every row. -/
def negInfs : Arr F S4096 :=
  broadcastInDim S4096 ![] bcast_S_S4096 (constant S_ .f32 0xFF800000#32)

/-- Each row's maximum over the 32 classes, folded from the starting value. -/
def rowMaxFold (z : Arr F S4096x32) : Arr F S4096 :=
  Host.reduce FloatOps.maximumf z (constant S_ .f32 0xFF800000#32) reducesTo_S4096x32_S4096_d1 h_S_

/-- The row maxima, kept no smaller than the starting value. -/
def rowMaxes (z : Arr F S4096x32) : Arr F S4096 :=
  maximumf negInfs (rowMaxFold z)

/-- Each row shifted by its maximum. -/
def shifted (z : Arr F S4096x32) : Arr F S4096x32 :=
  subf z (acrossClasses (asColumn (rowMaxes z)))

/-- Each row's sum over the 32 classes, from zero. -/
def rowSums (e : Arr F S4096x32) : Arr F S4096 :=
  Host.reduceAdd e (constant S_ .f32 0x00000000#32) reducesTo_S4096x32_S4096_d1 h_S_

/-- Each row minus the logarithm of its sum of exponentials. -/
def normalized (s : Arr F S4096x32) : Arr F S4096x32 :=
  subf s (acrossClasses (Host.log (asColumn (rowSums (Host.exp s)))))

/-! ## The whole result -/

/-- The result as one function of the eight float arguments' contents. -/
def resOf (x : Arr F S12288x512) (a : Arr F S12288x12288) (wc : Arr F S3x512x512) (bc : Arr F S3x512)
    (ws : Arr F S3x512x512) (bs : Arr F S3x512) (wl : Arr F S32x1536) (bl : Arr F S32) : Arr F S4096x32 :=
  normalized (shifted (linear (denseRelu (aggregate (adjBlocks a) (denseRelu (xBlocks x) wc bc)) ws bs) wl bl))

end Cert.ReferenceIdeal.RefValue

end
-- ==== Proof.LibAfterAppend.lean ====
/-
  Reading buffers back through two stretches of whole-array operations.

  `StableHlo.after ops V` is what every buffer of a device holds after the operations `ops`, run in order from the
  contents `V`. Running one stretch and then another is running them in a row: the contents after `l₁ ++ l₂` are the
  contents after `l₂`, started from the contents after `l₁`. This lets a long straight-line program be read back one
  stretch at a time, each over contents that are no further specified.
-/
import Idealize.ShloMosaic.Lib.StableHlo.Run

namespace AfterAppend

open Idealize.ShloMosaic Idealize.ShloMosaic.StableHlo

variable {τ : Topo} {sig : RefSig} {Val : EltTy → Type}

/-- The contents after two stretches in a row are the contents after the second, from those after the first. -/
theorem after_append : ∀ (l₁ l₂ : List (HloOp τ sig Val)) (V : Valuation τ sig Val),
    after (l₁ ++ l₂) V = after l₂ (after l₁ V)
  | [], _, _ => rfl
  | op :: l₁, l₂, V => by
    rw [List.cons_append, after_cons, after_cons]
    exact after_append l₁ l₂ _

end AfterAppend
-- ==== Proof.Ref.Run.lean ====
/-
  The reference's run, read back one stretch at a time.

  The program is a straight line of 41 whole-array operations. It is cut into six consecutive stretches; what each
  stretch leaves in the one or two buffers later stretches read is a named stage of the buffers it found, and every
  other buffer it leaves as found. Composing the six gives the result buffer as one named function `res` of the eight
  float arguments' launch contents; no operation writes an argument.
-/
import proofs.«101938_j11553462026818_2_alg».proof.Proof.Ref.Stages
import proofs.«101938_j11553462026818_2_alg».proof.Proof.LibAfterAppend

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The program as a list of operations -/

/-- The 41 operations, in order (a called function's operations stand in its call's place). -/
abbrev ops : List (HloOp τ sig (Elt F)) :=
  [ reshape main_arg0 main_v0 rfl shapeCasts_S12288x512_S3x4096x512,
    unary main_arg1 main_v1 ((extractStridedSlice S4096x12288 ![0, 0] · slices_S12288x12288_S4096x12288_0_0) : (⟨S12288x12288, .f32⟩ : BufTy).Contents (Elt F) → (⟨S4096x12288, .f32⟩ : BufTy).Contents (Elt F)),
    reshape main_v1 main_v2 rfl shapeCasts_S4096x12288_S4096x3x4096,
    unary main_v2 main_v3 ((transpose S3x4096x4096 [1, 0, 2] · transposes_S4096x3x4096_S3x4096x4096_1_0_2) : (⟨S4096x3x4096, .f32⟩ : BufTy).Contents (Elt F) → (⟨S3x4096x4096, .f32⟩ : BufTy).Contents (Elt F)),
    binary main_v0 main_arg3 main_v4 ((fun l r => Host.dotGeneral dot_S3x4096x512_S3x512x512_S3x4096x512_2_2_1_1_0_0 none l r) : (⟨S3x4096x512, .f32⟩ : BufTy).Contents (Elt F) → (⟨S3x512x512, .f32⟩ : BufTy).Contents (Elt F) → (⟨S3x4096x512, .f32⟩ : BufTy).Contents (Elt F)),
    unary main_arg4 main_v5 (broadcastInDim S3x1x512 ![0, 2] bcast_S3x512_S3x1x512_0_2 : (⟨S3x512, .f32⟩ : BufTy).Contents (Elt F) → (⟨S3x1x512, .f32⟩ : BufTy).Contents (Elt F)),
    unary main_v5 main_v6 (broadcastInDim S3x4096x512 ![0, 1, 2] bcast_S3x1x512_S3x4096x512_0_1_2 : (⟨S3x1x512, .f32⟩ : BufTy).Contents (Elt F) → (⟨S3x4096x512, .f32⟩ : BufTy).Contents (Elt F)),
    binary main_v4 main_v6 main_v7 (addf : (⟨S3x4096x512, .f32⟩ : BufTy).Contents (Elt F) → (⟨S3x4096x512, .f32⟩ : BufTy).Contents (Elt F) → (⟨S3x4096x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S3x4096x512, .f32⟩) main_call0_v0) (broadcastInDim S3x4096x512 ![] bcast_S_S3x4096x512),
    TRef.binary (TRef.of (T := ⟨S3x4096x512, .f32⟩) main_v7) (TRef.of (T := ⟨S3x4096x512, .f32⟩) main_call0_v0) (TRef.of (T := ⟨S3x4096x512, .f32⟩) main_v8) maximumf,
    binary main_v3 main_v8 main_v9 ((fun l r => Host.dotGeneral dot_S3x4096x4096_S3x4096x512_S3x4096x512_2_1_1_2_0_0 none l r) : (⟨S3x4096x4096, .f32⟩ : BufTy).Contents (Elt F) → (⟨S3x4096x512, .f32⟩ : BufTy).Contents (Elt F) → (⟨S3x4096x512, .f32⟩ : BufTy).Contents (Elt F)),
    binary main_v9 main_arg5 main_v10 ((fun l r => Host.dotGeneral dot_S3x4096x512_S3x512x512_S3x4096x512_2_2_1_1_0_0 none l r) : (⟨S3x4096x512, .f32⟩ : BufTy).Contents (Elt F) → (⟨S3x512x512, .f32⟩ : BufTy).Contents (Elt F) → (⟨S3x4096x512, .f32⟩ : BufTy).Contents (Elt F)),
    unary main_arg6 main_v11 (broadcastInDim S3x1x512 ![0, 2] bcast_S3x512_S3x1x512_0_2 : (⟨S3x512, .f32⟩ : BufTy).Contents (Elt F) → (⟨S3x1x512, .f32⟩ : BufTy).Contents (Elt F)),
    unary main_v11 main_v12 (broadcastInDim S3x4096x512 ![0, 1, 2] bcast_S3x1x512_S3x4096x512_0_1_2 : (⟨S3x1x512, .f32⟩ : BufTy).Contents (Elt F) → (⟨S3x4096x512, .f32⟩ : BufTy).Contents (Elt F)),
    binary main_v10 main_v12 main_v13 (addf : (⟨S3x4096x512, .f32⟩ : BufTy).Contents (Elt F) → (⟨S3x4096x512, .f32⟩ : BufTy).Contents (Elt F) → (⟨S3x4096x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S3x4096x512, .f32⟩) main_call1_v0) (broadcastInDim S3x4096x512 ![] bcast_S_S3x4096x512),
    TRef.binary (TRef.of (T := ⟨S3x4096x512, .f32⟩) main_v13) (TRef.of (T := ⟨S3x4096x512, .f32⟩) main_call1_v0) (TRef.of (T := ⟨S3x4096x512, .f32⟩) main_v14) maximumf,
    unary main_v14 main_v15 ((transpose S4096x3x512 [1, 0, 2] · transposes_S3x4096x512_S4096x3x512_1_0_2) : (⟨S3x4096x512, .f32⟩ : BufTy).Contents (Elt F) → (⟨S4096x3x512, .f32⟩ : BufTy).Contents (Elt F)),
    reshape main_v15 main_v16 rfl shapeCasts_S4096x3x512_S4096x1536,
    unary main_arg7 main_v17 ((transpose S1536x32 [1, 0] · transposes_S32x1536_S1536x32_1_0) : (⟨S32x1536, .f32⟩ : BufTy).Contents (Elt F) → (⟨S1536x32, .f32⟩ : BufTy).Contents (Elt F)),
    binary main_v16 main_v17 main_v18 ((fun l r => Host.dotGeneral dot_S4096x1536_S1536x32_S4096x32_1_0_0_1_n_n none l r) : (⟨S4096x1536, .f32⟩ : BufTy).Contents (Elt F) → (⟨S1536x32, .f32⟩ : BufTy).Contents (Elt F) → (⟨S4096x32, .f32⟩ : BufTy).Contents (Elt F)),
    unary main_arg8 main_v19 (broadcastInDim S1x32 ![1] bcast_S32_S1x32_1 : (⟨S32, .f32⟩ : BufTy).Contents (Elt F) → (⟨S1x32, .f32⟩ : BufTy).Contents (Elt F)),
    unary main_v19 main_v20 (broadcastInDim S4096x32 ![0, 1] bcast_S1x32_S4096x32_0_1 : (⟨S1x32, .f32⟩ : BufTy).Contents (Elt F) → (⟨S4096x32, .f32⟩ : BufTy).Contents (Elt F)),
    binary main_v18 main_v20 main_v21 (addf : (⟨S4096x32, .f32⟩ : BufTy).Contents (Elt F) → (⟨S4096x32, .f32⟩ : BufTy).Contents (Elt F) → (⟨S4096x32, .f32⟩ : BufTy).Contents (Elt F)),
    TRef.nullary (TRef.of (T := ⟨S_, .f32⟩) main_call2_cst) (constant S_ .f32 0xFF800000#32),
    TRef.binary (TRef.of (T := ⟨S4096x32, .f32⟩) main_v21) (TRef.of (T := ⟨S_, .f32⟩) main_call2_cst) (TRef.of (T := ⟨S4096, .f32⟩) main_call2_v0) (fun x v => Host.reduce FloatOps.maximumf x v reducesTo_S4096x32_S4096_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S4096, .f32⟩) main_call2_v1) (broadcastInDim S4096 ![] bcast_S_S4096),
    TRef.binary (TRef.of (T := ⟨S4096, .f32⟩) main_call2_v1) (TRef.of (T := ⟨S4096, .f32⟩) main_call2_v0) (TRef.of (T := ⟨S4096, .f32⟩) main_call2_v2) maximumf,
    TRef.unary (TRef.of (T := ⟨S4096, .f32⟩) main_call2_v2) (TRef.of (T := ⟨S4096x1, .f32⟩) main_call2_v3) (broadcastInDim S4096x1 ![0] bcast_S4096_S4096x1_0),
    TRef.unary (TRef.of (T := ⟨S4096x1, .f32⟩) main_call2_v3) (TRef.of (T := ⟨S4096x32, .f32⟩) main_call2_v4) (broadcastInDim S4096x32 ![0, 1] bcast_S4096x1_S4096x32_0_1),
    TRef.binary (TRef.of (T := ⟨S4096x32, .f32⟩) main_v21) (TRef.of (T := ⟨S4096x32, .f32⟩) main_call2_v4) (TRef.of (T := ⟨S4096x32, .f32⟩) main_call2_v5) subf,
    TRef.unary (TRef.of (T := ⟨S4096x32, .f32⟩) main_call2_v5) (TRef.of (T := ⟨S4096x32, .f32⟩) main_call2_v6) Host.exp,
    TRef.nullary (TRef.of (T := ⟨S_, .f32⟩) main_call2_cst_1) (constant S_ .f32 0x00000000#32),
    TRef.binary (TRef.of (T := ⟨S4096x32, .f32⟩) main_call2_v6) (TRef.of (T := ⟨S_, .f32⟩) main_call2_cst_1) (TRef.of (T := ⟨S4096, .f32⟩) main_call2_v7) (fun x v => Host.reduceAdd x v reducesTo_S4096x32_S4096_d1 h_S_),
    TRef.unary (TRef.of (T := ⟨S4096, .f32⟩) main_call2_v7) (TRef.of (T := ⟨S4096x1, .f32⟩) main_call2_v8) (broadcastInDim S4096x1 ![0] bcast_S4096_S4096x1_0),
    TRef.unary (TRef.of (T := ⟨S4096x1, .f32⟩) main_call2_v8) (TRef.of (T := ⟨S4096x1, .f32⟩) main_call2_v9) Host.log,
    TRef.unary (TRef.of (T := ⟨S4096x1, .f32⟩) main_call2_v9) (TRef.of (T := ⟨S4096x32, .f32⟩) main_call2_v10) (broadcastInDim S4096x32 ![0, 1] bcast_S4096x1_S4096x32_0_1),
    TRef.binary (TRef.of (T := ⟨S4096x32, .f32⟩) main_call2_v5) (TRef.of (T := ⟨S4096x32, .f32⟩) main_call2_v10) (TRef.of (T := ⟨S4096x32, .f32⟩) main_v22) subf ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., unary_bufs_sub .., reshape_bufs_sub .., unary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The six stretches -/

/-- Stretch 1: operations 1 to 4. -/
abbrev ops1 : List (HloOp τ sig (Elt F)) :=
  [ reshape main_arg0 main_v0 rfl shapeCasts_S12288x512_S3x4096x512,
    unary main_arg1 main_v1 ((extractStridedSlice S4096x12288 ![0, 0] · slices_S12288x12288_S4096x12288_0_0) : (⟨S12288x12288, .f32⟩ : BufTy).Contents (Elt F) → (⟨S4096x12288, .f32⟩ : BufTy).Contents (Elt F)),
    reshape main_v1 main_v2 rfl shapeCasts_S4096x12288_S4096x3x4096,
    unary main_v2 main_v3 ((transpose S3x4096x4096 [1, 0, 2] · transposes_S4096x3x4096_S3x4096x4096_1_0_2) : (⟨S4096x3x4096, .f32⟩ : BufTy).Contents (Elt F) → (⟨S3x4096x4096, .f32⟩ : BufTy).Contents (Elt F)) ]
/-- The buffers stretch 1 writes. -/
abbrev W1 : List (Ref sig .tc) := [main_v0, main_v1, main_v2, main_v3]

/-- Stretch 2: operations 5 to 11. -/
abbrev ops2 : List (HloOp τ sig (Elt F)) :=
  [ binary main_v0 main_arg3 main_v4 ((fun l r => Host.dotGeneral dot_S3x4096x512_S3x512x512_S3x4096x512_2_2_1_1_0_0 none l r) : (⟨S3x4096x512, .f32⟩ : BufTy).Contents (Elt F) → (⟨S3x512x512, .f32⟩ : BufTy).Contents (Elt F) → (⟨S3x4096x512, .f32⟩ : BufTy).Contents (Elt F)),
    unary main_arg4 main_v5 (broadcastInDim S3x1x512 ![0, 2] bcast_S3x512_S3x1x512_0_2 : (⟨S3x512, .f32⟩ : BufTy).Contents (Elt F) → (⟨S3x1x512, .f32⟩ : BufTy).Contents (Elt F)),
    unary main_v5 main_v6 (broadcastInDim S3x4096x512 ![0, 1, 2] bcast_S3x1x512_S3x4096x512_0_1_2 : (⟨S3x1x512, .f32⟩ : BufTy).Contents (Elt F) → (⟨S3x4096x512, .f32⟩ : BufTy).Contents (Elt F)),
    binary main_v4 main_v6 main_v7 (addf : (⟨S3x4096x512, .f32⟩ : BufTy).Contents (Elt F) → (⟨S3x4096x512, .f32⟩ : BufTy).Contents (Elt F) → (⟨S3x4096x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S3x4096x512, .f32⟩) main_call0_v0) (broadcastInDim S3x4096x512 ![] bcast_S_S3x4096x512),
    TRef.binary (TRef.of (T := ⟨S3x4096x512, .f32⟩) main_v7) (TRef.of (T := ⟨S3x4096x512, .f32⟩) main_call0_v0) (TRef.of (T := ⟨S3x4096x512, .f32⟩) main_v8) maximumf ]
/-- The buffers stretch 2 writes. -/
abbrev W2 : List (Ref sig .tc) := [main_v4, main_v5, main_v6, main_v7, main_call0_cst, main_call0_v0, main_v8]

/-- Stretch 3: operations 12 to 19. -/
abbrev ops3 : List (HloOp τ sig (Elt F)) :=
  [ binary main_v3 main_v8 main_v9 ((fun l r => Host.dotGeneral dot_S3x4096x4096_S3x4096x512_S3x4096x512_2_1_1_2_0_0 none l r) : (⟨S3x4096x4096, .f32⟩ : BufTy).Contents (Elt F) → (⟨S3x4096x512, .f32⟩ : BufTy).Contents (Elt F) → (⟨S3x4096x512, .f32⟩ : BufTy).Contents (Elt F)),
    binary main_v9 main_arg5 main_v10 ((fun l r => Host.dotGeneral dot_S3x4096x512_S3x512x512_S3x4096x512_2_2_1_1_0_0 none l r) : (⟨S3x4096x512, .f32⟩ : BufTy).Contents (Elt F) → (⟨S3x512x512, .f32⟩ : BufTy).Contents (Elt F) → (⟨S3x4096x512, .f32⟩ : BufTy).Contents (Elt F)),
    unary main_arg6 main_v11 (broadcastInDim S3x1x512 ![0, 2] bcast_S3x512_S3x1x512_0_2 : (⟨S3x512, .f32⟩ : BufTy).Contents (Elt F) → (⟨S3x1x512, .f32⟩ : BufTy).Contents (Elt F)),
    unary main_v11 main_v12 (broadcastInDim S3x4096x512 ![0, 1, 2] bcast_S3x1x512_S3x4096x512_0_1_2 : (⟨S3x1x512, .f32⟩ : BufTy).Contents (Elt F) → (⟨S3x4096x512, .f32⟩ : BufTy).Contents (Elt F)),
    binary main_v10 main_v12 main_v13 (addf : (⟨S3x4096x512, .f32⟩ : BufTy).Contents (Elt F) → (⟨S3x4096x512, .f32⟩ : BufTy).Contents (Elt F) → (⟨S3x4096x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S3x4096x512, .f32⟩) main_call1_v0) (broadcastInDim S3x4096x512 ![] bcast_S_S3x4096x512),
    TRef.binary (TRef.of (T := ⟨S3x4096x512, .f32⟩) main_v13) (TRef.of (T := ⟨S3x4096x512, .f32⟩) main_call1_v0) (TRef.of (T := ⟨S3x4096x512, .f32⟩) main_v14) maximumf ]
/-- The buffers stretch 3 writes. -/
abbrev W3 : List (Ref sig .tc) := [main_v9, main_v10, main_v11, main_v12, main_v13, main_call1_cst, main_call1_v0, main_v14]

/-- Stretch 4: operations 20 to 26. -/
abbrev ops4 : List (HloOp τ sig (Elt F)) :=
  [ unary main_v14 main_v15 ((transpose S4096x3x512 [1, 0, 2] · transposes_S3x4096x512_S4096x3x512_1_0_2) : (⟨S3x4096x512, .f32⟩ : BufTy).Contents (Elt F) → (⟨S4096x3x512, .f32⟩ : BufTy).Contents (Elt F)),
    reshape main_v15 main_v16 rfl shapeCasts_S4096x3x512_S4096x1536,
    unary main_arg7 main_v17 ((transpose S1536x32 [1, 0] · transposes_S32x1536_S1536x32_1_0) : (⟨S32x1536, .f32⟩ : BufTy).Contents (Elt F) → (⟨S1536x32, .f32⟩ : BufTy).Contents (Elt F)),
    binary main_v16 main_v17 main_v18 ((fun l r => Host.dotGeneral dot_S4096x1536_S1536x32_S4096x32_1_0_0_1_n_n none l r) : (⟨S4096x1536, .f32⟩ : BufTy).Contents (Elt F) → (⟨S1536x32, .f32⟩ : BufTy).Contents (Elt F) → (⟨S4096x32, .f32⟩ : BufTy).Contents (Elt F)),
    unary main_arg8 main_v19 (broadcastInDim S1x32 ![1] bcast_S32_S1x32_1 : (⟨S32, .f32⟩ : BufTy).Contents (Elt F) → (⟨S1x32, .f32⟩ : BufTy).Contents (Elt F)),
    unary main_v19 main_v20 (broadcastInDim S4096x32 ![0, 1] bcast_S1x32_S4096x32_0_1 : (⟨S1x32, .f32⟩ : BufTy).Contents (Elt F) → (⟨S4096x32, .f32⟩ : BufTy).Contents (Elt F)),
    binary main_v18 main_v20 main_v21 (addf : (⟨S4096x32, .f32⟩ : BufTy).Contents (Elt F) → (⟨S4096x32, .f32⟩ : BufTy).Contents (Elt F) → (⟨S4096x32, .f32⟩ : BufTy).Contents (Elt F)) ]
/-- The buffers stretch 4 writes. -/
abbrev W4 : List (Ref sig .tc) := [main_v15, main_v16, main_v17, main_v18, main_v19, main_v20, main_v21]

/-- Stretch 5: operations 27 to 34. -/
abbrev ops5 : List (HloOp τ sig (Elt F)) :=
  [ TRef.nullary (TRef.of (T := ⟨S_, .f32⟩) main_call2_cst) (constant S_ .f32 0xFF800000#32),
    TRef.binary (TRef.of (T := ⟨S4096x32, .f32⟩) main_v21) (TRef.of (T := ⟨S_, .f32⟩) main_call2_cst) (TRef.of (T := ⟨S4096, .f32⟩) main_call2_v0) (fun x v => Host.reduce FloatOps.maximumf x v reducesTo_S4096x32_S4096_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S4096, .f32⟩) main_call2_v1) (broadcastInDim S4096 ![] bcast_S_S4096),
    TRef.binary (TRef.of (T := ⟨S4096, .f32⟩) main_call2_v1) (TRef.of (T := ⟨S4096, .f32⟩) main_call2_v0) (TRef.of (T := ⟨S4096, .f32⟩) main_call2_v2) maximumf,
    TRef.unary (TRef.of (T := ⟨S4096, .f32⟩) main_call2_v2) (TRef.of (T := ⟨S4096x1, .f32⟩) main_call2_v3) (broadcastInDim S4096x1 ![0] bcast_S4096_S4096x1_0),
    TRef.unary (TRef.of (T := ⟨S4096x1, .f32⟩) main_call2_v3) (TRef.of (T := ⟨S4096x32, .f32⟩) main_call2_v4) (broadcastInDim S4096x32 ![0, 1] bcast_S4096x1_S4096x32_0_1),
    TRef.binary (TRef.of (T := ⟨S4096x32, .f32⟩) main_v21) (TRef.of (T := ⟨S4096x32, .f32⟩) main_call2_v4) (TRef.of (T := ⟨S4096x32, .f32⟩) main_call2_v5) subf ]
/-- The buffers stretch 5 writes. -/
abbrev W5 : List (Ref sig .tc) := [main_call2_cst, main_call2_v0, main_call2_cst_0, main_call2_v1, main_call2_v2, main_call2_v3, main_call2_v4, main_call2_v5]

/-- Stretch 6: operations 35 to 41. -/
abbrev ops6 : List (HloOp τ sig (Elt F)) :=
  [ TRef.unary (TRef.of (T := ⟨S4096x32, .f32⟩) main_call2_v5) (TRef.of (T := ⟨S4096x32, .f32⟩) main_call2_v6) Host.exp,
    TRef.nullary (TRef.of (T := ⟨S_, .f32⟩) main_call2_cst_1) (constant S_ .f32 0x00000000#32),
    TRef.binary (TRef.of (T := ⟨S4096x32, .f32⟩) main_call2_v6) (TRef.of (T := ⟨S_, .f32⟩) main_call2_cst_1) (TRef.of (T := ⟨S4096, .f32⟩) main_call2_v7) (fun x v => Host.reduceAdd x v reducesTo_S4096x32_S4096_d1 h_S_),
    TRef.unary (TRef.of (T := ⟨S4096, .f32⟩) main_call2_v7) (TRef.of (T := ⟨S4096x1, .f32⟩) main_call2_v8) (broadcastInDim S4096x1 ![0] bcast_S4096_S4096x1_0),
    TRef.unary (TRef.of (T := ⟨S4096x1, .f32⟩) main_call2_v8) (TRef.of (T := ⟨S4096x1, .f32⟩) main_call2_v9) Host.log,
    TRef.unary (TRef.of (T := ⟨S4096x1, .f32⟩) main_call2_v9) (TRef.of (T := ⟨S4096x32, .f32⟩) main_call2_v10) (broadcastInDim S4096x32 ![0, 1] bcast_S4096x1_S4096x32_0_1),
    TRef.binary (TRef.of (T := ⟨S4096x32, .f32⟩) main_call2_v5) (TRef.of (T := ⟨S4096x32, .f32⟩) main_call2_v10) (TRef.of (T := ⟨S4096x32, .f32⟩) main_v22) subf ]
/-- The buffers stretch 6 writes. -/
abbrev W6 : List (Ref sig .tc) := [main_call2_v6, main_call2_cst_1, main_call2_v7, main_call2_v8, main_call2_v9, main_call2_v10, main_v22]

set_option maxRecDepth 8192 in
/-- The program is its six stretches in a row. -/
theorem ops_split : (ops : List (HloOp τ sig (Elt F))) = ops1 ++ (ops2 ++ (ops3 ++ (ops4 ++ (ops5 ++ ops6)))) := rfl

/-! ## What each stretch leaves unchanged -/

/-- Discharges one operation's "what it writes is in the list". -/
local macro "writes_mem" : tactic =>
  `(tactic| (simp only [StableHlo.nullary_writes, StableHlo.unary_writes, StableHlo.binary_writes, StableHlo.reshape_writes,
      Finset.singleton_subset_iff, List.mem_toFinset]; exact List.mem_map_of_mem (by decide)))

theorem writes1 : (ops1 : List (HloOp τ sig (Elt F))).Forall fun op => op.writes ⊆ (W1.map (Proc.devRef (τ := τ) .tc)).toFinset := by
  simp only [List.Forall]; exact ⟨by writes_mem, by writes_mem, by writes_mem, by writes_mem⟩
/-- Stretch 1 leaves every buffer it does not write as it found it. -/
theorem keep1 (V : Valuation τ sig (Elt F)) (r : Ref sig .tc) (h : r ∉ W1) :
    after ops1 V (Proc.devRef .tc r) = V (Proc.devRef .tc r) :=
  after_of_writes_sub ops1 V writes1 h

theorem writes2 : (ops2 : List (HloOp τ sig (Elt F))).Forall fun op => op.writes ⊆ (W2.map (Proc.devRef (τ := τ) .tc)).toFinset := by
  simp only [List.Forall]; exact ⟨by writes_mem, by writes_mem, by writes_mem, by writes_mem, by writes_mem, by writes_mem, by writes_mem⟩
/-- Stretch 2 leaves every buffer it does not write as it found it. -/
theorem keep2 (V : Valuation τ sig (Elt F)) (r : Ref sig .tc) (h : r ∉ W2) :
    after ops2 V (Proc.devRef .tc r) = V (Proc.devRef .tc r) :=
  after_of_writes_sub ops2 V writes2 h

theorem writes3 : (ops3 : List (HloOp τ sig (Elt F))).Forall fun op => op.writes ⊆ (W3.map (Proc.devRef (τ := τ) .tc)).toFinset := by
  simp only [List.Forall]; exact ⟨by writes_mem, by writes_mem, by writes_mem, by writes_mem, by writes_mem, by writes_mem, by writes_mem, by writes_mem⟩
/-- Stretch 3 leaves every buffer it does not write as it found it. -/
theorem keep3 (V : Valuation τ sig (Elt F)) (r : Ref sig .tc) (h : r ∉ W3) :
    after ops3 V (Proc.devRef .tc r) = V (Proc.devRef .tc r) :=
  after_of_writes_sub ops3 V writes3 h

theorem writes4 : (ops4 : List (HloOp τ sig (Elt F))).Forall fun op => op.writes ⊆ (W4.map (Proc.devRef (τ := τ) .tc)).toFinset := by
  simp only [List.Forall]; exact ⟨by writes_mem, by writes_mem, by writes_mem, by writes_mem, by writes_mem, by writes_mem, by writes_mem⟩
/-- Stretch 4 leaves every buffer it does not write as it found it. -/
theorem keep4 (V : Valuation τ sig (Elt F)) (r : Ref sig .tc) (h : r ∉ W4) :
    after ops4 V (Proc.devRef .tc r) = V (Proc.devRef .tc r) :=
  after_of_writes_sub ops4 V writes4 h

theorem writes5 : (ops5 : List (HloOp τ sig (Elt F))).Forall fun op => op.writes ⊆ (W5.map (Proc.devRef (τ := τ) .tc)).toFinset := by
  simp only [List.Forall]; exact ⟨by writes_mem, by writes_mem, by writes_mem, by writes_mem, by writes_mem, by writes_mem, by writes_mem, by writes_mem⟩
/-- Stretch 5 leaves every buffer it does not write as it found it. -/
theorem keep5 (V : Valuation τ sig (Elt F)) (r : Ref sig .tc) (h : r ∉ W5) :
    after ops5 V (Proc.devRef .tc r) = V (Proc.devRef .tc r) :=
  after_of_writes_sub ops5 V writes5 h

theorem writes6 : (ops6 : List (HloOp τ sig (Elt F))).Forall fun op => op.writes ⊆ (W6.map (Proc.devRef (τ := τ) .tc)).toFinset := by
  simp only [List.Forall]; exact ⟨by writes_mem, by writes_mem, by writes_mem, by writes_mem, by writes_mem, by writes_mem, by writes_mem⟩
/-- Stretch 6 leaves every buffer it does not write as it found it. -/
theorem keep6 (V : Valuation τ sig (Elt F)) (r : Ref sig .tc) (h : r ∉ W6) :
    after ops6 V (Proc.devRef .tc r) = V (Proc.devRef .tc r) :=
  after_of_writes_sub ops6 V writes6 h

/-! ## What each stretch computes -/

/-- After stretch 1 the blocks of `x`. -/
theorem after1_v0 (V : Valuation τ sig (Elt F)) :
    after ops1 V (Proc.devRef .tc main_v0) = xBlocks (V (Proc.devRef .tc main_arg0)) := by
  after_results_simp <;> (try simp only [cast_eq]) <;> rfl
/-- After stretch 1 the blocks of the adjacency. -/
theorem after1_v3 (V : Valuation τ sig (Elt F)) :
    after ops1 V (Proc.devRef .tc main_v3) = adjBlocks (V (Proc.devRef .tc main_arg1)) := by
  after_results_simp <;> (try simp only [cast_eq]) <;> rfl
/-- After stretch 2 the first dense layer. -/
theorem after2_v8 (V : Valuation τ sig (Elt F)) :
    after ops2 V (Proc.devRef .tc main_v8) = denseRelu (V (Proc.devRef .tc main_v0)) (V (Proc.devRef .tc main_arg3)) (V (Proc.devRef .tc main_arg4)) := by
  after_results_simp <;> (try simp only [cast_eq]) <;> rfl
/-- After stretch 3 the aggregation and the second dense layer. -/
theorem after3_v14 (V : Valuation τ sig (Elt F)) :
    after ops3 V (Proc.devRef .tc main_v14)
      = denseRelu (aggregate (V (Proc.devRef .tc main_v3)) (V (Proc.devRef .tc main_v8))) (V (Proc.devRef .tc main_arg5)) (V (Proc.devRef .tc main_arg6)) := by
  after_results_simp <;> (try simp only [cast_eq]) <;> rfl
/-- After stretch 4 the final linear layer. -/
theorem after4_v21 (V : Valuation τ sig (Elt F)) :
    after ops4 V (Proc.devRef .tc main_v21) = linear (V (Proc.devRef .tc main_v14)) (V (Proc.devRef .tc main_arg7)) (V (Proc.devRef .tc main_arg8)) := by
  after_results_simp <;> (try simp only [cast_eq]) <;> rfl
/-- After stretch 5 the rows shifted by their maxima. -/
theorem after5_v5 (V : Valuation τ sig (Elt F)) :
    after ops5 V (Proc.devRef .tc main_call2_v5) = shifted (V (Proc.devRef .tc main_v21)) := by
  after_results_simp <;> (try simp only [cast_eq]) <;> rfl
/-- After stretch 6 the log-softmax of the shifted rows. -/
theorem after6_v22 (V : Valuation τ sig (Elt F)) :
    after ops6 V (Proc.devRef .tc main_v22) = normalized (V (Proc.devRef .tc main_call2_v5)) := by
  after_results_simp <;> (try simp only [cast_eq]) <;> rfl

/-! ## The whole line -/

/-- A buffer no stretch writes is, after the whole line, as it was. -/
theorem keep (V : Valuation τ sig (Elt F)) (r : Ref sig .tc) (h1 : r ∉ W1) (h2 : r ∉ W2) (h3 : r ∉ W3) (h4 : r ∉ W4)
    (h5 : r ∉ W5) (h6 : r ∉ W6) : after ops V (Proc.devRef .tc r) = V (Proc.devRef .tc r) := by
  rw [ops_split, AfterAppend.after_append, AfterAppend.after_append, AfterAppend.after_append, AfterAppend.after_append,
    AfterAppend.after_append, keep6 _ r h6, keep5 _ r h5, keep4 _ r h4, keep3 _ r h3, keep2 _ r h2, keep1 _ r h1]

/-- After the whole line the result buffer holds `resOf` of the arguments as the line found them. -/
theorem after_result (V : Valuation τ sig (Elt F)) :
    after ops V (Proc.devRef .tc main_v22)
      = resOf (V (Proc.devRef .tc main_arg0)) (V (Proc.devRef .tc main_arg1)) (V (Proc.devRef .tc main_arg3)) (V (Proc.devRef .tc main_arg4))
          (V (Proc.devRef .tc main_arg5)) (V (Proc.devRef .tc main_arg6)) (V (Proc.devRef .tc main_arg7)) (V (Proc.devRef .tc main_arg8)) := by
  rw [ops_split, AfterAppend.after_append, AfterAppend.after_append, AfterAppend.after_append, AfterAppend.after_append,
    AfterAppend.after_append]
  rw [after6_v22, after5_v5, after4_v21, after3_v14]
  rw [keep3 _ main_arg7 (by decide), keep3 _ main_arg8 (by decide)]
  rw [after2_v8, keep2 _ main_v3 (by decide), keep2 _ main_arg5 (by decide), keep2 _ main_arg6 (by decide),
    keep2 _ main_arg7 (by decide), keep2 _ main_arg8 (by decide)]
  rw [after1_v0, after1_v3, keep1 _ main_arg3 (by decide), keep1 _ main_arg4 (by decide), keep1 _ main_arg5 (by decide),
    keep1 _ main_arg6 (by decide), keep1 _ main_arg7 (by decide), keep1 _ main_arg8 (by decide)]
  rfl

/-! ## The run -/

/-- The result buffer's final contents: `resOf` of the eight float arguments' launch contents. -/
def res (m : (ℓ : Loc nD τ sig) → Buf (Elt F) ℓ) (c : Dev nD) : Buf (Elt F) ((c.tc : Thread nD τ).loc main_v22) :=
  resOf (m ((c.tc : Thread nD τ).loc main_arg0)) (m ((c.tc : Thread nD τ).loc main_arg1))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8))

set_option maxRecDepth 8192 in
/-- On every device, for any float values, from any memory with zero counters: every weakly fair execution of the
    program terminates with the result buffer at `res` and the nine arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v22).trans (after_result _),
      (h c main_arg0).trans (keep _ main_arg0 (by decide) (by decide) (by decide) (by decide) (by decide) (by decide)),
      (h c main_arg1).trans (keep _ main_arg1 (by decide) (by decide) (by decide) (by decide) (by decide) (by decide)),
      (h c main_arg2).trans (keep _ main_arg2 (by decide) (by decide) (by decide) (by decide) (by decide) (by decide)),
      (h c main_arg3).trans (keep _ main_arg3 (by decide) (by decide) (by decide) (by decide) (by decide) (by decide)),
      (h c main_arg4).trans (keep _ main_arg4 (by decide) (by decide) (by decide) (by decide) (by decide) (by decide)),
      (h c main_arg5).trans (keep _ main_arg5 (by decide) (by decide) (by decide) (by decide) (by decide) (by decide)),
      (h c main_arg6).trans (keep _ main_arg6 (by decide) (by decide) (by decide) (by decide) (by decide) (by decide)),
      (h c main_arg7).trans (keep _ main_arg7 (by decide) (by decide) (by decide) (by decide) (by decide) (by decide)),
      (h c main_arg8).trans (keep _ main_arg8 (by decide) (by decide) (by decide) (by decide) (by decide) (by decide))⟩)
    (run_seq scopedRefs_eq scopedSems_eq defs main (fun _ => ops) main_eq (fun _ => ops_sub) m ρ)

/-- The same run, keeping only that the nine arguments end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => (h c).2) (run m ρ)

end Cert.ReferenceIdeal.RefValue

end
-- ==== Proof.Spec.lean ====
/-
  The relational graph layer followed by a row-wise log-softmax, as ONE function of its argument arrays on the
  extended reals, index by index.

  Three relations, 4096 nodes per relation, 512 features in and out, 32 classes. With the 12288 rows of `x` read as
  three blocks of 4096 rows (block `t`, row `n` is row `4096 t + n`):

    h  t n g = max (∑ f, x (4096 t + n) f * Wc t g f + bc t g) 0            (a dense layer and a rectifier, per relation)
    m  t i g = ∑ j, adj i (4096 t + j) * h t j g                            (rows i < 4096 of the adjacency only)
    h2 t i g = max (∑ h, m t i h * Ws t g h + bs t g) 0                     (a second dense layer and rectifier)
    z  i c   = ∑ j < 1536, h2 (j / 512) i (j % 512) * Wl c j + bl c         (the three relations side by side)
    out i c  = (z i c - M i) - log (∑ c', exp (z i c' - M i)),   M i = the maximum of row i of z, from -∞.

  Every operation is the exact one on `EReal`; the two float literals (the rectifier's zero and the maximum's
  starting value -∞) stay the words they are written as.
-/
import Idealize.ShloMosaic.PureOps.Ideal
import Idealize.ShloMosaic.Lib.ValueIdx

noncomputable section

namespace RelGraph

open Idealize.ShloMosaic Idealize.ShloMosaic.ValueIdx

/-! ## Arrays read at natural coordinates -/

/-- A vector read at its one coordinate. -/
def arr1 {n : Nat} (a : (⟨1, ![n]⟩ : Shape).Idx → EReal) : Fin n → EReal := fun i => a (ix1 i)
/-- A matrix read at (row, column). -/
def arr2 {n0 n1 : Nat} (a : (⟨2, ![n0, n1]⟩ : Shape).Idx → EReal) : Fin n0 → Fin n1 → EReal := fun i j => a (ix2 i j)
/-- A rank-three array read at its three coordinates. -/
def arr3 {n0 n1 n2 : Nat} (a : (⟨3, ![n0, n1, n2]⟩ : Shape).Idx → EReal) : Fin n0 → Fin n1 → Fin n2 → EReal :=
  fun i j k => a (ix3 i j k)

/-! ## Coordinates -/

/-- Row `n` of block `t` among 12288 rows cut into three blocks of 4096: row `4096 t + n`. -/
def blockRow (t : Fin 3) (n : Fin 4096) : Fin 12288 := ⟨t.val * 4096 + n.val, by omega⟩
/-- One of the first 4096 of 12288 rows. -/
def topRow (i : Fin 4096) : Fin 12288 := ⟨i.val, by omega⟩
/-- The relation a column of the 1536 side-by-side features belongs to: `j / 512`. -/
def featRel (j : Fin 1536) : Fin 3 := ⟨j.val / 512, by omega⟩
/-- The feature a column of the 1536 side-by-side features is, within its relation: `j % 512`. -/
def featCol (j : Fin 1536) : Fin 512 := ⟨j.val % 512, by omega⟩

/-- The rectifier's zero, as the float word it is written as. -/
abbrev zeroWord : EReal := Ideal.ofBits .f32 0x00000000#32
/-- The starting value of the row maximum, -∞, as the float word it is written as. -/
abbrev negInfWord : EReal := Ideal.ofBits .f32 0xFF800000#32

/-! ## The stages -/

/-- Per relation, a dense layer over the 512 input features, its bias, and a rectifier. -/
def convRelu (x : Fin 12288 → Fin 512 → EReal) (W : Fin 3 → Fin 512 → Fin 512 → EReal) (b : Fin 3 → Fin 512 → EReal) :
    Fin 3 → Fin 4096 → Fin 512 → EReal :=
  fun t n g => max ((∑ f : Fin 512, x (blockRow t n) f * W t g f) + b t g) zeroWord

/-- Per relation, the first 4096 rows of the adjacency against that relation's 4096 nodes: one sum over 4096. -/
def spmm (adj : Fin 12288 → Fin 12288 → EReal) (h : Fin 3 → Fin 4096 → Fin 512 → EReal) :
    Fin 3 → Fin 4096 → Fin 512 → EReal :=
  fun t i g => ∑ j : Fin 4096, adj (topRow i) (blockRow t j) * h t j g

/-- Per relation, the second dense layer, its bias, and a rectifier. -/
def sageRelu (m : Fin 3 → Fin 4096 → Fin 512 → EReal) (W : Fin 3 → Fin 512 → Fin 512 → EReal) (b : Fin 3 → Fin 512 → EReal) :
    Fin 3 → Fin 4096 → Fin 512 → EReal :=
  fun t i g => max ((∑ h : Fin 512, m t i h * W t g h) + b t g) zeroWord

/-- The three relations' features side by side: column `j` of 1536 is feature `j % 512` of relation `j / 512`. -/
def feat (h2 : Fin 3 → Fin 4096 → Fin 512 → EReal) : Fin 4096 → Fin 1536 → EReal :=
  fun i j => h2 (featRel j) i (featCol j)

/-- The final linear layer: one sum over the 1536 side-by-side features, and its bias. -/
def logits (h2 : Fin 3 → Fin 4096 → Fin 512 → EReal) (W : Fin 32 → Fin 1536 → EReal) (b : Fin 32 → EReal) :
    Fin 4096 → Fin 32 → EReal :=
  fun i c => (∑ j : Fin 1536, feat h2 i j * W c j) + b c

/-- The maximum of a row of 32, started from -∞. -/
def rowMax (z : Fin 4096 → Fin 32 → EReal) : Fin 4096 → EReal :=
  fun i => (Finset.univ : Finset (Fin 32)).fold max negInfWord (z i)

/-- The row-wise log-softmax: shift by the row's maximum, then subtract the logarithm of the sum of exponentials. -/
def logSoftmax (z : Fin 4096 → Fin 32 → EReal) : Fin 4096 → Fin 32 → EReal :=
  fun i c => (z i c - rowMax z i) - Ideal.log (∑ c' : Fin 32, Ideal.exp (z i c' - rowMax z i))

/-- The whole result as one function of the eight float arguments. -/
def out (x : Fin 12288 → Fin 512 → EReal) (adj : Fin 12288 → Fin 12288 → EReal)
    (Wc : Fin 3 → Fin 512 → Fin 512 → EReal) (bc : Fin 3 → Fin 512 → EReal)
    (Ws : Fin 3 → Fin 512 → Fin 512 → EReal) (bs : Fin 3 → Fin 512 → EReal)
    (Wl : Fin 32 → Fin 1536 → EReal) (bl : Fin 32 → EReal) : Fin 4096 → Fin 32 → EReal :=
  logSoftmax (logits (sageRelu (spmm adj (convRelu x Wc bc)) Ws bs) Wl bl)

end RelGraph

end
-- ==== Proof.Ref.IsSpec.lean ====
/-
  The reference's result, read at an index, is the relational graph layer and log-softmax of the specification.

  Each whole-array stage is read at natural coordinates on the extended reals: a re-cut of an array at the coordinates
  of the same linear position, a slice and a transposition at the moved coordinates, a repeated bias at the
  coordinates it does not drop, a contraction as the sum over its one contracted coordinate, the row maximum as the fold
  of `max` over the row, the row sum as the sum over the row. Composed, the stages are the specification's, stage by stage.
-/
import proofs.«101938_j11553462026818_2_alg».proof.Proof.Ref.Run
import proofs.«101938_j11553462026818_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.ValueIdx RelGraph

/-! ## Re-cuts, the slice and the transpositions -/

/-- Block `t`, row `n` of the re-cut `x` is row `4096 t + n` of `x`. -/
theorem xBlocks_apply (x : Arr Ideal S12288x512) (t : Fin 3) (n : Fin 4096) (f : Fin 512) :
    xBlocks x (ix3 t n f) = x (ix2 (blockRow t n) f) := by
  unfold xBlocks
  exact shapeCast_apply x shapeCasts_S12288x512_S3x4096x512 (ix3 t n f) (ix2 (blockRow t n) f)
    (by rewrite [Shape.rowMajor_val_two, Shape.rowMajor_val_three]
        show (t.val * 4096 + n.val) * 512 + f.val = (t.val * 4096 + n.val) * 512 + f.val; rfl)

/-- Block `t` of the adjacency at (i, j) is the adjacency at row `i`, column `4096 t + j`. -/
theorem adjBlocks_apply (a : Arr Ideal S12288x12288) (t : Fin 3) (i j : Fin 4096) :
    adjBlocks a (ix3 t i j) = a (ix2 (topRow i) (blockRow t j)) := by
  unfold adjBlocks adjSplit adjTop
  refine (transpose_apply [1, 0, 2] _ transposes_S4096x3x4096_S3x4096x4096_1_0_2 (ix3 t i j) (ix3 i t j) (fun b => match b with
    | ⟨0, _⟩ => rfl
    | ⟨1, _⟩ => rfl
    | ⟨2, _⟩ => rfl)).trans ?_
  refine (shapeCast_apply _ shapeCasts_S4096x12288_S4096x3x4096 (ix3 i t j) (ix2 i (blockRow t j))
    (by rewrite [Shape.rowMajor_val_two, Shape.rowMajor_val_three]
        have hi := i.isLt; have ht := t.isLt; have hj := j.isLt
        show i.val * 12288 + (t.val * 4096 + j.val) = (i.val * 3 + t.val) * 4096 + j.val; omega)).trans ?_
  exact extractStridedSlice_apply ![0, 0] a slices_S12288x12288_S4096x12288_0_0 (ix2 i (blockRow t j)) (ix2 (topRow i) (blockRow t j))
    (fun b => match b with
      | ⟨0, _⟩ => by show i.val = 0 + i.val; omega
      | ⟨1, _⟩ => by show t.val * 4096 + j.val = 0 + (t.val * 4096 + j.val); omega)

/-- The side-by-side features at column `j` are feature `j % 512` of block `j / 512`. -/
theorem sideBySide_apply (h : Arr Ideal S3x4096x512) (i : Fin 4096) (j : Fin 1536) :
    sideBySide h (ix2 i j) = h (ix3 (featRel j) i (featCol j)) := by
  unfold sideBySide nodeFirst
  refine (shapeCast_apply _ shapeCasts_S4096x3x512_S4096x1536 (ix2 i j) (ix3 i (featRel j) (featCol j))
    (by rewrite [Shape.rowMajor_val_three, Shape.rowMajor_val_two]
        have hi := i.isLt; have hj := j.isLt
        show (i.val * 3 + j.val / 512) * 512 + j.val % 512 = i.val * 1536 + j.val; omega)).trans ?_
  exact transpose_apply [1, 0, 2] h transposes_S3x4096x512_S4096x3x512_1_0_2 (ix3 i (featRel j) (featCol j)) (ix3 (featRel j) i (featCol j))
    (fun b => match b with
      | ⟨0, _⟩ => rfl
      | ⟨1, _⟩ => rfl
      | ⟨2, _⟩ => rfl)

/-- The transposed final weights at (j, c) are the weights at (c, j). -/
theorem weightT_apply (w : Arr Ideal S32x1536) (j : Fin 1536) (c : Fin 32) : weightT w (ix2 j c) = w (ix2 c j) := by
  unfold weightT
  exact transpose_apply [1, 0] w transposes_S32x1536_S1536x32_1_0 (ix2 j c) (ix2 c j) (fun b => match b with
    | ⟨0, _⟩ => rfl
    | ⟨1, _⟩ => rfl)

/-! ## The repeated biases and constants -/

/-- The bias row repeated down a block reads the bias at (block, feature). -/
theorem biasRows_apply (b : Arr Ideal S3x512) (t : Fin 3) (n : Fin 4096) (g : Fin 512) :
    biasRows b (ix3 t n g) = b (ix2 t g) := by
  unfold biasRows
  refine (broadcastInDim_apply _ bcast_S3x1x512_S3x4096x512_0_1_2 _ (ix3 t n g) (ix3 t (0 : Fin 1) g) (fun a => match a with
    | ⟨0, _⟩ => by show t.val = if (3 : Nat) = 1 then 0 else t.val; rw [if_neg (by decide)]
    | ⟨1, _⟩ => by show 0 = if (1 : Nat) = 1 then 0 else n.val; rw [if_pos rfl]
    | ⟨2, _⟩ => by show g.val = if (512 : Nat) = 1 then 0 else g.val; rw [if_neg (by decide)])).trans ?_
  exact broadcastInDim_apply _ bcast_S3x512_S3x1x512_0_2 b (ix3 t (0 : Fin 1) g) (ix2 t g) (fun a => match a with
    | ⟨0, _⟩ => by show t.val = if (3 : Nat) = 1 then 0 else t.val; rw [if_neg (by decide)]
    | ⟨1, _⟩ => by show g.val = if (512 : Nat) = 1 then 0 else g.val; rw [if_neg (by decide)])

/-- The class biases repeated down the rows read the bias at the class. -/
theorem biasCols_apply (b : Arr Ideal S32) (i : Fin 4096) (c : Fin 32) : biasCols b (ix2 i c) = b (ix1 c) := by
  unfold biasCols
  refine (broadcastInDim_apply _ bcast_S1x32_S4096x32_0_1 _ (ix2 i c) (ix2 (0 : Fin 1) c) (fun a => match a with
    | ⟨0, _⟩ => by show 0 = if (1 : Nat) = 1 then 0 else i.val; rw [if_pos rfl]
    | ⟨1, _⟩ => by show c.val = if (32 : Nat) = 1 then 0 else c.val; rw [if_neg (by decide)])).trans ?_
  exact broadcastInDim_apply _ bcast_S32_S1x32_1 b (ix2 (0 : Fin 1) c) (ix1 c) (fun a => match a with
    | ⟨0, _⟩ => by show c.val = if (32 : Nat) = 1 then 0 else c.val; rw [if_neg (by decide)])

/-- The rectifier's zero at every place is the zero word. -/
theorem zeros3_apply (i : S3x4096x512.Idx) : zeros3 (F := Ideal) i = zeroWord := by
  unfold zeros3
  exact broadcastInDim_apply _ bcast_S_S3x4096x512 _ i ix0 (fun a => a.elim0)

/-- The maximum's starting value at every row is the -∞ word. -/
theorem negInfs_apply (i : S4096.Idx) : negInfs (F := Ideal) i = negInfWord := by
  unfold negInfs
  exact broadcastInDim_apply _ bcast_S_S4096 _ i ix0 (fun a => a.elim0)

/-- A vector as a column reads the vector at the row. -/
theorem asColumn_apply (v : Arr Ideal S4096) (i : Fin 4096) (z : Fin 1) : asColumn v (ix2 i z) = v (ix1 i) := by
  unfold asColumn
  exact broadcastInDim_apply _ bcast_S4096_S4096x1_0 v (ix2 i z) (ix1 i) (fun a => match a with
    | ⟨0, _⟩ => by show i.val = if (4096 : Nat) = 1 then 0 else i.val; rw [if_neg (by decide)])

/-- A column repeated across the classes reads the column at the row. -/
theorem acrossClasses_apply (col : Arr Ideal S4096x1) (i : Fin 4096) (c : Fin 32) :
    acrossClasses col (ix2 i c) = col (ix2 i (0 : Fin 1)) := by
  unfold acrossClasses
  exact broadcastInDim_apply _ bcast_S4096x1_S4096x32_0_1 col (ix2 i c) (ix2 i (0 : Fin 1)) (fun a => match a with
    | ⟨0, _⟩ => by show i.val = if (4096 : Nat) = 1 then 0 else i.val; rw [if_neg (by decide)]
    | ⟨1, _⟩ => by show 0 = if (1 : Nat) = 1 then 0 else c.val; rw [if_pos rfl])

/-! ## The three contractions: where each operand is read -/

theorem dense_lhs_0 (i : S3x4096x512.Idx) (q : dot_S3x4096x512_S3x512x512_S3x4096x512_2_2_1_1_0_0.contr.Idx) :
    (dot_S3x4096x512_S3x512x512_S3x4096x512_2_2_1_1_0_0.lhsIdx i q 0).val = (i 0).val := by
  unfold DotDims.lhsIdx
  rw [dif_pos (show (0 : Fin S3x4096x512.rank) ∈ dot_S3x4096x512_S3x512x512_S3x4096x512_2_2_1_1_0_0.lhsBatch by decide)]
  rfl
theorem dense_lhs_1 (i : S3x4096x512.Idx) (q : dot_S3x4096x512_S3x512x512_S3x4096x512_2_2_1_1_0_0.contr.Idx) :
    (dot_S3x4096x512_S3x512x512_S3x4096x512_2_2_1_1_0_0.lhsIdx i q 1).val = (i 1).val := by
  unfold DotDims.lhsIdx
  rw [dif_neg (show ¬(1 : Fin S3x4096x512.rank) ∈ dot_S3x4096x512_S3x512x512_S3x4096x512_2_2_1_1_0_0.lhsBatch by decide), dif_pos (show (1 : Fin S3x4096x512.rank) ∈ dot_S3x4096x512_S3x512x512_S3x4096x512_2_2_1_1_0_0.lhsNonContracting by decide)]
  rfl
theorem dense_lhs_2 (i : S3x4096x512.Idx) (q : dot_S3x4096x512_S3x512x512_S3x4096x512_2_2_1_1_0_0.contr.Idx) :
    (dot_S3x4096x512_S3x512x512_S3x4096x512_2_2_1_1_0_0.lhsIdx i q 2).val = (q ⟨0, by decide⟩).val :=
  dot_S3x4096x512_S3x512x512_S3x4096x512_2_2_1_1_0_0.lhsIdx_val_of_single rfl i q
theorem dense_rhs_0 (i : S3x4096x512.Idx) (q : dot_S3x4096x512_S3x512x512_S3x4096x512_2_2_1_1_0_0.contr.Idx) :
    (dot_S3x4096x512_S3x512x512_S3x4096x512_2_2_1_1_0_0.rhsIdx i q 0).val = (i 0).val := by
  unfold DotDims.rhsIdx
  rw [dif_pos (show (0 : Fin S3x512x512.rank) ∈ dot_S3x4096x512_S3x512x512_S3x4096x512_2_2_1_1_0_0.rhsBatch by decide)]
  rfl
theorem dense_rhs_1 (i : S3x4096x512.Idx) (q : dot_S3x4096x512_S3x512x512_S3x4096x512_2_2_1_1_0_0.contr.Idx) :
    (dot_S3x4096x512_S3x512x512_S3x4096x512_2_2_1_1_0_0.rhsIdx i q 1).val = (i 2).val := by
  unfold DotDims.rhsIdx
  rw [dif_neg (show ¬(1 : Fin S3x512x512.rank) ∈ dot_S3x4096x512_S3x512x512_S3x4096x512_2_2_1_1_0_0.rhsBatch by decide), dif_pos (show (1 : Fin S3x512x512.rank) ∈ dot_S3x4096x512_S3x512x512_S3x4096x512_2_2_1_1_0_0.rhsNonContracting by decide)]
  rfl
theorem dense_rhs_2 (i : S3x4096x512.Idx) (q : dot_S3x4096x512_S3x512x512_S3x4096x512_2_2_1_1_0_0.contr.Idx) :
    (dot_S3x4096x512_S3x512x512_S3x4096x512_2_2_1_1_0_0.rhsIdx i q 2).val = (q ⟨0, by decide⟩).val :=
  dot_S3x4096x512_S3x512x512_S3x4096x512_2_2_1_1_0_0.rhsIdx_val_of_single rfl i q

theorem agg_lhs_0 (i : S3x4096x512.Idx) (q : dot_S3x4096x4096_S3x4096x512_S3x4096x512_2_1_1_2_0_0.contr.Idx) :
    (dot_S3x4096x4096_S3x4096x512_S3x4096x512_2_1_1_2_0_0.lhsIdx i q 0).val = (i 0).val := by
  unfold DotDims.lhsIdx
  rw [dif_pos (show (0 : Fin S3x4096x4096.rank) ∈ dot_S3x4096x4096_S3x4096x512_S3x4096x512_2_1_1_2_0_0.lhsBatch by decide)]
  rfl
theorem agg_lhs_1 (i : S3x4096x512.Idx) (q : dot_S3x4096x4096_S3x4096x512_S3x4096x512_2_1_1_2_0_0.contr.Idx) :
    (dot_S3x4096x4096_S3x4096x512_S3x4096x512_2_1_1_2_0_0.lhsIdx i q 1).val = (i 1).val := by
  unfold DotDims.lhsIdx
  rw [dif_neg (show ¬(1 : Fin S3x4096x4096.rank) ∈ dot_S3x4096x4096_S3x4096x512_S3x4096x512_2_1_1_2_0_0.lhsBatch by decide), dif_pos (show (1 : Fin S3x4096x4096.rank) ∈ dot_S3x4096x4096_S3x4096x512_S3x4096x512_2_1_1_2_0_0.lhsNonContracting by decide)]
  rfl
theorem agg_lhs_2 (i : S3x4096x512.Idx) (q : dot_S3x4096x4096_S3x4096x512_S3x4096x512_2_1_1_2_0_0.contr.Idx) :
    (dot_S3x4096x4096_S3x4096x512_S3x4096x512_2_1_1_2_0_0.lhsIdx i q 2).val = (q ⟨0, by decide⟩).val :=
  dot_S3x4096x4096_S3x4096x512_S3x4096x512_2_1_1_2_0_0.lhsIdx_val_of_single rfl i q
theorem agg_rhs_0 (i : S3x4096x512.Idx) (q : dot_S3x4096x4096_S3x4096x512_S3x4096x512_2_1_1_2_0_0.contr.Idx) :
    (dot_S3x4096x4096_S3x4096x512_S3x4096x512_2_1_1_2_0_0.rhsIdx i q 0).val = (i 0).val := by
  unfold DotDims.rhsIdx
  rw [dif_pos (show (0 : Fin S3x4096x512.rank) ∈ dot_S3x4096x4096_S3x4096x512_S3x4096x512_2_1_1_2_0_0.rhsBatch by decide)]
  rfl
theorem agg_rhs_1 (i : S3x4096x512.Idx) (q : dot_S3x4096x4096_S3x4096x512_S3x4096x512_2_1_1_2_0_0.contr.Idx) :
    (dot_S3x4096x4096_S3x4096x512_S3x4096x512_2_1_1_2_0_0.rhsIdx i q 1).val = (q ⟨0, by decide⟩).val :=
  dot_S3x4096x4096_S3x4096x512_S3x4096x512_2_1_1_2_0_0.rhsIdx_val_of_single rfl i q
theorem agg_rhs_2 (i : S3x4096x512.Idx) (q : dot_S3x4096x4096_S3x4096x512_S3x4096x512_2_1_1_2_0_0.contr.Idx) :
    (dot_S3x4096x4096_S3x4096x512_S3x4096x512_2_1_1_2_0_0.rhsIdx i q 2).val = (i 2).val := by
  unfold DotDims.rhsIdx
  rw [dif_neg (show ¬(2 : Fin S3x4096x512.rank) ∈ dot_S3x4096x4096_S3x4096x512_S3x4096x512_2_1_1_2_0_0.rhsBatch by decide), dif_pos (show (2 : Fin S3x4096x512.rank) ∈ dot_S3x4096x4096_S3x4096x512_S3x4096x512_2_1_1_2_0_0.rhsNonContracting by decide)]
  rfl

theorem cls_lhs_0 (i : S4096x32.Idx) (q : dot_S4096x1536_S1536x32_S4096x32_1_0_0_1_n_n.contr.Idx) :
    (dot_S4096x1536_S1536x32_S4096x32_1_0_0_1_n_n.lhsIdx i q 0).val = (i 0).val := by
  unfold DotDims.lhsIdx
  rw [dif_neg (show ¬(0 : Fin S4096x1536.rank) ∈ dot_S4096x1536_S1536x32_S4096x32_1_0_0_1_n_n.lhsBatch by decide), dif_pos (show (0 : Fin S4096x1536.rank) ∈ dot_S4096x1536_S1536x32_S4096x32_1_0_0_1_n_n.lhsNonContracting by decide)]
  rfl
theorem cls_lhs_1 (i : S4096x32.Idx) (q : dot_S4096x1536_S1536x32_S4096x32_1_0_0_1_n_n.contr.Idx) :
    (dot_S4096x1536_S1536x32_S4096x32_1_0_0_1_n_n.lhsIdx i q 1).val = (q ⟨0, by decide⟩).val :=
  dot_S4096x1536_S1536x32_S4096x32_1_0_0_1_n_n.lhsIdx_val_of_single rfl i q
theorem cls_rhs_0 (i : S4096x32.Idx) (q : dot_S4096x1536_S1536x32_S4096x32_1_0_0_1_n_n.contr.Idx) :
    (dot_S4096x1536_S1536x32_S4096x32_1_0_0_1_n_n.rhsIdx i q 0).val = (q ⟨0, by decide⟩).val :=
  dot_S4096x1536_S1536x32_S4096x32_1_0_0_1_n_n.rhsIdx_val_of_single rfl i q
theorem cls_rhs_1 (i : S4096x32.Idx) (q : dot_S4096x1536_S1536x32_S4096x32_1_0_0_1_n_n.contr.Idx) :
    (dot_S4096x1536_S1536x32_S4096x32_1_0_0_1_n_n.rhsIdx i q 1).val = (i 1).val := by
  unfold DotDims.rhsIdx
  rw [dif_neg (show ¬(1 : Fin S1536x32.rank) ∈ dot_S4096x1536_S1536x32_S4096x32_1_0_0_1_n_n.rhsBatch by decide), dif_pos (show (1 : Fin S1536x32.rank) ∈ dot_S4096x1536_S1536x32_S4096x32_1_0_0_1_n_n.rhsNonContracting by decide)]
  rfl

/-- Per block, a row against a row of the weights: the sum over the 512 shared features. -/
theorem dense_apply (y : Arr Ideal S3x4096x512) (w : Arr Ideal S3x512x512) (t : Fin 3) (n : Fin 4096) (g : Fin 512) :
    dense y w (ix3 t n g) = ∑ f : Fin 512, y (ix3 t n f) * w (ix3 t g f) := by
  unfold dense
  simp only [Host.dotGeneral]
  rw [Ideal.dotGeneral_apply, ← Equiv.sum_comp (ValueIdx.contrEquiv1 dot_S3x4096x512_S3x512x512_S3x4096x512_2_2_1_1_0_0 512 rfl rfl).symm]
  refine Finset.sum_congr rfl fun k _ => ?_
  have hk := ValueIdx.contrEquiv1_symm_val dot_S3x4096x512_S3x512x512_S3x4096x512_2_2_1_1_0_0 512 rfl rfl k
  have el : dot_S3x4096x512_S3x512x512_S3x4096x512_2_2_1_1_0_0.lhsIdx (ix3 t n g) ((ValueIdx.contrEquiv1 dot_S3x4096x512_S3x512x512_S3x4096x512_2_2_1_1_0_0 512 rfl rfl).symm k) = ix3 t n k := funext fun a => Fin.ext (by
    match a with
    | ⟨0, _⟩ => exact dense_lhs_0 _ _
    | ⟨1, _⟩ => exact dense_lhs_1 _ _
    | ⟨2, _⟩ => exact (dense_lhs_2 _ _).trans hk)
  have er : dot_S3x4096x512_S3x512x512_S3x4096x512_2_2_1_1_0_0.rhsIdx (ix3 t n g) ((ValueIdx.contrEquiv1 dot_S3x4096x512_S3x512x512_S3x4096x512_2_2_1_1_0_0 512 rfl rfl).symm k) = ix3 t g k := funext fun a => Fin.ext (by
    match a with
    | ⟨0, _⟩ => exact dense_rhs_0 _ _
    | ⟨1, _⟩ => exact dense_rhs_1 _ _
    | ⟨2, _⟩ => exact (dense_rhs_2 _ _).trans hk)
  rw [el, er]

/-- Per block, a row of the block's adjacency against a column of the block's features: the sum over the 4096 nodes. -/
theorem aggregate_apply (a : Arr Ideal S3x4096x4096) (h : Arr Ideal S3x4096x512) (t : Fin 3) (i : Fin 4096) (g : Fin 512) :
    aggregate a h (ix3 t i g) = ∑ j : Fin 4096, a (ix3 t i j) * h (ix3 t j g) := by
  unfold aggregate
  simp only [Host.dotGeneral]
  rw [Ideal.dotGeneral_apply, ← Equiv.sum_comp (ValueIdx.contrEquiv1 dot_S3x4096x4096_S3x4096x512_S3x4096x512_2_1_1_2_0_0 4096 rfl rfl).symm]
  refine Finset.sum_congr rfl fun k _ => ?_
  have hk := ValueIdx.contrEquiv1_symm_val dot_S3x4096x4096_S3x4096x512_S3x4096x512_2_1_1_2_0_0 4096 rfl rfl k
  have el : dot_S3x4096x4096_S3x4096x512_S3x4096x512_2_1_1_2_0_0.lhsIdx (ix3 t i g) ((ValueIdx.contrEquiv1 dot_S3x4096x4096_S3x4096x512_S3x4096x512_2_1_1_2_0_0 4096 rfl rfl).symm k) = ix3 t i k := funext fun a => Fin.ext (by
    match a with
    | ⟨0, _⟩ => exact agg_lhs_0 _ _
    | ⟨1, _⟩ => exact agg_lhs_1 _ _
    | ⟨2, _⟩ => exact (agg_lhs_2 _ _).trans hk)
  have er : dot_S3x4096x4096_S3x4096x512_S3x4096x512_2_1_1_2_0_0.rhsIdx (ix3 t i g) ((ValueIdx.contrEquiv1 dot_S3x4096x4096_S3x4096x512_S3x4096x512_2_1_1_2_0_0 4096 rfl rfl).symm k) = ix3 t k g := funext fun a => Fin.ext (by
    match a with
    | ⟨0, _⟩ => exact agg_rhs_0 _ _
    | ⟨1, _⟩ => exact (agg_rhs_1 _ _).trans hk
    | ⟨2, _⟩ => exact agg_rhs_2 _ _)
  rw [el, er]

/-- A row of side-by-side features against a column of the transposed weights: the sum over the 1536 columns. -/
theorem classDot_apply (f : Arr Ideal S4096x1536) (wt : Arr Ideal S1536x32) (i : Fin 4096) (c : Fin 32) :
    classDot f wt (ix2 i c) = ∑ j : Fin 1536, f (ix2 i j) * wt (ix2 j c) := by
  unfold classDot
  simp only [Host.dotGeneral]
  rw [Ideal.dotGeneral_apply, ← Equiv.sum_comp (ValueIdx.contrEquiv1 dot_S4096x1536_S1536x32_S4096x32_1_0_0_1_n_n 1536 rfl rfl).symm]
  refine Finset.sum_congr rfl fun k _ => ?_
  have hk := ValueIdx.contrEquiv1_symm_val dot_S4096x1536_S1536x32_S4096x32_1_0_0_1_n_n 1536 rfl rfl k
  have el : dot_S4096x1536_S1536x32_S4096x32_1_0_0_1_n_n.lhsIdx (ix2 i c) ((ValueIdx.contrEquiv1 dot_S4096x1536_S1536x32_S4096x32_1_0_0_1_n_n 1536 rfl rfl).symm k) = ix2 i k := funext fun a => Fin.ext (by
    match a with
    | ⟨0, _⟩ => exact cls_lhs_0 _ _
    | ⟨1, _⟩ => exact (cls_lhs_1 _ _).trans hk)
  have er : dot_S4096x1536_S1536x32_S4096x32_1_0_0_1_n_n.rhsIdx (ix2 i c) ((ValueIdx.contrEquiv1 dot_S4096x1536_S1536x32_S4096x32_1_0_0_1_n_n 1536 rfl rfl).symm k) = ix2 k c := funext fun a => Fin.ext (by
    match a with
    | ⟨0, _⟩ => exact (cls_rhs_0 _ _).trans hk
    | ⟨1, _⟩ => exact cls_rhs_1 _ _)
  rw [el, er]

/-! ## The layers -/

/-- A dense layer with bias and rectifier, at (block, row, feature). -/
theorem denseRelu_apply (y : Arr Ideal S3x4096x512) (w : Arr Ideal S3x512x512) (b : Arr Ideal S3x512) (t : Fin 3) (n : Fin 4096)
    (g : Fin 512) :
    denseRelu y w b (ix3 t n g) = max ((∑ f : Fin 512, y (ix3 t n f) * w (ix3 t g f)) + b (ix2 t g)) zeroWord := by
  show max (dense y w (ix3 t n g) + biasRows b (ix3 t n g)) (zeros3 (F := Ideal) (ix3 t n g)) = _
  rw [dense_apply, biasRows_apply, zeros3_apply]

/-- The first dense layer over the blocks of `x` is the specification's. -/
theorem convRelu_eq (x : Arr Ideal S12288x512) (w : Arr Ideal S3x512x512) (b : Arr Ideal S3x512) :
    arr3 (denseRelu (xBlocks x) w b) = convRelu (arr2 x) (arr3 w) (arr2 b) := by
  funext t n g
  show denseRelu (xBlocks x) w b (ix3 t n g) = _
  rw [denseRelu_apply]
  simp only [xBlocks_apply]
  rfl

/-- The aggregation over the blocks of the adjacency is the specification's. -/
theorem spmm_eq (a : Arr Ideal S12288x12288) (h : Arr Ideal S3x4096x512) :
    arr3 (aggregate (adjBlocks a) h) = spmm (arr2 a) (arr3 h) := by
  funext t i g
  show aggregate (adjBlocks a) h (ix3 t i g) = _
  rw [aggregate_apply]
  simp only [adjBlocks_apply]
  rfl

/-- The second dense layer is the specification's. -/
theorem sageRelu_eq (m : Arr Ideal S3x4096x512) (w : Arr Ideal S3x512x512) (b : Arr Ideal S3x512) :
    arr3 (denseRelu m w b) = sageRelu (arr3 m) (arr3 w) (arr2 b) := by
  funext t i g
  show denseRelu m w b (ix3 t i g) = _
  rw [denseRelu_apply]
  rfl

/-- The final linear layer is the specification's. -/
theorem logits_eq (h : Arr Ideal S3x4096x512) (w : Arr Ideal S32x1536) (b : Arr Ideal S32) :
    arr2 (linear h w b) = logits (arr3 h) (arr2 w) (arr1 b) := by
  funext i c
  show classDot (sideBySide h) (weightT w) (ix2 i c) + biasCols b (ix2 i c) = _
  rw [classDot_apply, biasCols_apply]
  simp only [sideBySide_apply, weightT_apply]
  rfl

/-! ## The row-wise log-softmax -/

/-- The fold of the maximum over a row, from the -∞ word. -/
theorem rowMaxFold_apply (z : Arr Ideal S4096x32) (i : Fin 4096) :
    rowMaxFold z (ix1 i) = (Finset.univ : Finset (Fin 32)).fold max negInfWord (fun c => z (ix2 i c)) := by
  unfold rowMaxFold
  refine (Host.reduce_eq_fold_single (FloatOps.maximumf (F := Ideal) (φ := .f32)) z _ reducesTo_S4096x32_S4096_d1 (by decide) h_S_
    (ix1 i)).trans ?_
  exact Finset.fold_congr fun k _ =>
    congrArg z (funext fun a => Fin.ext (by match a with | ⟨0, _⟩ => rfl | ⟨1, _⟩ => rfl))

/-- The row maxima are the specification's: the outer maximum with the starting value changes nothing. -/
theorem rowMaxes_apply (z : Arr Ideal S4096x32) (i : Fin 4096) : rowMaxes z (ix1 i) = rowMax (arr2 z) i := by
  show max (negInfs (F := Ideal) (ix1 i)) (rowMaxFold z (ix1 i)) = _
  rw [negInfs_apply, rowMaxFold_apply]
  exact max_eq_right ((Finset.le_fold_max _).2 (Or.inl le_rfl))

/-- A row shifted by its maximum. -/
theorem shifted_apply (z : Arr Ideal S4096x32) (i : Fin 4096) (c : Fin 32) :
    shifted z (ix2 i c) = z (ix2 i c) - rowMax (arr2 z) i := by
  show z (ix2 i c) - acrossClasses (asColumn (rowMaxes z)) (ix2 i c) = _
  rw [acrossClasses_apply, asColumn_apply, rowMaxes_apply]

/-- The sum over a row, from the zero word: the plain sum. -/
theorem rowSums_apply (e : Arr Ideal S4096x32) (i : Fin 4096) : rowSums e (ix1 i) = ∑ c : Fin 32, e (ix2 i c) := by
  unfold rowSums
  simp only [Host.reduceAdd, Ideal.hostReduceAdd_def]
  rw [Ideal.hostReduceAdd_single reducesTo_S4096x32_S4096_d1 (by decide)]
  show Ideal.ofBits .f32 0x00000000#32 + _ = _
  rw [Ideal.ofBits_zero_f32, zero_add]
  refine Finset.sum_congr rfl fun k _ => ?_
  exact congrArg e (funext fun a => Fin.ext (by match a with | ⟨0, _⟩ => rfl | ⟨1, _⟩ => rfl))

/-- A row minus the logarithm of its sum of exponentials. -/
theorem normalized_apply (s : Arr Ideal S4096x32) (i : Fin 4096) (c : Fin 32) :
    normalized s (ix2 i c) = s (ix2 i c) - Ideal.log (∑ c' : Fin 32, Ideal.exp (s (ix2 i c'))) := by
  unfold normalized
  rw [subf_apply, acrossClasses_apply]
  show s (ix2 i c) - Ideal.log (asColumn (F := Ideal) (rowSums (F := Ideal) (Host.exp (F := Ideal) s)) (ix2 i (0 : Fin 1))) = _
  rw [asColumn_apply, rowSums_apply]
  rfl

/-- The shift and the normalization together are the specification's log-softmax. -/
theorem logSoftmax_eq (z : Arr Ideal S4096x32) : arr2 (normalized (shifted z)) = logSoftmax (arr2 z) := by
  funext i c
  show normalized (shifted z) (ix2 i c) = _
  rw [normalized_apply]
  simp only [shifted_apply]
  rfl

/-! ## The whole result -/

/-- The reference's result, as a function of the arguments' contents, is the specification's. -/
theorem resOf_eq_out (x : Arr Ideal S12288x512) (a : Arr Ideal S12288x12288) (wc : Arr Ideal S3x512x512) (bc : Arr Ideal S3x512)
    (ws : Arr Ideal S3x512x512) (bs : Arr Ideal S3x512) (wl : Arr Ideal S32x1536) (bl : Arr Ideal S32) :
    arr2 (resOf x a wc bc ws bs wl bl)
      = out (arr2 x) (arr2 a) (arr3 wc) (arr2 bc) (arr3 ws) (arr2 bs) (arr2 wl) (arr1 bl) := by
  unfold resOf out
  rw [logSoftmax_eq, logits_eq, sageRelu_eq, spmm_eq, convRelu_eq]

/-- On every device the reference's named result, read at natural coordinates, is the specification's function of the
    eight float arguments' launch contents read at natural coordinates. -/
theorem res_eq_out (m : (ℓ : Loc nD τ sig) → Buf (Elt Ideal) ℓ) (c : Dev nD) :
    arr2 (res (F := Ideal) m c)
      = out (arr2 (m ((c.tc : Thread nD τ).loc main_arg0))) (arr2 (m ((c.tc : Thread nD τ).loc main_arg1)))
          (arr3 (m ((c.tc : Thread nD τ).loc main_arg3))) (arr2 (m ((c.tc : Thread nD τ).loc main_arg4)))
          (arr3 (m ((c.tc : Thread nD τ).loc main_arg5))) (arr2 (m ((c.tc : Thread nD τ).loc main_arg6)))
          (arr2 (m ((c.tc : Thread nD τ).loc main_arg7))) (arr1 (m ((c.tc : Thread nD τ).loc main_arg8))) :=
  resOf_eq_out _ _ _ _ _ _ _ _

/-- The same at one index. -/
theorem res_apply (m : (ℓ : Loc nD τ sig) → Buf (Elt Ideal) ℓ) (c : Dev nD) (i : Fin 4096) (k : Fin 32) :
    res (F := Ideal) m c (ix2 i k)
      = out (arr2 (m ((c.tc : Thread nD τ).loc main_arg0))) (arr2 (m ((c.tc : Thread nD τ).loc main_arg1)))
          (arr3 (m ((c.tc : Thread nD τ).loc main_arg3))) (arr2 (m ((c.tc : Thread nD τ).loc main_arg4)))
          (arr3 (m ((c.tc : Thread nD τ).loc main_arg5))) (arr2 (m ((c.tc : Thread nD τ).loc main_arg6)))
          (arr2 (m ((c.tc : Thread nD τ).loc main_arg7))) (arr1 (m ((c.tc : Thread nD τ).loc main_arg8))) i k :=
  congrFun (congrFun (res_eq_out m c) i) k

end Cert.ReferenceIdeal.RefValue

end
-- ==== Proof.Glue.Host.lean ====
/-
  The kernel program's six opening layout operations, read at natural coordinates.

  Before its three kernel regions the program re-cuts five of its arguments: the 12288 rows of `x` into three blocks of
  4096 rows; each of the two per-block bias matrices [3, 512] into [3, 1, 512]; the final weights [32, 1536] into
  [32, 3, 512] and then, with the block coordinate moved first, [3, 32, 512]; the class biases [32] into [1, 32]. Each
  re-cut array, read at an index, is the argument at the coordinates of the same linear position (moved, for the
  transposition). The adjacency and the two dense weight arrays are not touched.
-/
import proofs.«101938_j11553462026818_2_alg».proof.Proof.KI.Main
import proofs.«101938_j11553462026818_2_alg».proof.Proof.Spec
import Idealize.ShloMosaic.Lib.Pipeline.Value
import Idealize.ShloMosaic.Lib.ValueIdx

noncomputable section

namespace Cert.KernelIdeal.Glue

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ) (ρ : Dev nD → PrngReg)

/-! ## The column of the 1536 side-by-side features that block `t`, feature `h` is -/

/-- Column `512 t + h` of 1536. -/
def sideCol (t : Fin 3) (h : Fin 512) : Fin 1536 := ⟨512 * t.val + h.val, by omega⟩

/-- Its block is `t`. -/
theorem featRel_sideCol (t : Fin 3) (h : Fin 512) : RelGraph.featRel (sideCol t h) = t :=
  Fin.ext (by have := h.isLt; show (512 * t.val + h.val) / 512 = t.val; omega)

/-- Its feature within the block is `h`. -/
theorem featCol_sideCol (t : Fin 3) (h : Fin 512) : RelGraph.featCol (sideCol t h) = h :=
  Fin.ext (by have := h.isLt; show (512 * t.val + h.val) % 512 = h.val; omega)

/-! ## What the six operations leave, as whole-array terms of the launch contents -/

theorem bnd1_v0 (c : Dev nD) :
    bnd1 m ρ c (Proc.devRef .tc main_v0)
      = shapeCast _ (m ((c : Thread nD τ).loc main_arg0)) shapeCasts_S12288x512_S3x4096x512 := by
  show after hostOps0 (bnd0 m ρ c) (Proc.devRef .tc main_v0) = _
  after_results_simp <;> rfl

theorem bnd1_v1 (c : Dev nD) :
    bnd1 m ρ c (Proc.devRef .tc main_v1)
      = shapeCast _ (m ((c : Thread nD τ).loc main_arg4)) shapeCasts_S3x512_S3x1x512 := by
  show after hostOps0 (bnd0 m ρ c) (Proc.devRef .tc main_v1) = _
  after_results_simp <;> rfl

theorem bnd1_v2 (c : Dev nD) :
    bnd1 m ρ c (Proc.devRef .tc main_v2)
      = shapeCast _ (m ((c : Thread nD τ).loc main_arg6)) shapeCasts_S3x512_S3x1x512 := by
  show after hostOps0 (bnd0 m ρ c) (Proc.devRef .tc main_v2) = _
  after_results_simp <;> rfl

theorem bnd1_v4 (c : Dev nD) :
    bnd1 m ρ c (Proc.devRef .tc main_v4)
      = transpose S3x32x512 [1, 0, 2] (shapeCast _ (m ((c : Thread nD τ).loc main_arg7)) shapeCasts_S32x1536_S32x3x512)
          transposes_S32x3x512_S3x32x512_1_0_2 := by
  show after hostOps0 (bnd0 m ρ c) (Proc.devRef .tc main_v4) = _
  after_results_simp <;> rfl

theorem bnd1_v5 (c : Dev nD) :
    bnd1 m ρ c (Proc.devRef .tc main_v5)
      = shapeCast _ (m ((c : Thread nD τ).loc main_arg8)) shapeCasts_S32_S1x32 := by
  show after hostOps0 (bnd0 m ρ c) (Proc.devRef .tc main_v5) = _
  after_results_simp <;> rfl

/-! ## The same, read at an index -/

/-- Block `t`, row `n` of the re-cut `x` is row `4096 t + n` of `x`. -/
theorem at1_v0 (c : Dev nD) (t : Fin 3) (n : Fin 4096) (f : Fin 512) :
    at1 m ρ c main_v0 (ix3 t n f) = m ((c : Thread nD τ).loc main_arg0) (ix2 (RelGraph.blockRow t n) f) := by
  show bnd1 m ρ c (Proc.devRef .tc main_v0) (ix3 t n f) = _
  rw [bnd1_v0]
  exact shapeCast_apply _ shapeCasts_S12288x512_S3x4096x512 (ix3 t n f) (ix2 (RelGraph.blockRow t n) f)
    (by rewrite [Shape.rowMajor_val_two, Shape.rowMajor_val_three]
        show (t.val * 4096 + n.val) * 512 + f.val = (t.val * 4096 + n.val) * 512 + f.val; rfl)

/-- The first bias matrix with a unit middle axis reads the bias at (block, feature). -/
theorem at1_v1 (c : Dev nD) (t : Fin 3) (g : Fin 512) :
    at1 m ρ c main_v1 (ix3 t (0 : Fin 1) g) = m ((c : Thread nD τ).loc main_arg4) (ix2 t g) := by
  show bnd1 m ρ c (Proc.devRef .tc main_v1) (ix3 t (0 : Fin 1) g) = _
  rw [bnd1_v1]
  exact shapeCast_apply _ shapeCasts_S3x512_S3x1x512 (ix3 t (0 : Fin 1) g) (ix2 t g)
    (by rewrite [Shape.rowMajor_val_two, Shape.rowMajor_val_three]
        show t.val * 512 + g.val = (t.val * 1 + 0) * 512 + g.val; omega)

/-- The second bias matrix with a unit middle axis reads the bias at (block, feature). -/
theorem at1_v2 (c : Dev nD) (t : Fin 3) (g : Fin 512) :
    at1 m ρ c main_v2 (ix3 t (0 : Fin 1) g) = m ((c : Thread nD τ).loc main_arg6) (ix2 t g) := by
  show bnd1 m ρ c (Proc.devRef .tc main_v2) (ix3 t (0 : Fin 1) g) = _
  rw [bnd1_v2]
  exact shapeCast_apply _ shapeCasts_S3x512_S3x1x512 (ix3 t (0 : Fin 1) g) (ix2 t g)
    (by rewrite [Shape.rowMajor_val_two, Shape.rowMajor_val_three]
        show t.val * 512 + g.val = (t.val * 1 + 0) * 512 + g.val; omega)

/-- Block `t` of the final weights at (class, feature) is the weights at (class, column `512 t + feature`). -/
theorem at1_v4 (c : Dev nD) (t : Fin 3) (cc : Fin 32) (h : Fin 512) :
    at1 m ρ c main_v4 (ix3 t cc h) = m ((c : Thread nD τ).loc main_arg7) (ix2 cc (sideCol t h)) := by
  show bnd1 m ρ c (Proc.devRef .tc main_v4) (ix3 t cc h) = _
  rw [bnd1_v4]
  refine (transpose_apply [1, 0, 2] _ transposes_S32x3x512_S3x32x512_1_0_2 (ix3 t cc h) (ix3 cc t h) (fun b => match b with
    | ⟨0, _⟩ => rfl
    | ⟨1, _⟩ => rfl
    | ⟨2, _⟩ => rfl)).trans ?_
  exact shapeCast_apply _ shapeCasts_S32x1536_S32x3x512 (ix3 cc t h) (ix2 cc (sideCol t h))
    (by rewrite [Shape.rowMajor_val_two, Shape.rowMajor_val_three]
        show cc.val * 1536 + (512 * t.val + h.val) = (cc.val * 3 + t.val) * 512 + h.val; omega)

/-- The class biases as one row read the bias at the class. -/
theorem at1_v5 (c : Dev nD) (cc : Fin 32) :
    at1 m ρ c main_v5 (ix2 (0 : Fin 1) cc) = m ((c : Thread nD τ).loc main_arg8) (ix1 cc) := by
  show bnd1 m ρ c (Proc.devRef .tc main_v5) (ix2 (0 : Fin 1) cc) = _
  rw [bnd1_v5]
  exact shapeCast_apply _ shapeCasts_S32_S1x32 (ix2 (0 : Fin 1) cc) (ix1 cc)
    (by rewrite [Shape.rowMajor_val_one, Shape.rowMajor_val_two]
        show cc.val = 0 * 32 + cc.val; omega)

/-! ## The arguments the six operations do not touch -/

/-- The adjacency is as launched. -/
theorem at1_arg1 (c : Dev nD) : at1 m ρ c main_arg1 = m ((c : Thread nD τ).loc main_arg1) :=
  after_of_writes_sub hostOps0 _ hostOps0_writes' (by decide)

/-- The first dense weights are as launched. -/
theorem at1_arg3 (c : Dev nD) : at1 m ρ c main_arg3 = m ((c : Thread nD τ).loc main_arg3) :=
  after_of_writes_sub hostOps0 _ hostOps0_writes' (by decide)

/-- The second dense weights are as launched. -/
theorem at1_arg5 (c : Dev nD) : at1 m ρ c main_arg5 = m ((c : Thread nD τ).loc main_arg5) :=
  after_of_writes_sub hostOps0 _ hostOps0_writes' (by decide)

end Cert.KernelIdeal.Glue

end
-- ==== Proof.KI.Pieces.lean ====
/-
  What each body run leaves, as the body's arithmetic applied to the input blocks. The stores a run finds are all of
  whole blocks, so reading them back gives the last store's value; a load of the accumulator that follows a store of
  it in the same run reads what was stored. Hence: in the first region the output block is its one value of the three
  input blocks; in the two reducing regions the accumulator after a first step is one product added to zero, after a
  later step one product added to what the previous step left, and the output block at a last step is the finishing
  arithmetic applied to the accumulator that step leaves.
-/
import proofs.«101938_j11553462026818_2_alg».proof.Proof.KI.F1
import proofs.«101938_j11553462026818_2_alg».proof.Proof.KI.F2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The 1024 rows of the resident feature slab that the reduction step at grid point `i` multiplies by. -/
def slab1 (i : grid1.Coords) (x1 : Vec F S1x4096x512 .bf16) : Vec F S1x1024x512 .bf16 :=
  View.ld x1 (Rect.unit (s := S1x4096x512) (k1_off1 i) S1x1024x512.size (k1_off1_inb i))

theorem out0_3_eq (x0 : Vec F S1x1024x512 .f32) (x1 : Vec F S1x512x512 .f32) (x2 : Vec F S1x1x512 .f32) :
    out0_3 x0 x1 x2 = k0_pay1 x0 x1 x2 := by
  unfold out0_3
  rw [View.canon_unit_zero hz3]
  simp only [View.ld_unit_zero (S := S1x1024x512) hz3, View.ld_unit_zero (S := S1x512x512) hz3, View.ld_unit_zero (S := S1x1x512) hz3]

theorem sout1_A_eq (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : cond1_0 i) (hc1 : ¬cond1_1 i) (x0 : Vec F S1024x1024 .f32) (x1 : Vec F S1x4096x512 .bf16) (x2 : Vec F S1x512x512 .f32) (x3 : Vec F S1x1x512 .f32) :
    sout1_A c i arg3 harg3 arg4 harg4 arg5 harg5 arg6 harg6 arg7 harg7 arg8 harg8 hc0 hc1 x0 x1 x2 x3 = k1_pay2 x0 (slab1 i x1) (k1_pay1 (F := F)) := by
  unfold sout1_A
  rw [View.read_writes_eq_canon _ _ _ (scover1_A c i arg3 harg3 arg4 harg4 arg5 harg5 arg6 harg6 arg7 harg7 arg8 harg8 hc0 hc1 x0 x1 x2 x3)]
  unfold kernelRun1_A
  dsimp only
  try sl_unfold_words
  rw [View.canon_cons_unit_zero hz2]
  simp only [View.readAt_eq_ld, harg3.read_unread, harg4.read_unread, harg5.read_unread, harg6.read_unread, harg8.read_unread, View.readCov_unit_zero (S := S1024x512) _ hz2, View.ld_unit_zero (S := S1024x1024) hz2, View.ld_unit_zero (S := S1x512x512) hz3, View.ld_unit_zero (S := S1x1x512) hz3, View.ld_unit_zero (S := S1024x512) hz2]
  all_goals (first | rfl | (unfold slab1; rfl))

theorem sout1_B_eq (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : ¬cond1_0 i) (hc1 : ¬cond1_1 i) (x0 : Vec F S1024x1024 .f32) (x1 : Vec F S1x4096x512 .bf16) (x2 : Vec F S1x512x512 .f32) (x3 : Vec F S1x1x512 .f32) (xs0 : Vec F S1024x512 .f32) :
    sout1_B c i arg3 harg3 arg4 harg4 arg5 harg5 arg6 harg6 arg7 harg7 arg8 harg8 hc0 hc1 x0 x1 x2 x3 xs0 = k1_pay2 x0 (slab1 i x1) xs0 := by
  unfold sout1_B
  rw [View.read_writes_eq_canon _ _ _ (scover1_B c i arg3 harg3 arg4 harg4 arg5 harg5 arg6 harg6 arg7 harg7 arg8 harg8 hc0 hc1 x0 x1 x2 x3 xs0)]
  unfold kernelRun1_B
  dsimp only
  try sl_unfold_words
  rw [View.canon_cons_unit_zero hz2]
  simp only [View.readAt_eq_ld, harg3.read_unread, harg4.read_unread, harg5.read_unread, harg6.read_unread, harg8.read_unread, View.readCov_unit_zero (S := S1024x512) _ hz2, View.ld_unit_zero (S := S1024x1024) hz2, View.ld_unit_zero (S := S1x512x512) hz3, View.ld_unit_zero (S := S1x1x512) hz3, View.ld_unit_zero (S := S1024x512) hz2]
  all_goals (first | rfl | (unfold slab1; rfl))

theorem sout1_C_eq (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : ¬cond1_0 i) (hc1 : cond1_1 i) (x0 : Vec F S1024x1024 .f32) (x1 : Vec F S1x4096x512 .bf16) (x2 : Vec F S1x512x512 .f32) (x3 : Vec F S1x1x512 .f32) (xs0 : Vec F S1024x512 .f32) :
    sout1_C c i arg3 harg3 arg4 harg4 arg5 harg5 arg6 harg6 arg7 harg7 arg8 harg8 hc0 hc1 x0 x1 x2 x3 xs0 = k1_pay2 x0 (slab1 i x1) xs0 := by
  unfold sout1_C
  rw [View.read_writes_eq_canon _ _ _ (scover1_C c i arg3 harg3 arg4 harg4 arg5 harg5 arg6 harg6 arg7 harg7 arg8 harg8 hc0 hc1 x0 x1 x2 x3 xs0)]
  unfold kernelRun1_C
  dsimp only
  try sl_unfold_words
  rw [View.canon_cons_unit_zero hz2]
  simp only [View.readAt_eq_ld, harg3.read_unread, harg4.read_unread, harg5.read_unread, harg6.read_unread, harg8.read_unread, View.readCov_unit_zero (S := S1024x512) _ hz2, View.ld_unit_zero (S := S1024x1024) hz2, View.ld_unit_zero (S := S1x512x512) hz3, View.ld_unit_zero (S := S1x1x512) hz3, View.ld_unit_zero (S := S1024x512) hz2]
  all_goals (first | rfl | (unfold slab1; rfl))

theorem out1_C_eq (c : Dev nD) (i : grid1.Coords) (arg3 : Memref sig .tc .vmem S1024x1024 .f32) (harg3 : arg3.IsWhole) (arg4 : Memref sig .tc .vmem S1x4096x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1024x512 .f32) (harg8 : arg8.IsWhole) (hc0 : ¬cond1_0 i) (hc1 : cond1_1 i) (x0 : Vec F S1024x1024 .f32) (x1 : Vec F S1x4096x512 .bf16) (x2 : Vec F S1x512x512 .f32) (x3 : Vec F S1x1x512 .f32) (xs0 : Vec F S1024x512 .f32) :
    out1_C c i arg3 harg3 arg4 harg4 arg5 harg5 arg6 harg6 arg7 harg7 arg8 harg8 hc0 hc1 x0 x1 x2 x3 xs0 = k1_pay3 (k1_pay2 x0 (slab1 i x1) xs0) x2 x3 := by
  unfold out1_C
  rw [View.read_writes_eq_canon _ _ _ (cover1_C c i arg3 harg3 arg4 harg4 arg5 harg5 arg6 harg6 arg7 harg7 arg8 harg8 hc0 hc1 x0 x1 x2 x3 xs0)]
  unfold kernelRun1_C
  dsimp only
  try sl_unfold_words
  rw [View.canon_cons_unit_zero hz3]
  simp only [View.readAt_eq_ld, harg3.read_unread, harg4.read_unread, harg5.read_unread, harg6.read_unread, harg8.read_unread, View.readCov_unit_zero (S := S1024x512) _ hz2, View.ld_unit_zero (S := S1024x1024) hz2, View.ld_unit_zero (S := S1x512x512) hz3, View.ld_unit_zero (S := S1x1x512) hz3, View.ld_unit_zero (S := S1024x512) hz2]
  all_goals (first | rfl | (unfold slab1; rfl))

theorem sout2_A_eq (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : cond2_0 i) (hc1 : ¬cond2_1 i) (x0 : Vec F S1x4096x512 .bf16) (x1 : Vec F S1x32x512 .f32) (x2 : Vec F S1x32 .f32) :
    sout2_A c i arg2 harg2 arg3 harg3 arg4 harg4 arg5 harg5 arg6 harg6 hc0 hc1 x0 x1 x2 = k2_pay2 x0 x1 (k2_pay1 (F := F)) := by
  unfold sout2_A
  rw [View.read_writes_eq_canon _ _ _ (scover2_A c i arg2 harg2 arg3 harg3 arg4 harg4 arg5 harg5 arg6 harg6 hc0 hc1 x0 x1 x2)]
  unfold kernelRun2_A
  dsimp only
  try sl_unfold_words
  rw [View.canon_cons_unit_zero hz2]
  simp only [View.readAt_eq_ld, harg2.read_unread, harg3.read_unread, harg4.read_unread, harg6.read_unread, View.readCov_unit_zero (S := S4096x32) _ hz2, View.ld_unit_zero (S := S1x4096x512) hz3, View.ld_unit_zero (S := S1x32x512) hz3, View.ld_unit_zero (S := S1x32) hz2, View.ld_unit_zero (S := S4096x32) hz2]
  all_goals (first | rfl | (unfold slab1; rfl))

theorem sout2_B_eq (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : ¬cond2_0 i) (hc1 : ¬cond2_1 i) (x0 : Vec F S1x4096x512 .bf16) (x1 : Vec F S1x32x512 .f32) (x2 : Vec F S1x32 .f32) (xs0 : Vec F S4096x32 .f32) :
    sout2_B c i arg2 harg2 arg3 harg3 arg4 harg4 arg5 harg5 arg6 harg6 hc0 hc1 x0 x1 x2 xs0 = k2_pay2 x0 x1 xs0 := by
  unfold sout2_B
  rw [View.read_writes_eq_canon _ _ _ (scover2_B c i arg2 harg2 arg3 harg3 arg4 harg4 arg5 harg5 arg6 harg6 hc0 hc1 x0 x1 x2 xs0)]
  unfold kernelRun2_B
  dsimp only
  try sl_unfold_words
  rw [View.canon_cons_unit_zero hz2]
  simp only [View.readAt_eq_ld, harg2.read_unread, harg3.read_unread, harg4.read_unread, harg6.read_unread, View.readCov_unit_zero (S := S4096x32) _ hz2, View.ld_unit_zero (S := S1x4096x512) hz3, View.ld_unit_zero (S := S1x32x512) hz3, View.ld_unit_zero (S := S1x32) hz2, View.ld_unit_zero (S := S4096x32) hz2]
  all_goals (first | rfl | (unfold slab1; rfl))

theorem sout2_C_eq (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : ¬cond2_0 i) (hc1 : cond2_1 i) (x0 : Vec F S1x4096x512 .bf16) (x1 : Vec F S1x32x512 .f32) (x2 : Vec F S1x32 .f32) (xs0 : Vec F S4096x32 .f32) :
    sout2_C c i arg2 harg2 arg3 harg3 arg4 harg4 arg5 harg5 arg6 harg6 hc0 hc1 x0 x1 x2 xs0 = k2_pay2 x0 x1 xs0 := by
  unfold sout2_C
  rw [View.read_writes_eq_canon _ _ _ (scover2_C c i arg2 harg2 arg3 harg3 arg4 harg4 arg5 harg5 arg6 harg6 hc0 hc1 x0 x1 x2 xs0)]
  unfold kernelRun2_C
  dsimp only
  try sl_unfold_words
  rw [View.canon_cons_unit_zero hz2]
  simp only [View.readAt_eq_ld, harg2.read_unread, harg3.read_unread, harg4.read_unread, harg6.read_unread, View.readCov_unit_zero (S := S4096x32) _ hz2, View.ld_unit_zero (S := S1x4096x512) hz3, View.ld_unit_zero (S := S1x32x512) hz3, View.ld_unit_zero (S := S1x32) hz2, View.ld_unit_zero (S := S4096x32) hz2]
  all_goals (first | rfl | (unfold slab1; rfl))

theorem out2_C_eq (c : Dev nD) (i : grid2.Coords) (arg2 : Memref sig .tc .vmem S1x4096x512 .bf16) (harg2 : arg2.IsWhole) (arg3 : Memref sig .tc .vmem S1x32x512 .f32) (harg3 : arg3.IsWhole) (arg4 : Memref sig .tc .vmem S1x32 .f32) (harg4 : arg4.IsWhole) (arg5 : Memref sig .tc .vmem S4096x32 .f32) (harg5 : arg5.IsWhole) (arg6 : Memref sig .tc .vmem S4096x32 .f32) (harg6 : arg6.IsWhole) (hc0 : ¬cond2_0 i) (hc1 : cond2_1 i) (x0 : Vec F S1x4096x512 .bf16) (x1 : Vec F S1x32x512 .f32) (x2 : Vec F S1x32 .f32) (xs0 : Vec F S4096x32 .f32) :
    out2_C c i arg2 harg2 arg3 harg3 arg4 harg4 arg5 harg5 arg6 harg6 hc0 hc1 x0 x1 x2 xs0 = k2_pay3 (k2_pay2 x0 x1 xs0) x2 := by
  unfold out2_C
  rw [View.read_writes_eq_canon _ _ _ (cover2_C c i arg2 harg2 arg3 harg3 arg4 harg4 arg5 harg5 arg6 harg6 hc0 hc1 x0 x1 x2 xs0)]
  unfold kernelRun2_C
  dsimp only
  try sl_unfold_words
  rw [View.canon_cons_unit_zero hz2]
  simp only [View.readAt_eq_ld, harg2.read_unread, harg3.read_unread, harg4.read_unread, harg6.read_unread, View.readCov_unit_zero (S := S4096x32) _ hz2, View.ld_unit_zero (S := S1x4096x512) hz3, View.ld_unit_zero (S := S1x32x512) hz3, View.ld_unit_zero (S := S1x32) hz2, View.ld_unit_zero (S := S4096x32) hz2]
  all_goals (first | rfl | (unfold slab1; rfl))

end Cert.KernelIdeal.Hand

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.Val.Dense.lean ====
/-
  One dense layer with a rectifier, read at a single output entry.

  Both hidden layers of the network end in the same step: a block of 1024 rows of 512 features is multiplied by
  the transpose of a 512 × 512 weight matrix, a bias row is added to every row, and negative entries are cut to
  zero. On the extended reals every change of float format along the way is the identity, the transpose only
  renames coordinates and the bias row is repeated down the rows, so entry (r, g) of the result is

      max( Σ_f X(r, f) · W(g, f) + b(g) , 0 ).

  The lemmas below say so for the product into the zero matrix and for the whole step, the result stored under
  a leading unit axis. The rectifier's zero is kept as the float word it is written as; a second form of the
  last lemma reads it as the number 0.
-/
import proofs.«101938_j11553462026818_2_alg».proof.Proof.Gen.KernelIdeal.Skeleton
import proofs.«101938_j11553462026818_2_alg».proof.Proof.LibPlainMatmul
import Idealize.ShloMosaic.Lib.ValueLayout

namespace Cert.KernelIdeal.PayValue

open Idealize.ShloMosaic Idealize.ShloMosaic.ValueIdx

/-- The product of a 1024 × 512 block with a 512 × 512 matrix, accumulated into zero: entry (r, g) is the sum
    over the shared axis of the row-r entries of the left factor times the column-g entries of the right. -/
theorem matmul_1024x512_512x512 {φ₁ φ₂ : FTy} (lhs : FVec Ideal S1024x512 φ₁) (rhs : FVec Ideal S512x512 φ₂)
    (r : Fin 1024) (g : Fin 512) :
    matmul dot_S1024x512_S512x512_S1024x512_1_0_0_1_n_n none lhs rhs (constant S1024x512 .f32 0x00000000#32) (ix2 r g)
      = ∑ k : Fin 512, lhs (ix2 r k) * rhs (ix2 k g) :=
  Cert.PlainMatmul.plain_apply lhs rhs r g

/-- The weight matrix as the product sees it: the leading unit axis dropped and the two axes exchanged, so that
    position (k, g) holds W(g, k). -/
theorem weightT_apply (w : FVec Ideal S1x512x512 .f32) (k g : Fin 512) :
    (transpose S512x512 [1, 0] (truncf (F := Ideal) .bf16 (shapeCast S512x512 w Gen.shapeCasts_S1x512x512_S512x512) Gen.bitsLt_bf16_f32)
        Gen.transposes_S512x512_p1_0_S512x512 (ix2 k g) : EReal)
      = w (ix3 (0 : Fin 1) g k) :=
  (transpose_ix2_apply _ _ k g).trans (shapeCast_1ab_ab_apply w _ g k)

/-- The bias row repeated down the 1024 rows: position (r, g) holds b(g). -/
theorem biasRows_apply (b : FVec Ideal S1x1x512 .f32) (r : Fin 1024) (g : Fin 512) :
    broadcastTo S1024x512 (shapeCast S1x512 b Gen.shapeCasts_S1x1x512_S1x512) Gen.broadcasts_S1x512_S1024x512 (ix2 r g)
      = b (ix3 (0 : Fin 1) (0 : Fin 1) g) :=
  (broadcastTo_1b_ab_apply _ _ r g).trans (shapeCast_1ab_ab_apply b _ (0 : Fin 1) g)

/-- THE DENSE STEP at (r, g): the product with the transposed weights, plus the bias, cut at the zero word. -/
theorem dense_relu_apply (X : FVec Ideal S1024x512 .f32) (w : FVec Ideal S1x512x512 .f32) (b : FVec Ideal S1x1x512 .f32)
    (u : Fin 1) (r : Fin 1024) (g : Fin 512) :
    (shapeCast S1x1024x512
        (truncf (F := Ideal) .bf16
          (maximumf
            (addf
              (matmul dot_S1024x512_S512x512_S1024x512_1_0_0_1_n_n none (truncf .bf16 X Gen.bitsLt_bf16_f32)
                (transpose S512x512 [1, 0]
                  (truncf .bf16 (shapeCast S512x512 w Gen.shapeCasts_S1x512x512_S512x512) Gen.bitsLt_bf16_f32)
                  Gen.transposes_S512x512_p1_0_S512x512)
                (constant S1024x512 .f32 0x00000000#32))
              (broadcastTo S1024x512 (shapeCast S1x512 b Gen.shapeCasts_S1x1x512_S1x512) Gen.broadcasts_S1x512_S1024x512))
            (broadcast S1024x512 (Scalar.ofBits .f32 0x00000000#32)))
          Gen.bitsLt_bf16_f32)
        Gen.shapeCasts_S1024x512_S1x1024x512 (ix3 u r g) : EReal)
      = max ((∑ f : Fin 512, X (ix2 r f) * w (ix3 (0 : Fin 1) g f)) + b (ix3 (0 : Fin 1) (0 : Fin 1) g))
          (Ideal.ofBits .f32 0x00000000#32) := by
  refine (shapeCast_ab_1ab_apply _ _ u r g).trans ?_
  show max (_ + _) (Ideal.ofBits .f32 0x00000000#32) = _
  rw [matmul_1024x512_512x512, biasRows_apply]
  refine congrArg (fun s => max (s + b (ix3 (0 : Fin 1) (0 : Fin 1) g)) (Ideal.ofBits .f32 0x00000000#32)) ?_
  exact Finset.sum_congr rfl fun k _ => congrArg (X (ix2 r k) * ·) (weightT_apply w k g)

end Cert.KernelIdeal.PayValue
-- ==== Proof.Val.Pay0.lean ====
/-
  The first hidden layer's arithmetic at one output entry.

  For one relation, a block of 1024 node rows x (with 512 input features each) meets that relation's 512 × 512
  weight matrix W and bias b. The value stored at row r, output feature g is

      max( Σ_f x(r, f) · W(g, f) + b(g) , 0 ),

  the sum running over the 512 input features. The block, the weights and the bias each arrive under a leading
  unit axis (the relation's slot), which every read below puts at coordinate 0; the stored block carries the
  same unit axis. The rectifier's zero is kept as the float word it is written as in the first form and read as
  the number 0 in the second.
-/
import proofs.«101938_j11553462026818_2_alg».proof.Proof.Val.Dense

namespace Cert.KernelIdeal.PayValue

open Idealize.ShloMosaic Idealize.ShloMosaic.ValueIdx

/-- The first layer's stored value at (r, g), the rectifier's zero as its word. -/
theorem k0_pay1_apply (x : Vec Ideal S1x1024x512 .f32) (w : Vec Ideal S1x512x512 .f32) (b : Vec Ideal S1x1x512 .f32)
    (u : Fin 1) (r : Fin 1024) (g : Fin 512) :
    (Gen.k0_pay1 (F := Ideal) x w b (ix3 u r g) : EReal)
      = max ((∑ f : Fin 512, x (ix3 (0 : Fin 1) r f) * w (ix3 (0 : Fin 1) g f)) + b (ix3 (0 : Fin 1) (0 : Fin 1) g))
          (Ideal.ofBits .f32 0x00000000#32) := by
  unfold Gen.k0_pay1
  refine (dense_relu_apply (shapeCast S1024x512 x Gen.shapeCasts_S1x1024x512_S1024x512) w b u r g).trans ?_
  refine congrArg (fun s => max (s + b (ix3 (0 : Fin 1) (0 : Fin 1) g)) (Ideal.ofBits .f32 0x00000000#32)) ?_
  exact Finset.sum_congr rfl fun f _ =>
    congrArg (· * w (ix3 (0 : Fin 1) g f)) (shapeCast_1ab_ab_apply x Gen.shapeCasts_S1x1024x512_S1024x512 r f)

/-- The same with the rectifier's zero read as the number 0. -/
theorem k0_pay1_apply_zero (x : Vec Ideal S1x1024x512 .f32) (w : Vec Ideal S1x512x512 .f32) (b : Vec Ideal S1x1x512 .f32)
    (u : Fin 1) (r : Fin 1024) (g : Fin 512) :
    (Gen.k0_pay1 (F := Ideal) x w b (ix3 u r g) : EReal)
      = max ((∑ f : Fin 512, x (ix3 (0 : Fin 1) r f) * w (ix3 (0 : Fin 1) g f)) + b (ix3 (0 : Fin 1) (0 : Fin 1) g)) 0 :=
  (k0_pay1_apply x w b u r g).trans (congrArg (max _) Ideal.ofBits_zero_f32)

end Cert.KernelIdeal.PayValue
-- ==== Proof.Val.Arr.lean ====
/-
  An array of extended reals read as the plain function of its index that it is.

  The contents of a buffer are a function on the buffer's own index type, whose entries live in the buffer's
  own element type; for a buffer of floats read on the extended reals both unfold to an index of a stated shape
  and to the extended reals. Writing `arr s X` for the contents `X` of a buffer of shape `s` states that reading
  once, so that entries can be added, multiplied and compared as the extended reals they are.
-/
import Idealize.ShloMosaic.PureOps.Ideal

namespace Cert.KernelIdeal.PayValue

open Idealize.ShloMosaic

/-- An array of extended reals of a stated shape, as the function of its index that it is. -/
abbrev arr (s : Shape) (X : s.Idx → EReal) : s.Idx → EReal := X

end Cert.KernelIdeal.PayValue
-- ==== Proof.Val.Final0.lean ====
/-
  The first hidden layer as one array.

  The first region walks a grid of 3 relations × 4 row tiles. At relation t and tile i it reads rows
  1024 i … 1024 i + 1023 of relation t's 4096 node rows, relation t's 512 × 512 weights and its bias row, and
  writes the dense-and-rectify step of those into the same rows of relation t's slice of the result. Every grid
  point writes its own block, the blocks tile the 3 × 4096 × 512 result, and what is written at row n = 1024 i + r,
  feature g of relation t is

      max( Σ_f x(t, n, f) · W(t, g, f) + b(t, 0, g) , 0 )

  of the arrays as the region finds them. So after the region the whole result array is that function of the three
  input arrays, entry by entry (`final0`). The point that covers entry (t, n, ·) is number 4 t + n / 1024.
-/
import proofs.«101938_j11553462026818_2_alg».proof.Proof.KI.R0
import proofs.«101938_j11553462026818_2_alg».proof.Proof.KI.Pieces
import proofs.«101938_j11553462026818_2_alg».proof.Proof.Val.Pay0
import proofs.«101938_j11553462026818_2_alg».proof.Proof.Val.Arr
import Idealize.ShloMosaic.Lib.Pipeline.Value

noncomputable section

namespace Cert.KernelIdeal.PayValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Entry (t, n, g) of the first hidden layer, from the node features, the weights and the biases as the region
    finds them. -/
def g0 (c : Dev nD) (t : Fin 3) (n : Fin 4096) (g : Fin 512) : EReal :=
  max ((∑ f : Fin 512, arr S3x4096x512 (V c main_v0) (ix3 t n f) * arr S3x512x512 (V c main_arg3) (ix3 t g f))
      + arr S3x1x512 (V c main_v1) (ix3 t (0 : Fin 1) g)) (Ideal.ofBits .f32 0x00000000#32)

/-- The first hidden layer as a function of the result array's index. -/
def G0 (c : Dev nD) : S3x4096x512.Idx → EReal := fun i => g0 V c (i 0) (i 1) (i 2)

/-- Where each window's block sits at grid point t: relation t / 4 everywhere, row tile t % 4 for the node rows and
    for the result, the whole of the other axes. -/
theorem idx_facts0 : ∀ t : Fin cfg0.N,
    win0_3.index t (0 : Fin 3) = t.val / 4 ∧ win0_3.index t (1 : Fin 3) = t.val % 4 ∧ win0_3.index t (2 : Fin 3) = 0
    ∧ win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

/-- The block of node rows at point t: row r of it is row 1024 (t % 4) + r of relation t / 4. -/
theorem iblk0_0_apply (c : Dev nD) (t : Fin cfg0.N) (u : Fin 1) (r : Fin 1024) (f : Fin 512) (T : Fin 3) (n : Fin 4096)
    (hT : T.val = t.val / 4) (hn : n.val = 1024 * (t.val % 4) + r.val) :
    (iblk0 V c 0 t : Vec Ideal S1x1024x512 .f32) (ix3 u r f) = arr S3x4096x512 (V c main_v0) (ix3 T n f) := by
  obtain ⟨-, -, -, e0, e1, e2, -⟩ := idx_facts0 t
  unfold iblk0
  rw [View.read_apply]
  show V c main_v0 _ = V c main_v0 _
  refine congrArg (V c main_v0) (funext fun a => Fin.ext ?_)
  have hu : u.val = 0 := by omega
  match a with
  | ⟨0, _⟩ => show win0_0.index t (0 : Fin 3) * 1 + 1 * u.val = T.val; omega
  | ⟨1, _⟩ => show win0_0.index t (1 : Fin 3) * 1024 + 1 * r.val = n.val; omega
  | ⟨2, _⟩ => show win0_0.index t (2 : Fin 3) * 512 + 1 * f.val = f.val; omega

/-- The block of weights at point t: relation t / 4's matrix. -/
theorem iblk0_1_apply (c : Dev nD) (t : Fin cfg0.N) (u : Fin 1) (g f : Fin 512) (T : Fin 3) (hT : T.val = t.val / 4) :
    (iblk0 V c 1 t : Vec Ideal S1x512x512 .f32) (ix3 u g f) = arr S3x512x512 (V c main_arg3) (ix3 T g f) := by
  obtain ⟨-, -, -, -, -, -, e0, e1, e2, -⟩ := idx_facts0 t
  unfold iblk0
  rw [View.read_apply]
  show V c main_arg3 _ = V c main_arg3 _
  refine congrArg (V c main_arg3) (funext fun a => Fin.ext ?_)
  have hu : u.val = 0 := by omega
  match a with
  | ⟨0, _⟩ => show win0_1.index t (0 : Fin 3) * 1 + 1 * u.val = T.val; omega
  | ⟨1, _⟩ => show win0_1.index t (1 : Fin 3) * 512 + 1 * g.val = g.val; omega
  | ⟨2, _⟩ => show win0_1.index t (2 : Fin 3) * 512 + 1 * f.val = f.val; omega

/-- The bias block at point t: relation t / 4's row. -/
theorem iblk0_2_apply (c : Dev nD) (t : Fin cfg0.N) (u v : Fin 1) (g : Fin 512) (T : Fin 3) (hT : T.val = t.val / 4) :
    (iblk0 V c 2 t : Vec Ideal S1x1x512 .f32) (ix3 u v g) = arr S3x1x512 (V c main_v1) (ix3 T (0 : Fin 1) g) := by
  obtain ⟨-, -, -, -, -, -, -, -, -, e0, e1, e2⟩ := idx_facts0 t
  unfold iblk0
  rw [View.read_apply]
  show V c main_v1 _ = V c main_v1 _
  refine congrArg (V c main_v1) (funext fun a => Fin.ext ?_)
  have hu : u.val = 0 := by omega
  have hv : v.val = 0 := by omega
  match a with
  | ⟨0, _⟩ => show win0_2.index t (0 : Fin 3) * 1 + 1 * u.val = T.val; omega
  | ⟨1, _⟩ => show win0_2.index t (1 : Fin 3) * 1 + 1 * v.val = 0; omega
  | ⟨2, _⟩ => show win0_2.index t (2 : Fin 3) * 512 + 1 * g.val = g.val; omega

/-- WHAT POINT t WRITES BACK is its block of the first hidden layer. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3, out0_3_eq]
  funext j
  obtain ⟨u, r, g, rfl⟩ : ∃ (u : Fin 1) (r : Fin 1024) (g : Fin 512), j = ix3 u r g := ⟨j 0, j 1, j 2, eq_ix3 j⟩
  have ht : t.val < 12 := lt_of_lt_of_eq t.isLt (show cfg0.N = 12 from N_0)
  obtain ⟨e0, e1, e2, -⟩ := idx_facts0 t
  have hu : u.val = 0 := by omega
  have hidx : ((cfg0.win 3).blk t).view.emb (ix3 u r g)
      = ix3 (⟨t.val / 4, by omega⟩ : Fin 3) (⟨1024 * (t.val % 4) + r.val, by omega⟩ : Fin 4096) g :=
    funext fun a => Fin.ext (by
      match a with
      | ⟨0, _⟩ => show win0_3.index t (0 : Fin 3) * 1 + 1 * u.val = t.val / 4; omega
      | ⟨1, _⟩ => show win0_3.index t (1 : Fin 3) * 1024 + 1 * r.val = 1024 * (t.val % 4) + r.val; omega
      | ⟨2, _⟩ => show win0_3.index t (2 : Fin 3) * 512 + 1 * g.val = g.val; omega)
  rw [View.read_apply, hidx]
  show _ = g0 V c ⟨t.val / 4, by omega⟩ ⟨1024 * (t.val % 4) + r.val, by omega⟩ g
  refine (k0_pay1_apply _ _ _ u r g).trans ?_
  unfold g0
  exact congrArg₂ max (congrArg₂ (· + ·) (Finset.sum_congr rfl fun f _ => congrArg₂ (· * ·)
      (iblk0_0_apply V c t 0 r f _ _ rfl rfl) (iblk0_1_apply V c t 0 g f _ rfl)) (iblk0_2_apply V c t 0 0 g _ rfl)) rfl

/-- An index of the result array is in point t's block iff each coordinate is in the block's range on its axis. -/
theorem mem_blk0 (t : Fin cfg0.N) (i : S3x4096x512.Idx) :
    i ∈ ((cfg0.win 3).blk t).view.set ↔ ∀ a : Fin 3, win0_3.index t a * S1x1024x512.size a ≤ (i a).val ∧ (i a).val < win0_3.index t a * S1x1024x512.size a + S1x1024x512.size a := by
  show i ∈ ((View.whole main_v6).slice (win0_3.rect t)).set ↔ _
  rw [View.set_slice_whole, Rect.mem_set_unit]
  exact Iff.rfl

/-- THE RESULT ARRAY after the region is the first hidden layer: every entry (t, n, ·) lies in the block of point
    4 t + n / 1024, and every point writes its block. -/
theorem final0 (c : Dev nD) : (dat0 (F := Ideal) V c).arrAt 3 cfg0.N = G0 V c :=
  (dat0 V c).arrAt_eq_of_cover 3 (G0 V c) (fun t _ => flushed0_eq V c t) fun i => by
    have h0 : (i 0).val < 3 := (i 0).isLt
    have h1 : (i 1).val < 4096 := (i 1).isLt
    have h2 : (i 2).val < 512 := (i 2).isLt
    have hN : cfg0.N = 12 := N_0
    refine ⟨⟨4 * (i 0).val + (i 1).val / 1024, by omega⟩, flush0_3 _, ?_⟩
    rw [mem_blk0]
    obtain ⟨e0, e1, e2, -⟩ := idx_facts0 ⟨4 * (i 0).val + (i 1).val / 1024, by omega⟩
    intro a
    match a with
    | ⟨0, _⟩ => show win0_3.index _ (0 : Fin 3) * 1 ≤ (i 0).val ∧ (i 0).val < win0_3.index _ (0 : Fin 3) * 1 + 1; rw [e0]; show (4 * (i 0).val + (i 1).val / 1024) / 4 * 1 ≤ _ ∧ _ < (4 * (i 0).val + (i 1).val / 1024) / 4 * 1 + 1; omega
    | ⟨1, _⟩ => show win0_3.index _ (1 : Fin 3) * 1024 ≤ (i 1).val ∧ (i 1).val < win0_3.index _ (1 : Fin 3) * 1024 + 1024; rw [e1]; show (4 * (i 0).val + (i 1).val / 1024) % 4 * 1024 ≤ _ ∧ _ < (4 * (i 0).val + (i 1).val / 1024) % 4 * 1024 + 1024; omega
    | ⟨2, _⟩ => show win0_3.index _ (2 : Fin 3) * 512 ≤ (i 2).val ∧ (i 2).val < win0_3.index _ (2 : Fin 3) * 512 + 512; rw [e2]; omega

end Cert.KernelIdeal.PayValue

end
-- ==== Proof.Val.Sums.lean ====
/-
  Sums over an index range cut into consecutive equal blocks.

  A sum over 4096 places is the sum of the four sums over its consecutive blocks of 1024 places, and a sum over
  1536 places is the sum of the three sums over its consecutive blocks of 512 places. The blockwise side is
  written the way a running total builds it: start from zero and add one block after another, left to right.
  Only associativity and commutativity of addition and the neutral zero are used, so the statements hold in any
  commutative additive monoid — the extended reals among them, with no finiteness asked.
-/
import Mathlib.Algebra.BigOperators.Fin
import Mathlib.Algebra.BigOperators.Intervals

namespace Cert.KernelIdeal.PayValue

variable {M : Type*} [AddCommMonoid M]

/-- A function on the first n naturals continued by zero to all naturals. -/
def natFn {n : ℕ} (f : Fin n → M) (i : ℕ) : M := if h : i < n then f ⟨i, h⟩ else 0

theorem natFn_of_lt {n : ℕ} (f : Fin n → M) {i : ℕ} (h : i < n) : natFn f i = f ⟨i, h⟩ := dif_pos h

/-- A sum over the first n naturals as a sum over a range of the continued function. -/
theorem sum_eq_sum_range {n : ℕ} (f : Fin n → M) : ∑ j : Fin n, f j = ∑ i ∈ Finset.range n, natFn f i := by
  rw [Finset.sum_range]
  exact Finset.sum_congr rfl fun j _ => (natFn_of_lt f j.isLt).symm

/-- One block of b consecutive places starting at o, inside the first n naturals. -/
theorem sum_range_block {n : ℕ} (f : Fin n → M) (o b : ℕ) (h : o + b ≤ n) :
    ∑ p ∈ Finset.range b, natFn f (o + p) = ∑ p : Fin b, f ⟨o + p.val, by omega⟩ := by
  rw [Finset.sum_range]
  exact Finset.sum_congr rfl fun p _ => natFn_of_lt f _

/-- FOUR BLOCKS OF 1024: the running total over the blocks is the sum over all 4096 places. -/
theorem sum_four_blocks (f : Fin 4096 → M) :
    (((0 + ∑ j : Fin 1024, f ⟨j.val, by omega⟩) + ∑ j : Fin 1024, f ⟨1024 + j.val, by omega⟩)
        + ∑ j : Fin 1024, f ⟨2048 + j.val, by omega⟩) + ∑ j : Fin 1024, f ⟨3072 + j.val, by omega⟩
      = ∑ j : Fin 4096, f j := by
  have h4 : ∑ i ∈ Finset.range 4096, natFn f i = ∑ i ∈ Finset.range (1024 + 1024 + 1024 + 1024), natFn f i := rfl
  rw [zero_add, sum_eq_sum_range f, h4, Finset.sum_range_add, Finset.sum_range_add, Finset.sum_range_add]
  refine congrArg₂ (· + ·) (congrArg₂ (· + ·) (congrArg₂ (· + ·) ?_ ?_) ?_) ?_
  · rw [Finset.sum_range]
    exact Finset.sum_congr rfl fun j _ => (natFn_of_lt f (by omega)).symm
  · exact (sum_range_block f 1024 1024 (by omega)).symm
  · exact (sum_range_block f 2048 1024 (by omega)).symm
  · exact (sum_range_block f 3072 1024 (by omega)).symm

/-- THREE BLOCKS OF 512: the running total over the blocks is the sum over all 1536 places. -/
theorem sum_three_blocks (f : Fin 1536 → M) :
    ((0 + ∑ h : Fin 512, f ⟨h.val, by omega⟩) + ∑ h : Fin 512, f ⟨512 + h.val, by omega⟩)
        + ∑ h : Fin 512, f ⟨1024 + h.val, by omega⟩
      = ∑ j : Fin 1536, f j := by
  have h3 : ∑ i ∈ Finset.range 1536, natFn f i = ∑ i ∈ Finset.range (512 + 512 + 512), natFn f i := rfl
  rw [zero_add, sum_eq_sum_range f, h3, Finset.sum_range_add, Finset.sum_range_add]
  refine congrArg₂ (· + ·) (congrArg₂ (· + ·) ?_ ?_) ?_
  · rw [Finset.sum_range]
    exact Finset.sum_congr rfl fun j _ => (natFn_of_lt f (by omega)).symm
  · exact (sum_range_block f 512 512 (by omega)).symm
  · exact (sum_range_block f 1024 512 (by omega)).symm

end Cert.KernelIdeal.PayValue
-- ==== Proof.Glue.Chain.lean ====
/-
  What each later kernel region is entered with, in terms of the launch contents; and the two regroupings of sums
  that the tiled regions need.

  After the first region its result array is the first dense layer of the re-cut arguments, which read at coordinates
  are the launch arguments: so the second region is entered with the specification's first layer, the adjacency and
  the second layer's weights as launched, and the second bias re-cut. The third region is entered with the second
  region's result array, the final weights re-cut by block and the class biases as one row. A sum over the 1536
  side-by-side features is the running total of its three blocks of 512, and a sum over the 4096 nodes of a block is
  the running total of its four tiles of 1024.
-/
import proofs.«101938_j11553462026818_2_alg».proof.Proof.KI.Main
import proofs.«101938_j11553462026818_2_alg».proof.Proof.Glue.Host
import proofs.«101938_j11553462026818_2_alg».proof.Proof.Spec
import proofs.«101938_j11553462026818_2_alg».proof.Proof.Val.Final0
import proofs.«101938_j11553462026818_2_alg».proof.Proof.Val.Sums

noncomputable section

namespace Cert.KernelIdeal.Glue

open Cert.KernelIdeal Cert.KernelIdeal.Gen Cert.KernelIdeal.Hand Cert.KernelIdeal.PayValue
open Idealize.ShloMosaic Idealize.ShloMosaic.TcCoe Idealize.SL.Sem Idealize.ShloMosaic.StableHlo
open Idealize.ShloMosaic.ValueIdx RelGraph

variable (m : (ℓ : Loc nD τ sig) → Buf (Elt Ideal) ℓ) (ρ : Dev nD → PrngReg)

/-! ## What the second region is entered with -/

/-- The first region's result array, whole. -/
theorem at2_v6 (c : Dev nD) : at2 m ρ c main_v6 = (dat0 (at1 m ρ) c).arrAt 3 cfg0.N :=
  bnd2_arr m ρ c 3

/-- The first region's result array is the specification's first layer of the launch arguments. -/
theorem at2_v6_apply (c : Dev nD) (t : Fin 3) (n : Fin 4096) (g : Fin 512) :
    at2 m ρ c main_v6 (ix3 t n g)
      = convRelu (arr2 (m ((c : Thread nD τ).loc main_arg0))) (arr3 (m ((c : Thread nD τ).loc main_arg3))) (arr2 (m ((c : Thread nD τ).loc main_arg4))) t n g := by
  rw [at2_v6, final0]
  show g0 (at1 m ρ) c t n g = _
  show _ = max ((∑ f : Fin 512, arr2 (m ((c : Thread nD τ).loc main_arg0)) (blockRow t n) f * arr3 (m ((c : Thread nD τ).loc main_arg3)) t g f)
      + arr2 (m ((c : Thread nD τ).loc main_arg4)) t g) zeroWord
  unfold g0
  exact congrArg₂ max (congrArg₂ (· + ·) (Finset.sum_congr rfl fun f _ => congrArg₂ (· * ·) (at1_v0 m ρ c t n f)
    (congrArg (fun X => arr S3x512x512 X (ix3 t g f)) (at1_arg3 m ρ c))) (at1_v1 m ρ c t g)) rfl

/-- The adjacency is still as launched. -/
theorem at2_arg1 (c : Dev nD) : at2 m ρ c main_arg1 = (m ((c : Thread nD τ).loc main_arg1)) :=
  (bnd2_of_ne m ρ c main_arg1 (by decide)).trans (at1_arg1 m ρ c)

/-- The second dense weights are still as launched. -/
theorem at2_arg5 (c : Dev nD) : at2 m ρ c main_arg5 = (m ((c : Thread nD τ).loc main_arg5)) :=
  (bnd2_of_ne m ρ c main_arg5 (by decide)).trans (at1_arg5 m ρ c)

/-- The second bias matrix with a unit middle axis still reads the bias at (block, feature). -/
theorem at2_v2 (c : Dev nD) (t : Fin 3) (g : Fin 512) :
    at2 m ρ c main_v2 (ix3 t (0 : Fin 1) g) = (m ((c : Thread nD τ).loc main_arg6)) (ix2 t g) := by
  show bnd2 m ρ c (Proc.devRef .tc main_v2) (ix3 t (0 : Fin 1) g) = _
  rw [bnd2_of_ne m ρ c main_v2 (by decide)]
  exact at1_v2 m ρ c t g

/-! ## What the third region is entered with -/

/-- The second region's result array, whole. -/
theorem at3_v7 (c : Dev nD) : at3 m ρ c main_v7 = (dat1 (at2 m ρ) c).arrAt 4 cfg1.N :=
  bnd3_arr m ρ c 4

/-- Block `t` of the final weights still reads the weights at (class, column `512 t + feature`). -/
theorem at3_v4 (c : Dev nD) (t : Fin 3) (cc : Fin 32) (h : Fin 512) :
    at3 m ρ c main_v4 (ix3 t cc h) = (m ((c : Thread nD τ).loc main_arg7)) (ix2 cc (sideCol t h)) := by
  show bnd3 m ρ c (Proc.devRef .tc main_v4) (ix3 t cc h) = _
  rw [bnd3_of_ne m ρ c main_v4 (by decide), bnd2_of_ne m ρ c main_v4 (by decide)]
  exact at1_v4 m ρ c t cc h

/-- The class biases as one row still read the bias at the class. -/
theorem at3_v5 (c : Dev nD) (cc : Fin 32) :
    at3 m ρ c main_v5 (ix2 (0 : Fin 1) cc) = (m ((c : Thread nD τ).loc main_arg8)) (ix1 cc) := by
  show bnd3 m ρ c (Proc.devRef .tc main_v5) (ix2 (0 : Fin 1) cc) = _
  rw [bnd3_of_ne m ρ c main_v5 (by decide), bnd2_of_ne m ρ c main_v5 (by decide)]
  exact at1_v5 m ρ c cc

/-! ## Sums regrouped by block -/

/-- The side-by-side features at column `512 t + h` are feature `h` of block `t`. -/
theorem feat_sideCol (h2 : Fin 3 → Fin 4096 → Fin 512 → EReal) (i : Fin 4096) (t : Fin 3) (h : Fin 512) :
    feat h2 i (sideCol t h) = h2 t i h := by
  unfold feat
  rw [featRel_sideCol, featCol_sideCol]

/-- The final linear layer as the running total of its three blocks of 512 features, then the bias. -/
theorem logits_blocks (h2 : Fin 3 → Fin 4096 → Fin 512 → EReal) (W : Fin 32 → Fin 1536 → EReal) (b : Fin 32 → EReal)
    (i : Fin 4096) (cc : Fin 32) :
    (((0 + ∑ h : Fin 512, h2 0 i h * W cc (sideCol 0 h)) + ∑ h : Fin 512, h2 1 i h * W cc (sideCol 1 h))
        + ∑ h : Fin 512, h2 2 i h * W cc (sideCol 2 h)) + b cc
      = logits h2 W b i cc := by
  unfold logits
  refine congrArg (· + b cc) ?_
  rw [← sum_three_blocks (fun j => feat h2 i j * W cc j)]
  have e0 : ∀ h : Fin 512, (⟨h.val, by omega⟩ : Fin 1536) = sideCol 0 h :=
    fun h => Fin.ext (by show h.val = 512 * 0 + h.val; omega)
  have e1 : ∀ h : Fin 512, (⟨512 + h.val, by omega⟩ : Fin 1536) = sideCol 1 h :=
    fun h => Fin.ext (by show 512 + h.val = 512 * 1 + h.val; omega)
  have e2 : ∀ h : Fin 512, (⟨1024 + h.val, by omega⟩ : Fin 1536) = sideCol 2 h :=
    fun h => Fin.ext (by show 1024 + h.val = 512 * 2 + h.val; omega)
  simp only [e0, e1, e2, feat_sideCol]

/-- Row `1024 k + j` of 4096: row `j` of tile `k` of four tiles of 1024. -/
def tileRow (k : Fin 4) (j : Fin 1024) : Fin 4096 := ⟨1024 * k.val + j.val, by omega⟩

/-- The aggregation over a block's 4096 nodes as the running total of its four tiles of 1024 nodes. -/
theorem spmm_blocks (adj : Fin 12288 → Fin 12288 → EReal) (h : Fin 3 → Fin 4096 → Fin 512 → EReal) (t : Fin 3)
    (i : Fin 4096) (g : Fin 512) :
    ((((0 + ∑ j : Fin 1024, adj (topRow i) (blockRow t (tileRow 0 j)) * h t (tileRow 0 j) g)
          + ∑ j : Fin 1024, adj (topRow i) (blockRow t (tileRow 1 j)) * h t (tileRow 1 j) g)
        + ∑ j : Fin 1024, adj (topRow i) (blockRow t (tileRow 2 j)) * h t (tileRow 2 j) g)
      + ∑ j : Fin 1024, adj (topRow i) (blockRow t (tileRow 3 j)) * h t (tileRow 3 j) g)
      = spmm adj h t i g := by
  unfold spmm
  rw [← sum_four_blocks (fun j => adj (topRow i) (blockRow t j) * h t j g)]
  have e0 : ∀ j : Fin 1024, (⟨j.val, by omega⟩ : Fin 4096) = tileRow 0 j :=
    fun j => Fin.ext (by show j.val = 1024 * 0 + j.val; omega)
  have e1 : ∀ j : Fin 1024, (⟨1024 + j.val, by omega⟩ : Fin 4096) = tileRow 1 j :=
    fun j => Fin.ext (by show 1024 + j.val = 1024 * 1 + j.val; omega)
  have e2 : ∀ j : Fin 1024, (⟨2048 + j.val, by omega⟩ : Fin 4096) = tileRow 2 j :=
    fun j => Fin.ext (by show 2048 + j.val = 1024 * 2 + j.val; omega)
  have e3 : ∀ j : Fin 1024, (⟨3072 + j.val, by omega⟩ : Fin 4096) = tileRow 3 j :=
    fun j => Fin.ext (by show 3072 + j.val = 1024 * 3 + j.val; omega)
  simp only [e0, e1, e2, e3]

end Cert.KernelIdeal.Glue

end
-- ==== Proof.LibKeepdimsColumn.lean ====
/-
  Column layouts read at coordinates.

  A row reduction that keeps its axis (a mean or a variance over the lanes of each row, kept as a column) reaches the
  rest of a computation through two layout steps: the vector of per-row values, of extent `a`, is viewed as an
  `a × 1` column, and that column is repeated across `b` lanes to meet an `a × b` matrix. Both steps move no
  value: the column at `(i, 0)` is the vector at `i`, and the repeated column at `(p, c)` is the column at
  `(p, 0)`, whatever the lane `c`. The two lemmas below say exactly that, at indices written by coordinates, for
  any extents.
-/
import Idealize.ShloMosaic.Lib.Pipeline.Value
import Idealize.ShloMosaic.Lib.ValueIdx

namespace KeepdimsColumn

open Idealize.ShloMosaic Idealize.ShloMosaic.ValueIdx

variable {α : Type}

/-- A vector of extent `a` viewed as an `a × 1` column reads, at `(i, u)`, the vector at `i`: the unit
    coordinate `u` can only be `0`, and both indices sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column repeated across `b` lanes reads, at `(p, c)`, the column's entry of row `p`: the row
    coordinate is kept (it is `0` anyway when there is one row only) and the lane coordinate is dropped to the
    column's single lane. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.Val.Pay2.lean ====
/-
  The final linear layer and the row-wise log-softmax, at one output entry.

  The 4096 × 32 accumulator of class scores starts at zero; each of the three relations adds the product of its
  4096 × 512 hidden features h2 with the transpose of its 32 × 512 slice wl of the last weight matrix,

      acc'(r, c) = acc(r, c) + Σ_h h2(r, h) · wl(c, h),

  the accumulator first. After the last relation the bias bl is added, y(r, c) = acc(r, c) + bl(c), and each
  row of 32 scores is normalised: with M(r) the maximum of row r of y, taken from -∞, and z(r, c) = y(r, c) - M(r),

      out(r, c) = z(r, c) - log Σ_c' exp z(r, c').

  The maximum is carried as the fold of max over the 32 columns from the word of -∞; it is never evaluated.
  The features and the weight slice arrive under a leading unit axis, read at coordinate 0; the bias is a single
  row, read at row 0.
-/
import proofs.«101938_j11553462026818_2_alg».proof.Proof.Gen.KernelIdeal.Skeleton
import proofs.«101938_j11553462026818_2_alg».proof.Proof.LibPlainMatmul
import proofs.«101938_j11553462026818_2_alg».proof.Proof.LibKeepdimsColumn
import Idealize.ShloMosaic.Lib.ValueLayout
import Idealize.ShloMosaic.PureOps.Ideal.Laws

noncomputable section

namespace Cert.KernelIdeal.PayValue

open Idealize.ShloMosaic Idealize.ShloMosaic.ValueIdx

/-! ## The accumulation -/

/-- The accumulator's starting value: zero everywhere. -/
theorem k2_pay1_apply (r : Fin 4096) (c : Fin 32) : (Gen.k2_pay1 (F := Ideal) (ix2 r c) : EReal) = 0 := by
  unfold Gen.k2_pay1
  exact (congrFun (shapeCast_self _ _) (ix2 r c)).trans Ideal.ofBits_zero_f32

/-- The product of a 4096 × 512 block with a 512 × 32 matrix, accumulated into zero, at (r, c). -/
theorem matmul_4096x512_512x32 {φ₁ φ₂ : FTy} (lhs : FVec Ideal S4096x512 φ₁) (rhs : FVec Ideal S512x32 φ₂)
    (r : Fin 4096) (c : Fin 32) :
    matmul dot_S4096x512_S512x32_S4096x32_1_0_0_1_n_n none lhs rhs (constant S4096x32 .f32 0x00000000#32) (ix2 r c)
      = ∑ k : Fin 512, lhs (ix2 r k) * rhs (ix2 k c) :=
  Cert.PlainMatmul.plain_apply lhs rhs r c

/-- The weight slice as the product sees it: the leading unit axis dropped and the two axes exchanged, so that
    position (k, c) holds wl(c, k). -/
theorem sliceT_apply (wl : FVec Ideal S1x32x512 .f32) (k : Fin 512) (c : Fin 32) :
    (transpose S512x32 [1, 0] (truncf (F := Ideal) .bf16 (shapeCast S32x512 wl Gen.shapeCasts_S1x32x512_S32x512) Gen.bitsLt_bf16_f32)
        Gen.transposes_S32x512_p1_0_S512x32 (ix2 k c) : EReal)
      = wl (ix3 (0 : Fin 1) c k) :=
  (transpose_ix2_apply _ _ k c).trans (shapeCast_1ab_ab_apply wl _ c k)

/-- One accumulation step at (r, c): the accumulator, plus row r of the features against row c of the slice. -/
theorem k2_pay2_apply (h2 : Vec Ideal S1x4096x512 .bf16) (wl : Vec Ideal S1x32x512 .f32) (acc : Vec Ideal S4096x32 .f32)
    (r : Fin 4096) (c : Fin 32) :
    (Gen.k2_pay2 (F := Ideal) h2 wl acc (ix2 r c) : EReal)
      = acc (ix2 r c) + ∑ h : Fin 512, h2 (ix3 (0 : Fin 1) r h) * wl (ix3 (0 : Fin 1) c h) := by
  unfold Gen.k2_pay2
  refine (congrFun (shapeCast_self _ _) (ix2 r c)).trans ?_
  show acc (ix2 r c) + _ = _
  refine congrArg (acc (ix2 r c) + ·) ?_
  refine (matmul_4096x512_512x32 _ _ r c).trans ?_
  exact Finset.sum_congr rfl fun h _ =>
    congrArg₂ (· * ·) (shapeCast_1ab_ab_apply h2 Gen.shapeCasts_S1x4096x512_S4096x512 r h) (sliceT_apply wl h c)

/-! ## The log-softmax of one row -/

/-- The maximum of 32 scores, started from the word of -∞. -/
def rowMax32 (y : Fin 32 → EReal) : EReal :=
  (Finset.univ : Finset (Fin 32)).fold max (Ideal.ofBits .f32 0xFF800000#32) y

/-- The log-softmax of 32 scores at column c: shift by the maximum, subtract the logarithm of the sum of
    exponentials of the shifted scores. -/
def logSoftmaxRow (y : Fin 32 → EReal) (c : Fin 32) : EReal :=
  (y c - rowMax32 y) - Ideal.log (∑ c' : Fin 32, Ideal.exp (y c' - rowMax32 y))

/-- Inserting column k into the row index r gives the matrix index (r, k). -/
theorem lift_row (r : Fin 4096) (k : Fin 32) :
    Gen.reduces_S4096x32_S4096.lift (ix1 r) k = ix2 r k :=
  funext fun a => match a with
    | ⟨0, _⟩ => Fin.ext rfl
    | ⟨1, _⟩ => Fin.ext rfl

/-- The row maximum, kept as a column and repeated across the 32 columns: at (r, c) it is the maximum of row r. -/
theorem maxColumn_apply (Y : FVec Ideal S4096x32 .f32) (r : Fin 4096) (c : Fin 32) :
    broadcastTo S4096x32
        (shapeCast S4096x1
          (multiReduction .maximumf [1] S4096 Y 0xFF800000#32 Gen.reduces_S4096x32_S4096 (.inl rfl) rfl)
          Gen.shapeCasts_S4096_S4096x1)
        Gen.broadcasts_S4096x1_S4096x32 (ix2 r c)
      = rowMax32 fun c' => Y (ix2 r c') := by
  refine (KeepdimsColumn.broadcastTo_a1_ab_apply _ _ r c).trans ?_
  refine (KeepdimsColumn.shapeCast_a_a1_apply _ _ r (0 : Fin 1)).trans ?_
  refine (Ideal.multiReduction_maximumf_single Y 0xFF800000#32 Gen.reduces_S4096x32_S4096 (.inl rfl) rfl (ix1 r)).trans ?_
  unfold rowMax32
  exact congrArg (Finset.fold max _ · Finset.univ) (funext fun k => congrArg Y (lift_row r k))

/-- The row sum, kept as a column: at (r, ·) it is the sum of row r. -/
theorem sumColumn_apply (E : FVec Ideal S4096x32 .f32) (r : Fin 4096) (u : Fin 1) :
    shapeCast S4096x1
        (multiReduction .add [1] S4096 E 0x00000000#32 Gen.reduces_S4096x32_S4096 (.inl rfl) rfl)
        Gen.shapeCasts_S4096_S4096x1 (ix2 r u)
      = ∑ c' : Fin 32, E (ix2 r c') := by
  refine (KeepdimsColumn.shapeCast_a_a1_apply _ _ r u).trans ?_
  refine (Ideal.multiReduction_add_single E 0x00000000#32 Gen.reduces_S4096x32_S4096 (.inl rfl) rfl (ix1 r)).trans ?_
  exact Finset.sum_congr rfl fun k _ => congrArg E (lift_row r k)

/-- The scores with the bias row added: at (r, c), acc(r, c) + bl(c). -/
theorem biased_apply (acc : FVec Ideal S4096x32 .f32) (bl : FVec Ideal S1x32 .f32) (r : Fin 4096) (c : Fin 32) :
    addf acc (broadcastTo S4096x32 (shapeCast S1x32 bl Gen.shapeCasts_S1x32_S1x32) Gen.broadcasts_S1x32_S4096x32) (ix2 r c)
      = acc (ix2 r c) + bl (ix2 (0 : Fin 1) c) := by
  show acc (ix2 r c) + _ = _
  refine congrArg (acc (ix2 r c) + ·) ?_
  refine (broadcastTo_1b_ab_apply _ _ r c).trans ?_
  exact congrFun (shapeCast_self bl _) _

/-- The normalisation of a 4096 × 32 matrix of scores, at (r, c): the log-softmax of row r at column c. -/
theorem logSoftmax_apply (Y : FVec Ideal S4096x32 .f32) (r : Fin 4096) (c : Fin 32) :
    (subf
        (subf Y
          (broadcastTo S4096x32
            (shapeCast S4096x1
              (multiReduction .maximumf [1] S4096 Y 0xFF800000#32 Gen.reduces_S4096x32_S4096 (.inl rfl) rfl)
              Gen.shapeCasts_S4096_S4096x1)
            Gen.broadcasts_S4096x1_S4096x32))
        (broadcastTo S4096x32
          (log
            (shapeCast S4096x1
              (multiReduction .add [1] S4096
                (exp
                  (subf Y
                    (broadcastTo S4096x32
                      (shapeCast S4096x1
                        (multiReduction .maximumf [1] S4096 Y 0xFF800000#32 Gen.reduces_S4096x32_S4096 (.inl rfl) rfl)
                        Gen.shapeCasts_S4096_S4096x1)
                      Gen.broadcasts_S4096x1_S4096x32)))
                0x00000000#32 Gen.reduces_S4096x32_S4096 (.inl rfl) rfl)
              Gen.shapeCasts_S4096_S4096x1))
          Gen.broadcasts_S4096x1_S4096x32)
        (ix2 r c) : EReal)
      = logSoftmaxRow (fun c' => Y (ix2 r c')) c := by
  have hM : ∀ c' : Fin 32, _ = rowMax32 fun c'' => Y (ix2 r c'') := fun c' => maxColumn_apply Y r c'
  show (Y (ix2 r c) - _) - _ = _
  unfold logSoftmaxRow
  refine congrArg₂ (· - ·) (congrArg (Y (ix2 r c) - ·) (hM c)) ?_
  refine (KeepdimsColumn.broadcastTo_a1_ab_apply _ _ r c).trans ?_
  show Ideal.log _ = _
  refine congrArg Ideal.log ?_
  refine (sumColumn_apply _ r (0 : Fin 1)).trans ?_
  exact Finset.sum_congr rfl fun c' _ => congrArg Ideal.exp (congrArg (Y (ix2 r c') - ·) (hM c'))

/-- THE STORED RESULT at (r, c): the log-softmax of row r of acc + bl, at column c. -/
theorem k2_pay3_eq_logSoftmaxRow (acc : Vec Ideal S4096x32 .f32) (bl : Vec Ideal S1x32 .f32) (r : Fin 4096) (c : Fin 32) :
    (Gen.k2_pay3 (F := Ideal) acc bl (ix2 r c) : EReal)
      = logSoftmaxRow (fun c' => acc (ix2 r c') + bl (ix2 (0 : Fin 1) c')) c := by
  unfold Gen.k2_pay3
  refine (logSoftmax_apply
    (addf acc (broadcastTo S4096x32 (shapeCast S1x32 bl Gen.shapeCasts_S1x32_S1x32) Gen.broadcasts_S1x32_S4096x32)) r c).trans ?_
  exact congrArg (logSoftmaxRow · c) (funext fun c' => biased_apply acc bl r c')

/-- The same written out. -/
theorem k2_pay3_apply (acc : Vec Ideal S4096x32 .f32) (bl : Vec Ideal S1x32 .f32) (r : Fin 4096) (c : Fin 32) :
    (Gen.k2_pay3 (F := Ideal) acc bl (ix2 r c) : EReal)
      = ((acc (ix2 r c) + bl (ix2 (0 : Fin 1) c))
            - (Finset.univ : Finset (Fin 32)).fold max (Ideal.ofBits .f32 0xFF800000#32)
                (fun c' => acc (ix2 r c') + bl (ix2 (0 : Fin 1) c')))
          - Ideal.log (∑ c' : Fin 32, Ideal.exp ((acc (ix2 r c') + bl (ix2 (0 : Fin 1) c'))
              - (Finset.univ : Finset (Fin 32)).fold max (Ideal.ofBits .f32 0xFF800000#32)
                  (fun c'' => acc (ix2 r c'') + bl (ix2 (0 : Fin 1) c'')))) :=
  k2_pay3_eq_logSoftmaxRow acc bl r c

end Cert.KernelIdeal.PayValue

end
-- ==== Proof.Glue.Bridge.lean ====
/-
  The kernel's arrangement of the whole computation is the specification's.

  If `H` is the first layer, and `H2` is the second layer written with the aggregation inside it, then the log-softmax
  of the row of class scores — each score the running total of three blocks of 512 features, then the bias — is the
  specification's result at that row. Only the regrouping of the sum over 1536 features into its three blocks is used.
-/
import proofs.«101938_j11553462026818_2_alg».proof.Proof.Spec
import proofs.«101938_j11553462026818_2_alg».proof.Proof.Glue.Chain
import proofs.«101938_j11553462026818_2_alg».proof.Proof.Val.Pay2

noncomputable section

namespace Cert.KernelIdeal.Glue

open Cert.KernelIdeal.PayValue RelGraph

/-- The specification's log-softmax at a row is the log-softmax of that row of scores. -/
theorem logSoftmax_row (z : Fin 4096 → Fin 32 → EReal) (i : Fin 4096) (c : Fin 32) :
    logSoftmax z i c = logSoftmaxRow (z i) c := rfl

/-- From the two layers as the kernel regions leave them, and the class scores as the last region totals them, to the
    specification's result. -/
theorem out_bridge (x : Fin 12288 → Fin 512 → EReal) (adj : Fin 12288 → Fin 12288 → EReal)
    (Wc : Fin 3 → Fin 512 → Fin 512 → EReal) (bc : Fin 3 → Fin 512 → EReal)
    (Ws : Fin 3 → Fin 512 → Fin 512 → EReal) (bs : Fin 3 → Fin 512 → EReal)
    (Wl : Fin 32 → Fin 1536 → EReal) (bl : Fin 32 → EReal)
    (H H2 : Fin 3 → Fin 4096 → Fin 512 → EReal)
    (hH : ∀ t n g, H t n g = convRelu x Wc bc t n g)
    (hH2 : ∀ t i g, H2 t i g
      = max ((∑ h : Fin 512, (∑ j : Fin 4096, adj (topRow i) (blockRow t j) * H t j h) * Ws t g h) + bs t g) zeroWord)
    (r : Fin 4096) (cc : Fin 32) :
    logSoftmaxRow (fun c' => (((0 + ∑ h : Fin 512, H2 0 r h * Wl c' (sideCol 0 h))
        + ∑ h : Fin 512, H2 1 r h * Wl c' (sideCol 1 h)) + ∑ h : Fin 512, H2 2 r h * Wl c' (sideCol 2 h)) + bl c') cc
      = out x adj Wc bc Ws bs Wl bl r cc := by
  have eH : H = convRelu x Wc bc := funext fun t => funext fun n => funext fun g => hH t n g
  have eH2 : H2 = sageRelu (spmm adj (convRelu x Wc bc)) Ws bs :=
    funext fun t => funext fun i => funext fun g => by rw [hH2, eH]; rfl
  have eL : (fun c' => (((0 + ∑ h : Fin 512, H2 0 r h * Wl c' (sideCol 0 h))
        + ∑ h : Fin 512, H2 1 r h * Wl c' (sideCol 1 h)) + ∑ h : Fin 512, H2 2 r h * Wl c' (sideCol 2 h)) + bl c')
      = logits H2 Wl bl r := funext fun c' => logits_blocks H2 Wl bl r c'
  refine (congrArg (logSoftmaxRow · cc) eL).trans ?_
  rw [eH2]
  rfl

end Cert.KernelIdeal.Glue

end
-- ==== Proof.Val.Pay1.lean ====
/-
  The neighbour sum and the second hidden layer, at one output entry.

  For one relation and one block of 1024 target nodes, the accumulator starts at zero; each step adds the
  product of a 1024 × 1024 piece a of the adjacency with the matching 1024 rows hb of the first layer's output,

      acc'(r, g) = acc(r, g) + Σ_j a(r, j) · hb(j, g),

  the accumulator first, then the new contribution; and after the last piece the accumulated sums go through the
  second dense layer with its rectifier,

      max( Σ_h acc(r, h) · W(g, h) + b(g) , 0 ).

  The rows hb, the weights and the bias each arrive under a leading unit axis (the relation's slot), read at
  coordinate 0; the stored block carries the same unit axis.
-/
import proofs.«101938_j11553462026818_2_alg».proof.Proof.Val.Dense

namespace Cert.KernelIdeal.PayValue

open Idealize.ShloMosaic Idealize.ShloMosaic.ValueIdx

/-- The accumulator's starting value: zero everywhere. -/
theorem k1_pay1_apply (r : Fin 1024) (g : Fin 512) : (Gen.k1_pay1 (F := Ideal) (ix2 r g) : EReal) = 0 := by
  unfold Gen.k1_pay1
  exact (congrFun (shapeCast_self _ _) (ix2 r g)).trans Ideal.ofBits_zero_f32

/-- The product of a 1024 × 1024 piece with a 1024 × 512 block, accumulated into zero, at (r, g). -/
theorem matmul_1024x1024_1024x512 {φ₁ φ₂ : FTy} (lhs : FVec Ideal S1024x1024 φ₁) (rhs : FVec Ideal S1024x512 φ₂)
    (r : Fin 1024) (g : Fin 512) :
    matmul dot_S1024x1024_S1024x512_S1024x512_1_0_0_1_n_n none lhs rhs (constant S1024x512 .f32 0x00000000#32) (ix2 r g)
      = ∑ k : Fin 1024, lhs (ix2 r k) * rhs (ix2 k g) :=
  Cert.PlainMatmul.plain_apply lhs rhs r g

/-- One accumulation step at (r, g): the accumulator, plus the piece's row r against column g of the rows hb. -/
theorem k1_pay2_apply (a : Vec Ideal S1024x1024 .f32) (hb : Vec Ideal S1x1024x512 .bf16) (acc : Vec Ideal S1024x512 .f32)
    (r : Fin 1024) (g : Fin 512) :
    (Gen.k1_pay2 (F := Ideal) a hb acc (ix2 r g) : EReal)
      = acc (ix2 r g) + ∑ j : Fin 1024, a (ix2 r j) * hb (ix3 (0 : Fin 1) j g) := by
  unfold Gen.k1_pay2
  refine (congrFun (shapeCast_self _ _) (ix2 r g)).trans ?_
  show acc (ix2 r g) + _ = _
  refine congrArg (acc (ix2 r g) + ·) ?_
  refine (matmul_1024x1024_1024x512 _ _ r g).trans ?_
  exact Finset.sum_congr rfl fun j _ =>
    congrArg (a (ix2 r j) * ·) (shapeCast_1ab_ab_apply hb Gen.shapeCasts_S1x1024x512_S1024x512 j g)

/-- The second layer's stored value at (r, g), the rectifier's zero as its word. -/
theorem k1_pay3_apply (acc : Vec Ideal S1024x512 .f32) (w : Vec Ideal S1x512x512 .f32) (b : Vec Ideal S1x1x512 .f32)
    (u : Fin 1) (r : Fin 1024) (g : Fin 512) :
    (Gen.k1_pay3 (F := Ideal) acc w b (ix3 u r g) : EReal)
      = max ((∑ h : Fin 512, acc (ix2 r h) * w (ix3 (0 : Fin 1) g h)) + b (ix3 (0 : Fin 1) (0 : Fin 1) g))
          (Ideal.ofBits .f32 0x00000000#32) := by
  unfold Gen.k1_pay3
  exact dense_relu_apply acc w b u r g

/-- The same with the rectifier's zero read as the number 0. -/
theorem k1_pay3_apply_zero (acc : Vec Ideal S1024x512 .f32) (w : Vec Ideal S1x512x512 .f32) (b : Vec Ideal S1x1x512 .f32)
    (u : Fin 1) (r : Fin 1024) (g : Fin 512) :
    (Gen.k1_pay3 (F := Ideal) acc w b (ix3 u r g) : EReal)
      = max ((∑ h : Fin 512, acc (ix2 r h) * w (ix3 (0 : Fin 1) g h)) + b (ix3 (0 : Fin 1) (0 : Fin 1) g)) 0 :=
  (k1_pay3_apply acc w b u r g).trans (congrArg (max _) Ideal.ofBits_zero_f32)

end Cert.KernelIdeal.PayValue
-- ==== Proof.Val.Final1.lean ====
/-
  The neighbour sum and the second hidden layer as one array.

  The second region walks a grid of 3 relations × 4 row tiles × 4 reduction steps; position t is relation t / 16,
  row tile (t / 4) % 4, step t % 4. At a step it multiplies the 1024 × 1024 piece of the adjacency whose rows are
  the tile's target rows and whose columns are nodes 1024 k … 1024 k + 1023 of the relation (columns
  4096 · relation + 1024 k + j of the whole matrix) by the same 1024 rows of the relation's first-layer features,
  and adds the product to an accumulator that the first step starts from zero. So after step k the accumulator
  holds, at (r, h), zero plus the parts of

      M(relation, row, h) = Σ_j adj(row, 4096 · relation + j) · h1(relation, j, h),   row = 1024 · tile + r,

  over the node blocks 0 … k, added left to right; after the last step the four parts make the whole sum over the
  relation's 4096 nodes. At that last step the accumulator goes through the relation's second dense layer and
  rectifier and the block is written back: entry (relation, row, g) of the result is

      max( Σ_h M(relation, row, h) · W(relation, g, h) + b(relation, 0, g) , 0 ).

  Only the last step of each tile writes; those twelve blocks tile the 3 × 4096 × 512 result (`final1`).
-/
import proofs.«101938_j11553462026818_2_alg».proof.Proof.KI.F1
import proofs.«101938_j11553462026818_2_alg».proof.Proof.KI.Pieces
import proofs.«101938_j11553462026818_2_alg».proof.Proof.Val.Pay1
import proofs.«101938_j11553462026818_2_alg».proof.Proof.Val.Arr
import proofs.«101938_j11553462026818_2_alg».proof.Proof.Val.Sums
import Idealize.ShloMosaic.Lib.Pipeline.Value

noncomputable section

namespace Cert.KernelIdeal.PayValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Where each window's block sits at position t, and the step the position is: relation t / 16 everywhere, row tile
    (t / 4) % 4 for the adjacency's rows and for the result, column block 4 (t / 16) + t % 4 for the adjacency's columns. -/
theorem idx_facts1 : ∀ t : Fin cfg1.N,
    (grid1.coords t (2 : Fin 3)).val = t.val % 4
    ∧ win1_0.index t (0 : Fin 2) = (t.val / 4) % 4 ∧ win1_0.index t (1 : Fin 2) = 4 * (t.val / 16) + t.val % 4
    ∧ win1_1.index t (0 : Fin 3) = t.val / 16 ∧ win1_1.index t (1 : Fin 3) = 0 ∧ win1_1.index t (2 : Fin 3) = 0
    ∧ win1_2.index t (0 : Fin 3) = t.val / 16 ∧ win1_2.index t (1 : Fin 3) = 0 ∧ win1_2.index t (2 : Fin 3) = 0
    ∧ win1_3.index t (0 : Fin 3) = t.val / 16 ∧ win1_3.index t (1 : Fin 3) = 0 ∧ win1_3.index t (2 : Fin 3) = 0
    ∧ win1_4.index t (0 : Fin 3) = t.val / 16 ∧ win1_4.index t (1 : Fin 3) = (t.val / 4) % 4 ∧ win1_4.index t (2 : Fin 3) = 0 :=
  (by decide +kernel : ∀ t : Fin grid1.N, _)

/-- The adjacency piece at position t, read at (r, j): the whole matrix at the tile's row and the step's column. -/
theorem iblk1_0_apply (c : Dev nD) (t : Fin cfg1.N) (r j : Fin 1024) (row col : Fin 12288)
    (hrow : row.val = 1024 * ((t.val / 4) % 4) + r.val) (hcol : col.val = 4096 * (t.val / 16) + 1024 * (t.val % 4) + j.val) :
    (iblk1 V c 0 t : Vec Ideal S1024x1024 .f32) (ix2 r j) = arr S12288x12288 (V c main_arg1) (ix2 row col) := by
  obtain ⟨-, e0, e1, -⟩ := idx_facts1 t
  unfold iblk1
  rw [View.read_apply]
  show V c main_arg1 _ = V c main_arg1 _
  refine congrArg (V c main_arg1) (funext fun a => Fin.ext ?_)
  match a with
  | ⟨0, _⟩ => show win1_0.index t (0 : Fin 2) * 1024 + 1 * r.val = row.val; omega
  | ⟨1, _⟩ => show win1_0.index t (1 : Fin 2) * 1024 + 1 * j.val = col.val; omega

/-- The rows of the relation's first-layer features that the step at position t multiplies by: row j of them is node
    1024 (t % 4) + j of relation t / 16. -/
theorem slab1_apply (c : Dev nD) (t : Fin cfg1.N) (u : Fin 1) (j : Fin 1024) (g : Fin 512) (rel : Fin 3) (n : Fin 4096)
    (hrel : rel.val = t.val / 16) (hn : n.val = 1024 * (t.val % 4) + j.val) :
    (slab1 (grid1.coords t) (iblk1 V c 1 t) : Vec Ideal S1x1024x512 .bf16) (ix3 u j g) = arr S3x4096x512 (V c main_v6) (ix3 rel n g) := by
  obtain ⟨ek, -, -, e0, e1, e2, -⟩ := idx_facts1 t
  unfold slab1 iblk1
  dsimp only [View.ld]
  rw [View.read_apply]
  show V c main_v6 _ = V c main_v6 _
  refine congrArg (V c main_v6) (funext fun a => Fin.ext ?_)
  have hu : u.val = 0 := by omega
  have hoff := k1_off1_eq (grid1.coords t)
  match a with
  | ⟨0, _⟩ =>
    show win1_1.index t (0 : Fin 3) * 1 + 1 * (k1_off1 (grid1.coords t) (0 : Fin 3) + 1 * u.val) = rel.val
    rw [hoff]; show win1_1.index t (0 : Fin 3) * 1 + 1 * (0 + 1 * u.val) = rel.val; omega
  | ⟨1, _⟩ =>
    show win1_1.index t (1 : Fin 3) * 4096 + 1 * (k1_off1 (grid1.coords t) (1 : Fin 3) + 1 * j.val) = n.val
    rw [hoff]; show win1_1.index t (1 : Fin 3) * 4096 + 1 * (1024 * (grid1.coords t (2 : Fin 3)).val + 1 * j.val) = n.val; omega
  | ⟨2, _⟩ =>
    show win1_1.index t (2 : Fin 3) * 512 + 1 * (k1_off1 (grid1.coords t) (2 : Fin 3) + 1 * g.val) = g.val
    rw [hoff]; show win1_1.index t (2 : Fin 3) * 512 + 1 * (0 + 1 * g.val) = g.val; omega

/-- The block of second-layer weights at position t: relation t / 16's matrix. -/
theorem iblk1_2_apply (c : Dev nD) (t : Fin cfg1.N) (u : Fin 1) (g h : Fin 512) (rel : Fin 3) (hrel : rel.val = t.val / 16) :
    (iblk1 V c 2 t : Vec Ideal S1x512x512 .f32) (ix3 u g h) = arr S3x512x512 (V c main_arg5) (ix3 rel g h) := by
  obtain ⟨-, -, -, -, -, -, e0, e1, e2, -⟩ := idx_facts1 t
  unfold iblk1
  rw [View.read_apply]
  show V c main_arg5 _ = V c main_arg5 _
  refine congrArg (V c main_arg5) (funext fun a => Fin.ext ?_)
  have hu : u.val = 0 := by omega
  match a with
  | ⟨0, _⟩ => show win1_2.index t (0 : Fin 3) * 1 + 1 * u.val = rel.val; omega
  | ⟨1, _⟩ => show win1_2.index t (1 : Fin 3) * 512 + 1 * g.val = g.val; omega
  | ⟨2, _⟩ => show win1_2.index t (2 : Fin 3) * 512 + 1 * h.val = h.val; omega

/-- The second-layer bias block at position t: relation t / 16's row. -/
theorem iblk1_3_apply (c : Dev nD) (t : Fin cfg1.N) (u v : Fin 1) (g : Fin 512) (rel : Fin 3) (hrel : rel.val = t.val / 16) :
    (iblk1 V c 3 t : Vec Ideal S1x1x512 .f32) (ix3 u v g) = arr S3x1x512 (V c main_v2) (ix3 rel (0 : Fin 1) g) := by
  obtain ⟨-, -, -, -, -, -, -, -, -, e0, e1, e2, -⟩ := idx_facts1 t
  unfold iblk1
  rw [View.read_apply]
  show V c main_v2 _ = V c main_v2 _
  refine congrArg (V c main_v2) (funext fun a => Fin.ext ?_)
  have hu : u.val = 0 := by omega
  have hv : v.val = 0 := by omega
  match a with
  | ⟨0, _⟩ => show win1_3.index t (0 : Fin 3) * 1 + 1 * u.val = rel.val; omega
  | ⟨1, _⟩ => show win1_3.index t (1 : Fin 3) * 1 + 1 * v.val = 0; omega
  | ⟨2, _⟩ => show win1_3.index t (2 : Fin 3) * 512 + 1 * g.val = g.val; omega

/-- One term of the neighbour sum of relation rel at target row `row`, feature h: the adjacency entry of the
    target row and the relation's node j, times that node's feature h. -/
def term1 (c : Dev nD) (rel : Fin 3) (row : Fin 4096) (h : Fin 512) (j : Fin 4096) : EReal :=
  arr S12288x12288 (V c main_arg1) (ix2 (⟨row.val, by omega⟩ : Fin 12288) (⟨4096 * rel.val + j.val, by omega⟩ : Fin 12288))
    * arr S3x4096x512 (V c main_v6) (ix3 rel j h)

/-- The part of the neighbour sum over the 1024 nodes from o on. -/
def part1 (c : Dev nD) (rel : Fin 3) (row : Fin 4096) (h : Fin 512) (o : ℕ) (ho : o + 1024 ≤ 4096) : EReal :=
  ∑ j : Fin 1024, term1 V c rel row h ⟨o + j.val, by omega⟩

/-- What one reduction step adds at (r, h): the part of the neighbour sum over that step's 1024 nodes. -/
theorem step_sum (c : Dev nD) (t : Fin cfg1.N) (r : Fin 1024) (h : Fin 512) (rel : Fin 3) (row : Fin 4096)
    (hrel : rel.val = t.val / 16) (hrow : row.val = 1024 * ((t.val / 4) % 4) + r.val) (o : ℕ) (ho : o + 1024 ≤ 4096)
    (hot : o = 1024 * (t.val % 4)) :
    (∑ j : Fin 1024, arr S1024x1024 (iblk1 V c 0 t) (ix2 r j)
        * arr S1x1024x512 (slab1 (grid1.coords t) (iblk1 V c 1 t)) (ix3 (0 : Fin 1) j h))
      = part1 V c rel row h o ho := by
  unfold part1 term1
  exact Finset.sum_congr rfl fun j _ => congrArg₂ (· * ·)
    (iblk1_0_apply V c t r j (⟨row.val, by omega⟩ : Fin 12288) (⟨4096 * rel.val + (o + j.val), by omega⟩ : Fin 12288)
      (by show row.val = _; omega) (by show 4096 * rel.val + (o + j.val) = _; omega))
    (slab1_apply V c t 0 j h rel (⟨o + j.val, by omega⟩ : Fin 4096) hrel (by show o + j.val = _; omega))

/-! ## What each position leaves, as the body's arithmetic of the position's blocks -/

/-- A first step leaves one product added to zero. -/
theorem soutAt1_A_eq (c : Dev nD) (t : Fin cfg1.N) (h0 : t.val % 4 = 0) (h1 : ¬t.val % 4 = 3) :
    soutAt1_A V c t h0 h1 = k1_pay2 (iblk1 V c 0 t) (slab1 (grid1.coords t) (iblk1 V c 1 t)) (k1_pay1 (F := Ideal)) := by
  unfold soutAt1_A
  exact sout1_A_eq _ _ _ _ _ _ _ _ _ _ _ _ _ _ _ _ _ _ _ _

/-- A middle step leaves one product added to what the step before left. -/
theorem soutAt1_B_eq (c : Dev nD) (t : Fin cfg1.N) (h0 : ¬t.val % 4 = 0) (h1 : ¬t.val % 4 = 3) (prev : Vec Ideal S1024x512 .f32) :
    soutAt1_B V c t h0 h1 prev = k1_pay2 (iblk1 V c 0 t) (slab1 (grid1.coords t) (iblk1 V c 1 t)) prev := by
  unfold soutAt1_B
  exact sout1_B_eq _ _ _ _ _ _ _ _ _ _ _ _ _ _ _ _ _ _ _ _ _

/-- So does a last step, -/
theorem soutAt1_C_eq (c : Dev nD) (t : Fin cfg1.N) (h0 : ¬t.val % 4 = 0) (h1 : t.val % 4 = 3) (prev : Vec Ideal S1024x512 .f32) :
    soutAt1_C V c t h0 h1 prev = k1_pay2 (iblk1 V c 0 t) (slab1 (grid1.coords t) (iblk1 V c 1 t)) prev := by
  unfold soutAt1_C
  exact sout1_C_eq _ _ _ _ _ _ _ _ _ _ _ _ _ _ _ _ _ _ _ _ _

/-- and its output block is the second dense layer and rectifier of that. -/
theorem outAt1_C_eq (c : Dev nD) (t : Fin cfg1.N) (h0 : ¬t.val % 4 = 0) (h1 : t.val % 4 = 3) (prev : Vec Ideal S1024x512 .f32) :
    outAt1_C V c t h0 h1 prev
      = k1_pay3 (k1_pay2 (iblk1 V c 0 t) (slab1 (grid1.coords t) (iblk1 V c 1 t)) prev) (iblk1 V c 2 t) (iblk1 V c 3 t) := by
  unfold outAt1_C
  exact out1_C_eq _ _ _ _ _ _ _ _ _ _ _ _ _ _ _ _ _ _ _ _ _

/-! ## The accumulator, step by step -/

/-- The accumulator after a reduction's first step: zero plus the first part. -/
theorem acc_step0 (c : Dev nD) (t : Fin cfg1.N) (h0 : t.val % 4 = 0) (r : Fin 1024) (h : Fin 512) (rel : Fin 3) (row : Fin 4096)
    (hrel : rel.val = t.val / 16) (hrow : row.val = 1024 * ((t.val / 4) % 4) + r.val) :
    arr S1024x512 (outsAt1 V c t.val t.isLt).2 (ix2 r h) = 0 + part1 V c rel row h 0 (by omega) := by
  have h1 : ¬t.val % 4 = 3 := by omega
  rw [outsAt1_A V c t h0 h1]
  dsimp only
  rw [soutAt1_A_eq V c t h0 h1]
  refine (k1_pay2_apply _ _ _ r h).trans ?_
  exact congrArg₂ (· + ·) (k1_pay1_apply r h) (step_sum V c t r h rel row hrel hrow 0 (by omega) (by omega))

/-- The accumulator after a later step: what the step before left, plus this step's part. -/
theorem acc_next (c : Dev nD) (t : Fin cfg1.N) (h0 : ¬t.val % 4 = 0) (r : Fin 1024) (h : Fin 512) (rel : Fin 3) (row : Fin 4096)
    (hrel : rel.val = t.val / 16) (hrow : row.val = 1024 * ((t.val / 4) % 4) + r.val) (o : ℕ) (ho : o + 1024 ≤ 4096)
    (hot : o = 1024 * (t.val % 4)) :
    arr S1024x512 (outsAt1 V c t.val t.isLt).2 (ix2 r h)
      = arr S1024x512 (outsAt1 V c (t.val - 1) (Nat.lt_of_le_of_lt (Nat.sub_le _ _) t.isLt)).2 (ix2 r h) + part1 V c rel row h o ho := by
  by_cases h1 : t.val % 4 = 3
  · rw [outsAt1_C V c t h0 h1]
    dsimp only
    rw [soutAt1_C_eq V c t h0 h1]
    refine (k1_pay2_apply _ _ _ r h).trans ?_
    exact congrArg (_ + ·) (step_sum V c t r h rel row hrel hrow o ho hot)
  · rw [outsAt1_B V c t h0 h1]
    dsimp only
    rw [soutAt1_B_eq V c t h0 h1]
    refine (k1_pay2_apply _ _ _ r h).trans ?_
    exact congrArg (_ + ·) (step_sum V c t r h rel row hrel hrow o ho hot)

/-- After the second step: zero plus the first two parts. -/
theorem acc_step1 (c : Dev nD) (t : Fin cfg1.N) (hk : t.val % 4 = 1) (r : Fin 1024) (h : Fin 512) (rel : Fin 3) (row : Fin 4096)
    (hrel : rel.val = t.val / 16) (hrow : row.val = 1024 * ((t.val / 4) % 4) + r.val) :
    arr S1024x512 (outsAt1 V c t.val t.isLt).2 (ix2 r h)
      = (0 + part1 V c rel row h 0 (by omega)) + part1 V c rel row h 1024 (by omega) := by
  rw [acc_next V c t (by omega) r h rel row hrel hrow 1024 (by omega) (by omega)]
  exact congrArg (· + _) (acc_step0 V c ⟨t.val - 1, Nat.lt_of_le_of_lt (Nat.sub_le _ _) t.isLt⟩ (by show (t.val - 1) % 4 = 0; omega) r h rel row
    (by show rel.val = (t.val - 1) / 16; omega) (by show row.val = 1024 * (((t.val - 1) / 4) % 4) + r.val; omega))

/-- After the third step: zero plus the first three parts. -/
theorem acc_step2 (c : Dev nD) (t : Fin cfg1.N) (hk : t.val % 4 = 2) (r : Fin 1024) (h : Fin 512) (rel : Fin 3) (row : Fin 4096)
    (hrel : rel.val = t.val / 16) (hrow : row.val = 1024 * ((t.val / 4) % 4) + r.val) :
    arr S1024x512 (outsAt1 V c t.val t.isLt).2 (ix2 r h)
      = ((0 + part1 V c rel row h 0 (by omega)) + part1 V c rel row h 1024 (by omega)) + part1 V c rel row h 2048 (by omega) := by
  rw [acc_next V c t (by omega) r h rel row hrel hrow 2048 (by omega) (by omega)]
  exact congrArg (· + _) (acc_step1 V c ⟨t.val - 1, Nat.lt_of_le_of_lt (Nat.sub_le _ _) t.isLt⟩ (by show (t.val - 1) % 4 = 1; omega) r h rel row
    (by show rel.val = (t.val - 1) / 16; omega) (by show row.val = 1024 * (((t.val - 1) / 4) % 4) + r.val; omega))

/-- After the fourth step: zero plus all four parts. -/
theorem acc_step3 (c : Dev nD) (t : Fin cfg1.N) (hk : t.val % 4 = 3) (r : Fin 1024) (h : Fin 512) (rel : Fin 3) (row : Fin 4096)
    (hrel : rel.val = t.val / 16) (hrow : row.val = 1024 * ((t.val / 4) % 4) + r.val) :
    arr S1024x512 (outsAt1 V c t.val t.isLt).2 (ix2 r h)
      = (((0 + part1 V c rel row h 0 (by omega)) + part1 V c rel row h 1024 (by omega)) + part1 V c rel row h 2048 (by omega))
          + part1 V c rel row h 3072 (by omega) := by
  rw [acc_next V c t (by omega) r h rel row hrel hrow 3072 (by omega) (by omega)]
  exact congrArg (· + _) (acc_step2 V c ⟨t.val - 1, Nat.lt_of_le_of_lt (Nat.sub_le _ _) t.isLt⟩ (by show (t.val - 1) % 4 = 2; omega) r h rel row
    (by show rel.val = (t.val - 1) / 16; omega) (by show row.val = 1024 * (((t.val - 1) / 4) % 4) + r.val; omega))

/-- The neighbour sum of relation rel at target row `row`, feature h: one sum over the relation's 4096 nodes. -/
def M1 (c : Dev nD) (rel : Fin 3) (row : Fin 4096) (h : Fin 512) : EReal := ∑ j : Fin 4096, term1 V c rel row h j

/-- After a reduction's last step the accumulator holds the whole neighbour sum. -/
theorem acc_last (c : Dev nD) (t : Fin cfg1.N) (hk : t.val % 4 = 3) (r : Fin 1024) (h : Fin 512) (rel : Fin 3) (row : Fin 4096)
    (hrel : rel.val = t.val / 16) (hrow : row.val = 1024 * ((t.val / 4) % 4) + r.val) :
    arr S1024x512 (outsAt1 V c t.val t.isLt).2 (ix2 r h) = M1 V c rel row h := by
  rw [acc_step3 V c t hk r h rel row hrel hrow]
  unfold M1
  refine Eq.trans ?_ (sum_four_blocks (term1 V c rel row h))
  unfold part1
  refine congrArg₂ (· + ·) (congrArg₂ (· + ·) (congrArg₂ (· + ·) (congrArg (0 + ·) ?_) rfl) rfl) rfl
  exact Finset.sum_congr rfl fun j _ => congrArg (term1 V c rel row h) (Fin.ext (Nat.zero_add _))

/-! ## The second hidden layer as one array -/

/-- Entry (rel, n, g) of the second hidden layer: the neighbour sums of row n through relation rel's second dense
    layer and rectifier. -/
def g1 (c : Dev nD) (rel : Fin 3) (n : Fin 4096) (g : Fin 512) : EReal :=
  max ((∑ h : Fin 512, M1 V c rel n h * arr S3x512x512 (V c main_arg5) (ix3 rel g h))
      + arr S3x1x512 (V c main_v2) (ix3 rel (0 : Fin 1) g)) (Ideal.ofBits .f32 0x00000000#32)

/-- The second hidden layer as a function of the result array's index. -/
def G1 (c : Dev nD) : S3x4096x512.Idx → EReal := fun i => g1 V c (i 0) (i 1) (i 2)

/-- At a reduction's last position the output block is the finishing arithmetic of the accumulator that position
    leaves. -/
theorem out_last (c : Dev nD) (t : Fin cfg1.N) (h0 : ¬t.val % 4 = 0) (h1 : t.val % 4 = 3) :
    (outsAt1 V c t.val t.isLt).1 = k1_pay3 (outsAt1 V c t.val t.isLt).2 (iblk1 V c 2 t) (iblk1 V c 3 t) := by
  rw [outsAt1_C V c t h0 h1]
  dsimp only
  rw [outAt1_C_eq V c t h0 h1, soutAt1_C_eq V c t h0 h1]

/-- WHAT A REDUCTION'S LAST POSITION WRITES BACK is its block of the second hidden layer. -/
theorem flushed1_eq (c : Dev nD) (t : Fin cfg1.N) (hf : (cfg1.win 4).flush t = true) :
    (dat1 (F := Ideal) V c).flushed 4 t = ((cfg1.win 4).blk t).view.read (Elt Ideal) (G1 V c) := by
  have h1 : t.val % 4 = 3 := (flush1_4 t).mp hf
  have h0 : ¬t.val % 4 = 0 := by omega
  show (cfg1.win 4).cut (grid1.coords t) ((dat1 V c).after 4 t) = _
  rw [after1_4, out_last V c t h0 h1]
  funext j
  obtain ⟨u, r, g, rfl⟩ : ∃ (u : Fin 1) (r : Fin 1024) (g : Fin 512), j = ix3 u r g := ⟨j 0, j 1, j 2, eq_ix3 j⟩
  have ht : t.val < 48 := lt_of_lt_of_eq t.isLt (show cfg1.N = 48 from N_1)
  obtain ⟨-, -, -, -, -, -, -, -, -, -, -, -, e0, e1, e2⟩ := idx_facts1 t
  have hu : u.val = 0 := by omega
  have hidx : ((cfg1.win 4).blk t).view.emb (ix3 u r g)
      = ix3 (⟨t.val / 16, by omega⟩ : Fin 3) (⟨1024 * ((t.val / 4) % 4) + r.val, by omega⟩ : Fin 4096) g :=
    funext fun a => Fin.ext (by
      match a with
      | ⟨0, _⟩ => show win1_4.index t (0 : Fin 3) * 1 + 1 * u.val = t.val / 16; omega
      | ⟨1, _⟩ => show win1_4.index t (1 : Fin 3) * 1024 + 1 * r.val = 1024 * ((t.val / 4) % 4) + r.val; omega
      | ⟨2, _⟩ => show win1_4.index t (2 : Fin 3) * 512 + 1 * g.val = g.val; omega)
  rw [View.read_apply, hidx]
  show _ = g1 V c ⟨t.val / 16, by omega⟩ ⟨1024 * ((t.val / 4) % 4) + r.val, by omega⟩ g
  refine (k1_pay3_apply _ _ _ u r g).trans ?_
  unfold g1
  exact congrArg₂ max (congrArg₂ (· + ·) (Finset.sum_congr rfl fun h _ => congrArg₂ (· * ·)
      (acc_last V c t h1 r h (⟨t.val / 16, by omega⟩ : Fin 3) (⟨1024 * ((t.val / 4) % 4) + r.val, by omega⟩ : Fin 4096) rfl rfl)
      (iblk1_2_apply V c t 0 g h (⟨t.val / 16, by omega⟩ : Fin 3) rfl))
    (iblk1_3_apply V c t 0 0 g (⟨t.val / 16, by omega⟩ : Fin 3) rfl)) rfl
/-- An index of the result array is in position t's block iff each coordinate is in the block's range on its axis. -/
theorem mem_blk1 (t : Fin cfg1.N) (i : S3x4096x512.Idx) :
    i ∈ ((cfg1.win 4).blk t).view.set ↔ ∀ a : Fin 3, win1_4.index t a * S1x1024x512.size a ≤ (i a).val ∧ (i a).val < win1_4.index t a * S1x1024x512.size a + S1x1024x512.size a := by
  show i ∈ ((View.whole main_v7).slice (win1_4.rect t)).set ↔ _
  rw [View.set_slice_whole, Rect.mem_set_unit]
  exact Iff.rfl

/-- THE RESULT ARRAY after the region is the second hidden layer: entry (rel, n, ·) lies in the block written at
    the last step of relation rel's row tile n / 1024, position 16 rel + 4 (n / 1024) + 3. -/
theorem final1 (c : Dev nD) : (dat1 (F := Ideal) V c).arrAt 4 cfg1.N = G1 V c :=
  (dat1 V c).arrAt_eq_of_cover 4 (G1 V c) (fun t hf => flushed1_eq V c t hf) fun i => by
    have h0 : (i 0).val < 3 := (i 0).isLt
    have h1 : (i 1).val < 4096 := (i 1).isLt
    have h2 : (i 2).val < 512 := (i 2).isLt
    have hN : cfg1.N = 48 := N_1
    refine ⟨⟨16 * (i 0).val + 4 * ((i 1).val / 1024) + 3, by omega⟩, (flush1_4 _).mpr (by show (16 * (i 0).val + 4 * ((i 1).val / 1024) + 3) % 4 = 3; omega), ?_⟩
    rw [mem_blk1]
    obtain ⟨-, -, -, -, -, -, -, -, -, -, -, -, e0, e1, e2⟩ := idx_facts1 ⟨16 * (i 0).val + 4 * ((i 1).val / 1024) + 3, by omega⟩
    intro a
    match a with
    | ⟨0, _⟩ => show win1_4.index _ (0 : Fin 3) * 1 ≤ (i 0).val ∧ (i 0).val < win1_4.index _ (0 : Fin 3) * 1 + 1; rw [e0]; show (16 * (i 0).val + 4 * ((i 1).val / 1024) + 3) / 16 * 1 ≤ _ ∧ _ < (16 * (i 0).val + 4 * ((i 1).val / 1024) + 3) / 16 * 1 + 1; omega
    | ⟨1, _⟩ => show win1_4.index _ (1 : Fin 3) * 1024 ≤ (i 1).val ∧ (i 1).val < win1_4.index _ (1 : Fin 3) * 1024 + 1024; rw [e1]; show (16 * (i 0).val + 4 * ((i 1).val / 1024) + 3) / 4 % 4 * 1024 ≤ _ ∧ _ < (16 * (i 0).val + 4 * ((i 1).val / 1024) + 3) / 4 % 4 * 1024 + 1024; omega
    | ⟨2, _⟩ => show win1_4.index _ (2 : Fin 3) * 512 ≤ (i 2).val ∧ (i 2).val < win1_4.index _ (2 : Fin 3) * 512 + 512; rw [e2]; omega

end Cert.KernelIdeal.PayValue
end
-- ==== Proof.Val.Final2.lean ====
/-
  The final linear layer and the log-softmax as one array.

  The third region walks three positions, one per relation. Position t multiplies the 4096 × 512 second-layer
  features of relation t by the transpose of relation t's 32 × 512 slice of the last weight matrix and adds the
  product to a 4096 × 32 accumulator that the first position starts from zero. After the last position the
  accumulator holds, at (r, c),

      ((0 + P(0)) + P(1)) + P(2),      P(t) = Σ_h h2(t, r, h) · wl(t, c, h),

  added left to right — which is one sum over the 1536 pairs (t, h), taken in the order 512 t + h. The last
  position then adds the bias row, takes the row-wise log-softmax and writes the whole 4096 × 32 result, its one
  block (`final2`).
-/
import proofs.«101938_j11553462026818_2_alg».proof.Proof.KI.F2
import proofs.«101938_j11553462026818_2_alg».proof.Proof.KI.Pieces
import proofs.«101938_j11553462026818_2_alg».proof.Proof.Val.Pay2
import proofs.«101938_j11553462026818_2_alg».proof.Proof.Val.Arr
import proofs.«101938_j11553462026818_2_alg».proof.Proof.Val.Sums
import Idealize.ShloMosaic.Lib.Pipeline.Value

noncomputable section

namespace Cert.KernelIdeal.PayValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Where each window's block sits at position t: relation t for the features and for the weight slices, the whole
    of the bias and of the result. -/
theorem idx_facts2 : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- The block of second-layer features at position t: relation t's 4096 rows. -/
theorem iblk2_0_apply (c : Dev nD) (t : Fin cfg2.N) (u : Fin 1) (r : Fin 4096) (h : Fin 512) (T : Fin 3) (hT : T.val = t.val) :
    (iblk2 V c 0 t : Vec Ideal S1x4096x512 .bf16) (ix3 u r h) = arr S3x4096x512 (V c main_v7) (ix3 T r h) := by
  obtain ⟨e0, e1, e2, -⟩ := idx_facts2 t
  unfold iblk2
  rw [View.read_apply]
  show V c main_v7 _ = V c main_v7 _
  refine congrArg (V c main_v7) (funext fun a => Fin.ext ?_)
  have hu : u.val = 0 := by omega
  match a with
  | ⟨0, _⟩ => show win2_0.index t (0 : Fin 3) * 1 + 1 * u.val = T.val; omega
  | ⟨1, _⟩ => show win2_0.index t (1 : Fin 3) * 4096 + 1 * r.val = r.val; omega
  | ⟨2, _⟩ => show win2_0.index t (2 : Fin 3) * 512 + 1 * h.val = h.val; omega

/-- The block of last-layer weights at position t: relation t's 32 × 512 slice. -/
theorem iblk2_1_apply (c : Dev nD) (t : Fin cfg2.N) (u : Fin 1) (cc : Fin 32) (h : Fin 512) (T : Fin 3) (hT : T.val = t.val) :
    (iblk2 V c 1 t : Vec Ideal S1x32x512 .f32) (ix3 u cc h) = arr S3x32x512 (V c main_v4) (ix3 T cc h) := by
  obtain ⟨-, -, -, e0, e1, e2, -⟩ := idx_facts2 t
  unfold iblk2
  rw [View.read_apply]
  show V c main_v4 _ = V c main_v4 _
  refine congrArg (V c main_v4) (funext fun a => Fin.ext ?_)
  have hu : u.val = 0 := by omega
  match a with
  | ⟨0, _⟩ => show win2_1.index t (0 : Fin 3) * 1 + 1 * u.val = T.val; omega
  | ⟨1, _⟩ => show win2_1.index t (1 : Fin 3) * 32 + 1 * cc.val = cc.val; omega
  | ⟨2, _⟩ => show win2_1.index t (2 : Fin 3) * 512 + 1 * h.val = h.val; omega

/-- The bias block at every position: the whole bias row. -/
theorem iblk2_2_apply (c : Dev nD) (t : Fin cfg2.N) (u : Fin 1) (cc : Fin 32) :
    (iblk2 V c 2 t : Vec Ideal S1x32 .f32) (ix2 u cc) = arr S1x32 (V c main_v5) (ix2 (0 : Fin 1) cc) := by
  obtain ⟨-, -, -, -, -, -, e0, e1, -⟩ := idx_facts2 t
  unfold iblk2
  rw [View.read_apply]
  show V c main_v5 _ = V c main_v5 _
  refine congrArg (V c main_v5) (funext fun a => Fin.ext ?_)
  have hu : u.val = 0 := by omega
  match a with
  | ⟨0, _⟩ => show win2_2.index t (0 : Fin 2) * 1 + 1 * u.val = 0; omega
  | ⟨1, _⟩ => show win2_2.index t (1 : Fin 2) * 32 + 1 * cc.val = cc.val; omega

/-- Relation T's contribution to the class score (r, cc): row r of its features against row cc of its weight slice. -/
def P2 (c : Dev nD) (T : Fin 3) (r : Fin 4096) (cc : Fin 32) : EReal :=
  ∑ h : Fin 512, arr S3x4096x512 (V c main_v7) (ix3 T r h) * arr S3x32x512 (V c main_v4) (ix3 T cc h)

/-- What position t adds at (r, cc): relation t's contribution. -/
theorem step2_sum (c : Dev nD) (t : Fin cfg2.N) (r : Fin 4096) (cc : Fin 32) (T : Fin 3) (hT : T.val = t.val) :
    (∑ h : Fin 512, arr S1x4096x512 (iblk2 V c 0 t) (ix3 (0 : Fin 1) r h) * arr S1x32x512 (iblk2 V c 1 t) (ix3 (0 : Fin 1) cc h))
      = P2 V c T r cc := by
  unfold P2
  exact Finset.sum_congr rfl fun h _ => congrArg₂ (· * ·) (iblk2_0_apply V c t 0 r h T hT) (iblk2_1_apply V c t 0 cc h T hT)

/-! ## What each position leaves, as the body's arithmetic of the position's blocks -/

/-- The first position leaves one product added to zero. -/
theorem soutAt2_A_eq (c : Dev nD) (t : Fin cfg2.N) (h0 : t.val % 3 = 0) (h1 : ¬t.val % 3 = 2) :
    soutAt2_A V c t h0 h1 = k2_pay2 (iblk2 V c 0 t) (iblk2 V c 1 t) (k2_pay1 (F := Ideal)) := by
  unfold soutAt2_A
  exact sout2_A_eq _ _ _ _ _ _ _ _ _ _ _ _ _ _ _ _ _

/-- A middle position leaves one product added to what the position before left. -/
theorem soutAt2_B_eq (c : Dev nD) (t : Fin cfg2.N) (h0 : ¬t.val % 3 = 0) (h1 : ¬t.val % 3 = 2) (prev : Vec Ideal S4096x32 .f32) :
    soutAt2_B V c t h0 h1 prev = k2_pay2 (iblk2 V c 0 t) (iblk2 V c 1 t) prev := by
  unfold soutAt2_B
  exact sout2_B_eq _ _ _ _ _ _ _ _ _ _ _ _ _ _ _ _ _ _

/-- So does the last position, -/
theorem soutAt2_C_eq (c : Dev nD) (t : Fin cfg2.N) (h0 : ¬t.val % 3 = 0) (h1 : t.val % 3 = 2) (prev : Vec Ideal S4096x32 .f32) :
    soutAt2_C V c t h0 h1 prev = k2_pay2 (iblk2 V c 0 t) (iblk2 V c 1 t) prev := by
  unfold soutAt2_C
  exact sout2_C_eq _ _ _ _ _ _ _ _ _ _ _ _ _ _ _ _ _ _

/-- and its output block is the bias and the log-softmax of that. -/
theorem outAt2_C_eq (c : Dev nD) (t : Fin cfg2.N) (h0 : ¬t.val % 3 = 0) (h1 : t.val % 3 = 2) (prev : Vec Ideal S4096x32 .f32) :
    outAt2_C V c t h0 h1 prev = k2_pay3 (k2_pay2 (iblk2 V c 0 t) (iblk2 V c 1 t) prev) (iblk2 V c 2 t) := by
  unfold outAt2_C
  exact out2_C_eq _ _ _ _ _ _ _ _ _ _ _ _ _ _ _ _ _ _

/-! ## The accumulator, position by position -/

/-- After the first position: zero plus relation 0's contribution. -/
theorem acc2_step0 (c : Dev nD) (t : Fin cfg2.N) (h0 : t.val % 3 = 0) (r : Fin 4096) (cc : Fin 32) (T : Fin 3) (hT : T.val = t.val) :
    arr S4096x32 (outsAt2 V c t.val t.isLt).2 (ix2 r cc) = 0 + P2 V c T r cc := by
  have h1 : ¬t.val % 3 = 2 := by omega
  rw [outsAt2_A V c t h0 h1]
  dsimp only
  rw [soutAt2_A_eq V c t h0 h1]
  refine (k2_pay2_apply _ _ _ r cc).trans ?_
  exact congrArg₂ (· + ·) (k2_pay1_apply r cc) (step2_sum V c t r cc T hT)

/-- After a later position: what the position before left, plus this relation's contribution. -/
theorem acc2_next (c : Dev nD) (t : Fin cfg2.N) (h0 : ¬t.val % 3 = 0) (r : Fin 4096) (cc : Fin 32) (T : Fin 3) (hT : T.val = t.val) :
    arr S4096x32 (outsAt2 V c t.val t.isLt).2 (ix2 r cc)
      = arr S4096x32 (outsAt2 V c (t.val - 1) (Nat.lt_of_le_of_lt (Nat.sub_le _ _) t.isLt)).2 (ix2 r cc) + P2 V c T r cc := by
  by_cases h1 : t.val % 3 = 2
  · rw [outsAt2_C V c t h0 h1]
    dsimp only
    rw [soutAt2_C_eq V c t h0 h1]
    refine (k2_pay2_apply _ _ _ r cc).trans ?_
    exact congrArg (_ + ·) (step2_sum V c t r cc T hT)
  · rw [outsAt2_B V c t h0 h1]
    dsimp only
    rw [soutAt2_B_eq V c t h0 h1]
    refine (k2_pay2_apply _ _ _ r cc).trans ?_
    exact congrArg (_ + ·) (step2_sum V c t r cc T hT)

/-- After the second position: zero plus the first two relations' contributions. -/
theorem acc2_step1 (c : Dev nD) (t : Fin cfg2.N) (hk : t.val % 3 = 1) (r : Fin 4096) (cc : Fin 32) :
    arr S4096x32 (outsAt2 V c t.val t.isLt).2 (ix2 r cc) = (0 + P2 V c 0 r cc) + P2 V c 1 r cc := by
  have ht : t.val < 3 := lt_of_lt_of_eq t.isLt (show cfg2.N = 3 from N_2)
  rw [acc2_next V c t (by omega) r cc 1 (by show 1 = t.val; omega)]
  exact congrArg (· + _) (acc2_step0 V c ⟨t.val - 1, Nat.lt_of_le_of_lt (Nat.sub_le _ _) t.isLt⟩ (by show (t.val - 1) % 3 = 0; omega) r cc 0
    (by show 0 = t.val - 1; omega))

/-- After the third position: zero plus all three relations' contributions. -/
theorem acc2_step2 (c : Dev nD) (t : Fin cfg2.N) (hk : t.val % 3 = 2) (r : Fin 4096) (cc : Fin 32) :
    arr S4096x32 (outsAt2 V c t.val t.isLt).2 (ix2 r cc) = ((0 + P2 V c 0 r cc) + P2 V c 1 r cc) + P2 V c 2 r cc := by
  have ht : t.val < 3 := lt_of_lt_of_eq t.isLt (show cfg2.N = 3 from N_2)
  rw [acc2_next V c t (by omega) r cc 2 (by show 2 = t.val; omega)]
  exact congrArg (· + _) (acc2_step1 V c ⟨t.val - 1, Nat.lt_of_le_of_lt (Nat.sub_le _ _) t.isLt⟩ (by show (t.val - 1) % 3 = 1; omega) r cc)

/-! ## The same as one sum over the 1536 side-by-side features -/

/-- One term of the class score (r, cc): side-by-side feature j is feature j % 512 of relation j / 512. -/
def term2 (c : Dev nD) (r : Fin 4096) (cc : Fin 32) (j : Fin 1536) : EReal :=
  arr S3x4096x512 (V c main_v7) (ix3 (⟨j.val / 512, by omega⟩ : Fin 3) r (⟨j.val % 512, by omega⟩ : Fin 512))
    * arr S3x32x512 (V c main_v4) (ix3 (⟨j.val / 512, by omega⟩ : Fin 3) cc (⟨j.val % 512, by omega⟩ : Fin 512))

/-- Relation T's contribution is the block of 512 terms from 512 T on. -/
theorem P2_eq_block (c : Dev nD) (T : Fin 3) (r : Fin 4096) (cc : Fin 32) (o : ℕ) (ho : o = 512 * T.val) :
    P2 V c T r cc = ∑ h : Fin 512, term2 V c r cc ⟨o + h.val, by omega⟩ := by
  unfold P2 term2
  refine Finset.sum_congr rfl fun h _ => ?_
  have eT : (⟨(o + h.val) / 512, by omega⟩ : Fin 3) = T := Fin.ext (by show (o + h.val) / 512 = T.val; omega)
  have eh : (⟨(o + h.val) % 512, by omega⟩ : Fin 512) = h := Fin.ext (by show (o + h.val) % 512 = h.val; omega)
  rw [eT, eh]

/-- The three contributions added in order are the one sum over all 1536 terms. -/
theorem acc2_one_sum (c : Dev nD) (r : Fin 4096) (cc : Fin 32) :
    ((0 + P2 V c 0 r cc) + P2 V c 1 r cc) + P2 V c 2 r cc = ∑ j : Fin 1536, term2 V c r cc j := by
  refine Eq.trans ?_ (sum_three_blocks (term2 V c r cc))
  refine congrArg₂ (· + ·) (congrArg₂ (· + ·) (congrArg (0 + ·) ?_) ?_) ?_
  · refine (P2_eq_block V c 0 r cc 0 rfl).trans ?_
    exact Finset.sum_congr rfl fun h _ => congrArg (term2 V c r cc) (Fin.ext (Nat.zero_add _))
  · exact P2_eq_block V c 1 r cc 512 rfl
  · exact P2_eq_block V c 2 r cc 1024 rfl

/-! ## The result as one array -/

/-- The accumulated class score (r, cc): the three relations' contributions added in order, from zero. -/
def acc2 (c : Dev nD) (r : Fin 4096) (cc : Fin 32) : EReal := ((0 + P2 V c 0 r cc) + P2 V c 1 r cc) + P2 V c 2 r cc

/-- The same as one sum over the 1536 side-by-side features. -/
theorem acc2_eq_sum (c : Dev nD) (r : Fin 4096) (cc : Fin 32) : acc2 V c r cc = ∑ j : Fin 1536, term2 V c r cc j :=
  acc2_one_sum V c r cc

/-- Entry (r, cc) of the result: the log-softmax of row r of the class scores (accumulated score plus bias), at
    column cc. -/
def g2 (c : Dev nD) (r : Fin 4096) (cc : Fin 32) : EReal :=
  logSoftmaxRow (fun c' => acc2 V c r c' + arr S1x32 (V c main_v5) (ix2 (0 : Fin 1) c')) cc

/-- The result as a function of the result array's index. -/
def G2 (c : Dev nD) : S4096x32.Idx → EReal := fun i => g2 V c (i 0) (i 1)

/-- At the last position the output block is the finishing arithmetic of the accumulator that position leaves. -/
theorem out2_last (c : Dev nD) (t : Fin cfg2.N) (h0 : ¬t.val % 3 = 0) (h1 : t.val % 3 = 2) :
    (outsAt2 V c t.val t.isLt).1 = k2_pay3 (outsAt2 V c t.val t.isLt).2 (iblk2 V c 2 t) := by
  rw [outsAt2_C V c t h0 h1]
  dsimp only
  rw [outAt2_C_eq V c t h0 h1, soutAt2_C_eq V c t h0 h1]

/-- WHAT THE LAST POSITION WRITES BACK is the whole result. -/
theorem flushed2_eq (c : Dev nD) (t : Fin cfg2.N) (hf : (cfg2.win 3).flush t = true) :
    (dat2 (F := Ideal) V c).flushed 3 t = ((cfg2.win 3).blk t).view.read (Elt Ideal) (G2 V c) := by
  have h1 : t.val % 3 = 2 := (flush2_3 t).mp hf
  have h0 : ¬t.val % 3 = 0 := by omega
  show (cfg2.win 3).cut (grid2.coords t) ((dat2 V c).after 3 t) = _
  rw [after2_3, out2_last V c t h0 h1]
  funext j
  obtain ⟨r, cc, rfl⟩ : ∃ (r : Fin 4096) (cc : Fin 32), j = ix2 r cc := ⟨j 0, j 1, eq_ix2 j⟩
  obtain ⟨-, -, -, -, -, -, -, -, e0, e1⟩ := idx_facts2 t
  have hidx : ((cfg2.win 3).blk t).view.emb (ix2 r cc) = ix2 r cc :=
    funext fun a => Fin.ext (by
      match a with
      | ⟨0, _⟩ => show win2_3.index t (0 : Fin 2) * 4096 + 1 * r.val = r.val; omega
      | ⟨1, _⟩ => show win2_3.index t (1 : Fin 2) * 32 + 1 * cc.val = cc.val; omega)
  rw [View.read_apply, hidx]
  show _ = g2 V c r cc
  refine (k2_pay3_eq_logSoftmaxRow _ _ r cc).trans ?_
  unfold g2 acc2
  exact congrArg (logSoftmaxRow · cc) (funext fun c' => congrArg₂ (· + ·) (acc2_step2 V c t h1 r c') (iblk2_2_apply V c t 0 c'))

/-- An index of the result array is in position t's block iff each coordinate is in the block's range on its axis. -/
theorem mem_blk2 (t : Fin cfg2.N) (i : S4096x32.Idx) :
    i ∈ ((cfg2.win 3).blk t).view.set ↔ ∀ a : Fin 2, win2_3.index t a * S4096x32.size a ≤ (i a).val ∧ (i a).val < win2_3.index t a * S4096x32.size a + S4096x32.size a := by
  show i ∈ ((View.whole main_v8).slice (win2_3.rect t)).set ↔ _
  rw [View.set_slice_whole, Rect.mem_set_unit]
  exact Iff.rfl

/-- THE RESULT ARRAY after the region: the last position's one block is the whole array. -/
theorem final2 (c : Dev nD) : (dat2 (F := Ideal) V c).arrAt 3 cfg2.N = G2 V c :=
  (dat2 V c).arrAt_eq_of_cover 3 (G2 V c) (fun t hf => flushed2_eq V c t hf) fun i => by
    have h0 : (i 0).val < 4096 := (i 0).isLt
    have h1 : (i 1).val < 32 := (i 1).isLt
    have hN : cfg2.N = 3 := N_2
    refine ⟨⟨2, by omega⟩, (flush2_3 _).mpr rfl, ?_⟩
    rw [mem_blk2]
    obtain ⟨-, -, -, -, -, -, -, -, e0, e1⟩ := idx_facts2 ⟨2, by omega⟩
    intro a
    match a with
    | ⟨0, _⟩ => show win2_3.index _ (0 : Fin 2) * 4096 ≤ (i 0).val ∧ (i 0).val < win2_3.index _ (0 : Fin 2) * 4096 + 4096; rw [e0]; omega
    | ⟨1, _⟩ => show win2_3.index _ (1 : Fin 2) * 32 ≤ (i 1).val ∧ (i 1).val < win2_3.index _ (1 : Fin 2) * 32 + 32; rw [e1]; omega

end Cert.KernelIdeal.PayValue

end
-- ==== Proof.Glue.Final.lean ====
/-
  The kernel program's result array is the specification's function of the launch arguments.

  The second region's result array, read at (block, row, feature), is the second dense layer of the block's
  aggregation of the first region's result array, with the adjacency, the weights and the bias as launched. The third
  region's result array, read at (row, class), is the log-softmax of the row of class scores totalled block by block
  from the second region's result array. With the first region's array being the specification's first layer, the
  regrouping of the sums makes the whole the specification's result.
-/
import proofs.«101938_j11553462026818_2_alg».proof.Proof.Glue.Bridge
import proofs.«101938_j11553462026818_2_alg».proof.Proof.Glue.Chain
import proofs.«101938_j11553462026818_2_alg».proof.Proof.Val.Final1
import proofs.«101938_j11553462026818_2_alg».proof.Proof.Val.Final2

noncomputable section

namespace Cert.KernelIdeal.Glue

open Cert.KernelIdeal Cert.KernelIdeal.Gen Cert.KernelIdeal.Hand Cert.KernelIdeal.PayValue
open Idealize.ShloMosaic Idealize.ShloMosaic.TcCoe Idealize.SL.Sem
open Idealize.ShloMosaic.ValueIdx RelGraph

variable (m : (ℓ : Loc nD τ sig) → Buf (Elt Ideal) ℓ) (ρ : Dev nD → PrngReg)

/-- Column `4096 t + j` of 12288 is row `j` of block `t`. -/
theorem blockRow_eq (t : Fin 3) (j : Fin 4096) : (⟨4096 * t.val + j.val, by omega⟩ : Fin 12288) = blockRow t j :=
  Fin.ext (by show 4096 * t.val + j.val = t.val * 4096 + j.val; omega)

/-- The second region's result array at (block, row, feature): the second dense layer, with bias and rectifier, of
    the block's aggregation of the first region's result array. -/
theorem region1_out (c : Dev nD) (t : Fin 3) (i : Fin 4096) (g : Fin 512) :
    at3 m ρ c main_v7 (ix3 t i g)
      = max ((∑ h : Fin 512, (∑ j : Fin 4096, arr2 (m ((c : Thread nD τ).loc main_arg1)) (topRow i) (blockRow t j)
              * at2 m ρ c main_v6 (ix3 t j h)) * arr3 (m ((c : Thread nD τ).loc main_arg5)) t g h)
          + arr2 (m ((c : Thread nD τ).loc main_arg6)) t g) zeroWord := by
  rw [at3_v7, final1]
  show g1 (at2 m ρ) c t i g = _
  unfold g1 M1 term1
  refine congrArg₂ max (congrArg₂ (· + ·) (Finset.sum_congr rfl fun h _ => congrArg₂ (· * ·)
    (Finset.sum_congr rfl fun j _ => congrArg₂ (· * ·) ?_ rfl)
    (congrArg (fun X => arr S3x512x512 X (ix3 t g h)) (at2_arg5 m ρ c))) (at2_v2 m ρ c t g)) rfl
  show arr S12288x12288 (at2 m ρ c main_arg1) (ix2 _ _) = _
  rw [at2_arg1, blockRow_eq t j]
  rfl

/-- The log-softmax of the row of class scores, each totalled block by block from the second region's result array
    against the re-cut final weights and then the re-cut bias, is the specification's result. -/
theorem scores_out (c : Dev nD) (r : Fin 4096) (cc : Fin 32) :
    logSoftmaxRow (fun c' => (((0 + ∑ h : Fin 512, arr S3x4096x512 (at3 m ρ c main_v7) (ix3 (0 : Fin 3) r h) * arr S3x32x512 (at3 m ρ c main_v4) (ix3 (0 : Fin 3) c' h))
          + ∑ h : Fin 512, arr S3x4096x512 (at3 m ρ c main_v7) (ix3 (1 : Fin 3) r h) * arr S3x32x512 (at3 m ρ c main_v4) (ix3 (1 : Fin 3) c' h))
          + ∑ h : Fin 512, arr S3x4096x512 (at3 m ρ c main_v7) (ix3 (2 : Fin 3) r h) * arr S3x32x512 (at3 m ρ c main_v4) (ix3 (2 : Fin 3) c' h))
        + arr S1x32 (at3 m ρ c main_v5) (ix2 (0 : Fin 1) c')) cc
      = out (arr2 (m ((c : Thread nD τ).loc main_arg0))) (arr2 (m ((c : Thread nD τ).loc main_arg1)))
          (arr3 (m ((c : Thread nD τ).loc main_arg3))) (arr2 (m ((c : Thread nD τ).loc main_arg4)))
          (arr3 (m ((c : Thread nD τ).loc main_arg5))) (arr2 (m ((c : Thread nD τ).loc main_arg6)))
          (arr2 (m ((c : Thread nD τ).loc main_arg7))) (arr1 (m ((c : Thread nD τ).loc main_arg8))) r cc := by
  refine Eq.trans ?_ (out_bridge (arr2 (m ((c : Thread nD τ).loc main_arg0))) (arr2 (m ((c : Thread nD τ).loc main_arg1))) (arr3 (m ((c : Thread nD τ).loc main_arg3))) (arr2 (m ((c : Thread nD τ).loc main_arg4))) (arr3 (m ((c : Thread nD τ).loc main_arg5))) (arr2 (m ((c : Thread nD τ).loc main_arg6))) (arr2 (m ((c : Thread nD τ).loc main_arg7))) (arr1 (m ((c : Thread nD τ).loc main_arg8)))
    (fun t n g => at2 m ρ c main_v6 (ix3 t n g)) (fun t i g => at3 m ρ c main_v7 (ix3 t i g))
    (fun t n g => at2_v6_apply m ρ c t n g) (fun t i g => region1_out m ρ c t i g) r cc)
  refine congrArg (logSoftmaxRow · cc) (funext fun c' => ?_)
  exact congrArg₂ (· + ·) (congrArg₂ (· + ·) (congrArg₂ (· + ·) (congrArg (0 + ·)
      (Finset.sum_congr rfl fun h _ => congrArg (arr S3x4096x512 (at3 m ρ c main_v7) (ix3 (0 : Fin 3) r h) * ·) (at3_v4 m ρ c 0 c' h)))
      (Finset.sum_congr rfl fun h _ => congrArg (arr S3x4096x512 (at3 m ρ c main_v7) (ix3 (1 : Fin 3) r h) * ·) (at3_v4 m ρ c 1 c' h)))
      (Finset.sum_congr rfl fun h _ => congrArg (arr S3x4096x512 (at3 m ρ c main_v7) (ix3 (2 : Fin 3) r h) * ·) (at3_v4 m ρ c 2 c' h)))
    (at3_v5 m ρ c c')

/-- THE KERNEL PROGRAM'S RESULT ARRAY, read at (row, class), is the specification's result of the launch arguments. -/
theorem kernel_out (c : Dev nD) (r : Fin 4096) (cc : Fin 32) :
    (dat2 (F := Ideal) (at3 m ρ) c).arrAt 3 cfg2.N (ix2 r cc)
      = out (arr2 (m ((c : Thread nD τ).loc main_arg0))) (arr2 (m ((c : Thread nD τ).loc main_arg1)))
          (arr3 (m ((c : Thread nD τ).loc main_arg3))) (arr2 (m ((c : Thread nD τ).loc main_arg4)))
          (arr3 (m ((c : Thread nD τ).loc main_arg5))) (arr2 (m ((c : Thread nD τ).loc main_arg6)))
          (arr2 (m ((c : Thread nD τ).loc main_arg7))) (arr1 (m ((c : Thread nD τ).loc main_arg8))) r cc := by
  rw [final2]
  show g2 (at3 m ρ) c r cc = _
  unfold g2 acc2 P2
  exact scores_out m ρ c r cc

end Cert.KernelIdeal.Glue

end
-- ==== Proof.lean ====
/-
  A three-relation graph network with T = 3 relations, 4096 nodes per relation, 512 features and 32 classes.
  With xs the input features split into the three relations' blocks of rows:
    h[t]  = max(xs[t] · W_conv[t]ᵀ + b_conv[t], 0)
    m[t]  = adj[0..4095, 4096 t .. 4096 t + 4095] · h[t]
    h2[t] = max(m[t] · W_sage[t]ᵀ + b_sage[t], 0)
    logits = Σ_t h2[t] · W_lin[:, 512 t .. 512 t + 511]ᵀ + b_lin,   out = the row-wise log-softmax of logits.
  The kernel program computes this in three kernel regions behind six layout operations: the first region the h[t], tile by
  tile; the second the m[t] as four partial products of 1024 columns each, accumulated on chip, finished into h2[t] at
  the fourth; the third the logits as three partial products, one per relation, accumulated on chip, finished into the
  log-softmax at the third. The reference computes the same quantities with whole-array operations: one sum over 4096 for
  m, one sum over 1536 for the logits. At the exact extended reals a change of float format is the identity, so the two
  sides differ only in how those two sums are grouped, and addition of extended reals is commutative and associative
  whatever the summands: no finiteness of the inputs is used.

  The three frame claims: each kernel program's run is the several-region launch theorem over one segment per region,
  the two reducing regions under an invariant that names the on-chip accumulator's contents between grid positions;
  the reference's run is its 41 host operations in sequence. The idealization changed no operation, so the fourth claim
  is trivial. The fifth: the kernel's result array is the last region's output array, which, read back through the three
  regions and the layout operations to the launch arrays, is the same function of them as the reference's result.
-/
import proofs.«101938_j11553462026818_2_alg».proof.Defs
import proofs.«101938_j11553462026818_2_alg».proof.Proof.Gen.Kernel
import proofs.«101938_j11553462026818_2_alg».proof.Proof.Gen.KernelIdeal
import proofs.«101938_j11553462026818_2_alg».proof.Proof.Gen.ReferenceIdeal
import proofs.«101938_j11553462026818_2_alg».proof.Proof.Gen.Pre_finite_inputs
import proofs.«101938_j11553462026818_2_alg».proof.Proof.K.Main
import proofs.«101938_j11553462026818_2_alg».proof.Proof.KI.Main
import proofs.«101938_j11553462026818_2_alg».proof.Proof.Ref.IsSpec
import proofs.«101938_j11553462026818_2_alg».proof.Proof.Glue.Final
import Idealize.ShloMosaic.Adequacy
import Idealize.ShloMosaic.Init

noncomputable section

namespace Cert.Proof

open Idealize.ShloMosaic Idealize.ShloMosaic.ValueIdx Idealize.SL.Sem

/-- The kernel program as printed runs to its end, nothing faulting, and leaves its nine arguments as launched. -/
theorem frame_k : Cert.frame_Kernel := fun m ρ _ => Cert.Kernel.Hand.frame (F := Bits) m ρ
/-- The same program read at the exact extended reals. -/
theorem frame_ki : Cert.frame_KernelIdeal := fun m ρ _ => Cert.KernelIdeal.Hand.frame (F := Ideal) m ρ
/-- The reference: a straight line of host operations, none of which writes an argument. -/
theorem frame_ri : Cert.frame_ReferenceIdeal := fun m ρ _ => Cert.ReferenceIdeal.RefValue.frame (F := Ideal) m ρ
/-- The idealization rewrote no operation. -/
theorem preserves : Cert.preserves_Kernel_KernelIdeal := trivial

/-- From memories that agree on the arguments both programs end with the same result array: entry (i, k) of either is
    the log-softmax, over the 32 classes, of node i's logits. -/
theorem algebraic : Cert.algebraic_KernelIdeal_ReferenceIdeal := by
  intro m ρ m' ρ' _ hagree
  refine ⟨fun c => (Cert.KernelIdeal.Hand.dat2 (F := Ideal) (Cert.KernelIdeal.Hand.at3 m ρ) c).arrAt 3 Cert.KernelIdeal.cfg2.N,
    Cert.KernelIdeal.Hand.run_value (F := Ideal) m ρ, ?_⟩
  refine (θ_run Cert.ReferenceIdeal.defs _ _).mono (fun _ h c => ⟨(h c).1.trans ?_, (h c).2⟩)
    (Cert.ReferenceIdeal.RefValue.run (F := Ideal) m' ρ')
  obtain ⟨e0, e1, _, e3, e4, e5, e6, e7, e8⟩ := hagree c
  funext j
  obtain ⟨i, k, rfl⟩ : ∃ i k, j = ix2 i k := ⟨j 0, j 1, eq_ix2 j⟩
  rw [Cert.ReferenceIdeal.RefValue.res_apply, e0, e1, e3, e4, e5, e6, e7, e8]
  exact (Cert.KernelIdeal.Glue.kernel_out m ρ c i k).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
